-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8x1024x1024 .f32) (main_arg1 : FVec F S8x1024x1024 .f32) (main_arg2 : FVec F S8x1024x1024 .f32) (main_arg3 : FVec F S1024x1024 .f32) (main_arg4 : FVec F S1024x1024 .f32) (main_arg5 : FVec F S1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x1024x1024 : Shape := ⟨3, ![8, 1024, 1024]⟩
abbrev S1024x1024 : Shape := ⟨2, ![1024, 1024]⟩
abbrev S8192x1024 : Shape := ⟨2, ![8192, 1024]⟩
abbrev S1x8192x1024 : Shape := ⟨3, ![1, 8192, 1024]⟩
abbrev S2x8192x1024 : Shape := ⟨3, ![2, 8192, 1024]⟩
abbrev S1x1024x1024 : Shape := ⟨3, ![1, 1024, 1024]⟩
abbrev S2x1024x1024 : Shape := ⟨3, ![2, 1024, 1024]⟩
abbrev S1x512x1024 : Shape := ⟨3, ![1, 512, 1024]⟩
abbrev S512x1 : Shape := ⟨2, ![512, 1]⟩
abbrev S512x1024 : Shape := ⟨2, ![512, 1024]⟩
abbrev S512x512 : Shape := ⟨2, ![512, 512]⟩
abbrev S512 : Shape := ⟨1, ![512]⟩

abbrev nBuf : Space → Nat
  | .hbm => 25
  | .vmem => 19
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S8192x1024, .f32⟩
  | .hbm, ⟨10, _⟩ => ⟨S8192x1024, .f32⟩
  | .hbm, ⟨11, _⟩ => ⟨S1x8192x1024, .f32⟩
  | .hbm, ⟨12, _⟩ => ⟨S1x8192x1024, .f32⟩
  | .hbm, ⟨13, _⟩ => ⟨S2x8192x1024, .f32⟩
  | .hbm, ⟨14, _⟩ => ⟨S1x1024x1024, .bf16⟩
  | .hbm, ⟨15, _⟩ => ⟨S1x1024x1024, .bf16⟩
  | .hbm, ⟨16, _⟩ => ⟨S2x1024x1024, .bf16⟩
  | .hbm, ⟨17, _⟩ => ⟨S2x8192x1024, .bf16⟩
  | .hbm, ⟨18, _⟩ => ⟨S1x8192x1024, .bf16⟩
  | .hbm, ⟨19, _⟩ => ⟨S8192x1024, .bf16⟩
  | .hbm, ⟨20, _⟩ => ⟨S8x1024x1024, .bf16⟩
  | .hbm, ⟨21, _⟩ => ⟨S1x8192x1024, .bf16⟩
  | .hbm, ⟨22, _⟩ => ⟨S8192x1024, .bf16⟩
  | .hbm, ⟨23, _⟩ => ⟨S8x1024x1024, .bf16⟩
  | .hbm, ⟨24, _⟩ => ⟨S8x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .f32⟩
  | .local _ .vmem, ⟨14, _⟩ => ⟨S1x512x1024, .f32⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 2, 2], ![false, false, false]⟩

def k1_cond3 (i : grid1.Coords) : BitVec 1 :=
  let arg2 : BitVec 32 := BitVec.ofNat 32 (i 2).val
  let c1_i32_4 : BitVec 32 := 1#32
  let v10 : BitVec 1 := Scalar.cmpi .eq arg2 c1_i32_4
  let v11 : BitVec 32 := Scalar.extui v10
  let c0_i32_5 : BitVec 32 := 0#32
  let v12 : BitVec 1 := Scalar.cmpi .ne v11 c0_i32_5
  v12

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c512_i32_1 : BitVec 32 := 512#32
  let v3 : BitVec 32 := Scalar.divsi v2 c512_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg2 v19
  let c0_i32_7 : BitVec 32 := 0#32
  let c0_i32_8 : BitVec 32 := 0#32
  ![arg0.toNat, v20.toNat, c0_i32_7.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c512_i32_1 : BitVec 32 := 512#32
  let v3 : BitVec 32 := Scalar.divsi v2 c512_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg2 v19
  let c0_i32_7 : BitVec 32 := 0#32
  let c0_i32_8 : BitVec 32 := 0#32
  ![arg0.toNat, v20.toNat, c0_i32_7.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  shapeCasts_S8x1024x1024_S8192x1024 : S8x1024x1024.ShapeCasts S8192x1024
  bcast_S8192x1024_S1x8192x1024_1_2 : S8192x1024.BroadcastsInDim S1x8192x1024 (![1, 2] : Fin 2 → Fin S1x8192x1024.rank)
  concatenates_S1x8192x1024_S1x8192x1024_S2x8192x1024_d0 : Shape.Concatenates [S1x8192x1024, S1x8192x1024] S2x8192x1024 0
  bcast_S1024x1024_S1x1024x1024_1_2 : S1024x1024.BroadcastsInDim S1x1024x1024 (![1, 2] : Fin 2 → Fin S1x1024x1024.rank)
  concatenates_S1x1024x1024_S1x1024x1024_S2x1024x1024_d0 : Shape.Concatenates [S1x1024x1024, S1x1024x1024] S2x1024x1024 0
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  slices_S2x8192x1024_S1x8192x1024_0_0_0 : S2x8192x1024.Slices ![0, 0, 0] S1x8192x1024
  shapeCasts_S1x8192x1024_S8192x1024 : S1x8192x1024.ShapeCasts S8192x1024
  shapeCasts_S8192x1024_S8x1024x1024 : S8192x1024.ShapeCasts S8x1024x1024
  slices_S2x8192x1024_S1x8192x1024_1_0_0 : S2x8192x1024.Slices ![1, 0, 0] S1x8192x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x8192x1024.size a
  hwx0_0 : ∀ i : grid0.Coords, EltTy.bits .f32 = 32 ∨ (Rect.block (s := S2x8192x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .bf16 = 32 ∨ (Rect.block (s := S2x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x8192x1024.size a
  hwx0_2 : ∀ i : grid0.Coords, EltTy.bits .bf16 = 32 ∨ (Rect.block (s := S2x8192x1024) S1x1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x1024x1024.size a
  hwx1_0 : ∀ i : grid1.Coords, EltTy.bits .f32 = 32 ∨ (Rect.block (s := S8x1024x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x1024x1024.size a
  hwx1_2 : ∀ i : grid1.Coords, EltTy.bits .bf16 = 32 ∨ (Rect.block (s := S8x1024x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x1024x1024.size a
  hwx1_3 : ∀ i : grid1.Coords, EltTy.bits .bf16 = 32 ∨ (Rect.block (s := S8x1024x1024) S1x512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S8x1024x1024.size a
  hwx1_4 : ∀ i : grid1.Coords, EltTy.bits .f32 = 32 ∨ (Rect.block (s := S8x1024x1024) S1x512x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v7) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S_ : Shape := ⟨0, ![]⟩
abbrev S1x1024x1024 : Shape := ⟨3, ![1, 1024, 1024]⟩
abbrev S8x1024 : Shape := ⟨2, ![8, 1024]⟩
abbrev S8x1024x1 : Shape := ⟨3, ![8, 1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8x1024x1024, .f32⟩
  | .hbm, ⟨7, _⟩ => ⟨S8x1024x1024, .f32⟩
  | .hbm, ⟨8, _⟩ => ⟨S8x1024x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x1024x1024, .f32⟩
  | .hbm, ⟨14, _⟩ => ⟨S8x1024x1024, .f32⟩
  | .hbm, ⟨15, _⟩ => ⟨S8x1024x1024, .f32⟩
  | .hbm, ⟨16, _⟩ => ⟨S_, .f32⟩
  | .hbm, ⟨17, _⟩ => ⟨S1024x1024, .f32⟩
  | .hbm, ⟨18, _⟩ => ⟨S1024x1024, .i32⟩
  | .hbm, ⟨19, _⟩ => ⟨S_, .i32⟩
  | .hbm, ⟨20, _⟩ => ⟨S1024x1024, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1x1024x1024, .f32⟩
  | .hbm, ⟨28, _⟩ => ⟨S8x1024x1024, .f32⟩
  | .hbm, ⟨29, _⟩ => ⟨S8x1024x1024, .f32⟩
  | .hbm, ⟨30, _⟩ => ⟨S_, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024x1, .f32⟩
  | .hbm, ⟨36, _⟩ => ⟨S8x1024x1024, .f32⟩
  | .hbm, ⟨37, _⟩ => ⟨S8x1024x1024, .f32⟩
  | .hbm, ⟨38, _⟩ => ⟨S8x1024x1024, .f32⟩
  | .hbm, ⟨39, _⟩ => ⟨S_, .f32⟩
  | .hbm, ⟨40, _⟩ => ⟨S8x1024, .f32⟩
  | .hbm, ⟨41, _⟩ => ⟨S8x1024x1, .f32⟩
  | .hbm, ⟨42, _⟩ => ⟨S8x1024x1024, .f32⟩
  | .hbm, ⟨43, _⟩ => ⟨S8x1024x1024, .f32⟩
  | .hbm, ⟨44, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_cst : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]

class Facts₀ : Prop where
  bcast_S_S8x1024x1024 : S_.BroadcastsInDim S8x1024x1024 (![] : Fin 0 → Fin S8x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  dot_S8x1024x1024_S1024x1024_S8x1024x1024_2_0_01_1_n_n_wf : DotDims.WF S8x1024x1024 S1024x1024 S8x1024x1024 [2] [0] [0, 1] [1] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_2_1_1_2_0_0_wf : DotDims.WF S8x1024x1024 S8x1024x1024 S8x1024x1024 [2] [1] [1] [2] [0] [0]

variable [Facts₀]

def dot_S8x1024x1024_S1024x1024_S8x1024x1024_2_0_01_1_n_n : DotDims S8x1024x1024 S1024x1024 S8x1024x1024 where
  lhsContracting := [2]
  rhsContracting := [0]
  lhsNonContracting := [0, 1]
  rhsNonContracting := [1]
  lhsBatch := []
  rhsBatch := []
  wf := dot_S8x1024x1024_S1024x1024_S8x1024x1024_2_0_01_1_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.Region0.lean ====
/- Region 0: the projection kernel  out[g, block i, :] = x[g, block i, :] · w[g, :, :]  on its 2 × 8 grid.
   The windows' blocks at a point, what the body leaves in the output window's buffer as a function of the
   two input blocks, the body's triple, the pipeline's proof data at entry contents V, and the body
   obligation at every point. Generic in the float carrier. -/
import proofs.«141642_j28802050687501_2_alg».proof.Proof.Gen.KernelIdeal.Launch
import proofs.«141642_j28802050687501_2_alg».proof.Proof.Gen.KernelIdeal.Skeleton
import proofs.«141642_j28802050687501_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current buffer holds its block at every point, for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The w window's current buffer holds its block at every point, fetched there (the first point of each
    plane) or not (the block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1 × 1024 × 1024 buffer as a rectangle. -/
abbrev r0 : Rect S1x1024x1024 := Rect.unit (s := S1x1024x1024) ![0, 0, 0] S1x1024x1024.size inb_S1x1024x1024_S1x1024x1024_0_0_0

/-! ## What the body leaves in the output window's buffer -/

/-- The output buffer after the body, from the two input blocks: its one store, of the product payload. -/
def out0_2 (x0 : Vec F S1x1024x1024 .f32) (x1 : Vec F S1x1024x1024 .bf16) : Vec F S1x1024x1024 .bf16 :=
  View.canon [⟨r0, k0_pay1 (View.ld x0 r0) (View.ld x1 r0)⟩]

/-- The store covers the buffer. -/
theorem cover0_2 (p0 : Vec F S1x1024x1024 .bf16) (y : S1x1024x1024.Idx) :
    ∃ pc ∈ ([⟨r0, p0⟩] : List (View.Piece (Elt F) S1x1024x1024 .bf16)), y ∈ pc.1.set :=
  View.cover_of_tiled [⟨r0, p0⟩] S1x1024x1024.size (by rfl) y

/-! ## The body's triple -/

set_option maxHeartbeats 1000000 in
/-- The body on whole staging memrefs, the inputs' at read contents x0, x1 and the output's at anything,
    runs to the continuation holding the inputs' as they were and the output's at out0_2 x0 x1. -/
theorem sound_kernel0 (c : Dev nD) (E : Set ℕ) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (x0 : Vec F S1x1024x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kv_kernel i arg2 harg2 arg3 harg3 arg4 harg4) K := by
  simp only [cc0__proj_kv_kernel_eq_skeleton]; unfold cc0__proj_kv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t
    each input's buffer at its block and the output's at out0_2 of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Launch.lean ====
/- The launch: the program's four segments in order — the host operations that build the two operand arrays,
   the projection region, the host operations that slice and reshape its result, the attention region — with the
   buffer contents at each boundary as a fold from the launch memory, each region's proof data at its entry
   contents, and the run: the result array is what the second region's write-backs leave and every argument
   array ends as launched. The second region's proof data and its obligations are parameters. -/
import proofs.«141642_j28802050687501_2_alg».proof.Proof.Region0
import proofs.«141642_j28802050687501_2_alg».proof.Proof.Gen.KernelIdeal.Launch
import proofs.«141642_j28802050687501_2_alg».proof.Proof.Gen.KernelIdeal.Skeleton
import proofs.«141642_j28802050687501_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-! ## The second region's proof data, a parameter -/

variable (D1 : (V : (c : Dev nD) → (b : Ref sig .tc) → Buf (Elt F) ((c : Thread nD τ).loc b)) → (c : Dev nD) → Dat τ (Elt F) Unit ℕ (UR sig nD τ) ℕ cfg1 c)

/-- At the second region's exit: its arrays at what its write-backs leave, every other buffer as entered. -/
def W4 (c : Dev nD) : Valuation τ sig (Elt F) :=
  Pipeline.withArrays spec1 c (W3 m ρ c) fun w => (D1 (V3 m ρ) c).arrAt w cfg1.N
theorem W4_arr (c : Dev nD) (w : Fin cfg1.W) :
    W4 m ρ D1 c (Proc.devRef .tc (Pipeline.arrRef spec1 w)) = (D1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ D1 c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ D1 c b
theorem hF1 (c : Dev nD) (w : Fin cfg1.W) : (D1 (V3 m ρ) c).arrAt w cfg1.N = V4 m ρ D1 c (Pipeline.arrRef spec1 w) :=
  (W4_arr m ρ D1 c w).symm
theorem hrest1 (c : Dev nD) : ∀ b, b ∉ Finset.univ.image (Pipeline.arrRef spec1) → V4 m ρ D1 c b = V3 m ρ c b :=
  fun b hb => W4_of_ne m ρ D1 c b fun w e => hb (Finset.mem_image.mpr ⟨w, Finset.mem_univ _, e⟩)

/-- The result array is the second region's last window's. -/
theorem W4_main_v18 (c : Dev nD) : W4 m ρ D1 c (Proc.devRef .tc main_v18) = (D1 (V3 m ρ) c).arrAt 4 cfg1.N :=
  W4_arr m ρ D1 c 4

-- what the second region's proof data satisfy: its arrays are the entry contents, full shares, nothing owed,
-- no bound on the recorded pairs at entry, the body obligation, and its invariant from and back to the
-- scoped rest and the generator register
variable (hA1 : ∀ V c w, (D1 V c).A w = V c (Pipeline.arrRef spec1 w))
  (hq1 : ∀ V c w, (D1 V c).q w = fullShare)
  (howed1 : ∀ V c t, (D1 V c).owed t = 0)
  (hrec1 : ∀ V c, (D1 V c).recorded 0 = Set.univ)
  (hbody1 : ∀ V c, BodyObligation (D1 V c) (defs₀ (F := F)) Variants.none () Set.univ)
  (hin1 : ∀ V c, Pipeline.ΦA spec1 c ⊢ (D1 V c).Φ 0)
  (hout1 : ∀ V c, (D1 V c).Φ (Fin.last cfg1.N) ⊢ Pipeline.ΦA spec1 c)

include hA1 hq1 howed1 hrec1 hbody1 hin1 hout1

/-! ### The arguments end as launched: no host operation and no region writes one -/

theorem W4_main_arg0 (c : Dev nD) : W4 m ρ D1 c (Proc.devRef .tc main_arg0) = m ((c : Thread nD τ).loc main_arg0) :=
  calc W4 m ρ D1 c (Proc.devRef .tc main_arg0)
    _ = W3 m ρ c (Proc.devRef .tc main_arg0) := (W4_arr m ρ D1 c 0).trans (((D1 (V3 m ρ) c).arrAt_in 0 rfl _).trans (hA1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ D1 c (Proc.devRef .tc main_arg1) = m ((c : Thread nD τ).loc main_arg1) :=
  calc W4 m ρ D1 c (Proc.devRef .tc main_arg1)
    _ = W3 m ρ c (Proc.devRef .tc main_arg1) := W4_of_ne m ρ D1 c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ D1 c (Proc.devRef .tc main_arg2) = m ((c : Thread nD τ).loc main_arg2) :=
  calc W4 m ρ D1 c (Proc.devRef .tc main_arg2)
    _ = W3 m ρ c (Proc.devRef .tc main_arg2) := W4_of_ne m ρ D1 c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ D1 c (Proc.devRef .tc main_arg3) = m ((c : Thread nD τ).loc main_arg3) :=
  calc W4 m ρ D1 c (Proc.devRef .tc main_arg3)
    _ = W3 m ρ c (Proc.devRef .tc main_arg3) := W4_of_ne m ρ D1 c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ D1 c (Proc.devRef .tc main_arg4) = m ((c : Thread nD τ).loc main_arg4) :=
  calc W4 m ρ D1 c (Proc.devRef .tc main_arg4)
    _ = W3 m ρ c (Proc.devRef .tc main_arg4) := W4_of_ne m ρ D1 c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ D1 c (Proc.devRef .tc main_arg5) = m ((c : Thread nD τ).loc main_arg5) :=
  calc W4 m ρ D1 c (Proc.devRef .tc main_arg5)
    _ = W3 m ρ c (Proc.devRef .tc main_arg5) := W4_of_ne m ρ D1 c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- No pipeline has a prefetched table. -/
abbrev adm : (p : Fin 2) → (pcfgs (F := F) p).Adm := fun p => (cfgs p).toPCfg_adm
omit hA1 hq1 howed1 hrec1 hbody1 hin1 hout1 in
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => D1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed tallies, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

omit hA1 hq1 howed1 hrec1 hbody1 hin1 hout1 in
/-- No operation of the first host stretch allocates a buffer. -/
theorem hostOps0_fresh : (hostOps0 : List (HloOp τ sig (Elt F))).Forall fun op => op.fresh = ∅ := by
  simp only [List.Forall]; repeat' constructor
omit hA1 hq1 howed1 hrec1 hbody1 hin1 hout1 in
/-- No operation of the second host stretch allocates a buffer. -/
theorem hostOps1_fresh : (hostOps1 : List (HloOp τ sig (Elt F))).Forall fun op => op.fresh = ∅ := by
  simp only [List.Forall]; repeat' constructor
omit hA1 hq1 howed1 hrec1 hbody1 hin1 hout1 in
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed tallies: every unscoped buffer at the last boundary's contents, the
    generator register at some state. -/
abbrev Tₙ (c : Dev nD) : sProp 𝕄 := iprop(StableHlo.held (c : Thread nD τ) (Pipeline.ucRefs τ sig) (W4 m ρ D1 c) ∗ ∃ r, prngReg c r)

/-! ## The regions as segments -/

set_option backward.isDefEq.respectTransparency.types false in
/-- The first region over the thread state: entered from every unscoped buffer at the first stretch's contents,
    left at its exit contents. -/
def reg0 : Pipeline.RegionSeg (pcfgs (F := F)) adm (pdats m ρ D1) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ D1) launch0.win launch0.arr_whole c
      ((pdats m ρ D1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ D1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D1) ((pdats m ρ D1 0 c).share_full fun _ => rfl)
      (V1 m ρ c) (V2 m ρ c) ((pdats m ρ D1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the second stretch's
    contents, left at the last boundary's contents. Its invariant is reached from, and gives back, the scoped
    rest and the generator register (the parameters' two entailments). -/
def reg1 : Pipeline.RegionSeg (pcfgs (F := F)) adm (pdats m ρ D1) () defs₀ 𝒱₀ L lv 1 where
  win := launch1.win.to₀
  block_pos := launch1.block_pos
  stage_whole := launch1.stage_whole
  K := PEmpty
  osem k := k.elim
  ho := Pipeline.OwnSemFacts.none _
  hbody c := (hbody1 (V3 m ρ) c).loose
  hwaits := Pipeline.hwaits_of_owed_zero _ _ _ _ L lv 1 fun c t => howed1 (V3 m ρ) c t
  pre c := iprop(StableHlo.held (c : Thread nD τ) (Pipeline.ucRefs τ sig) (W3 m ρ c) ∗ R c)
  post c := iprop(Tₙ m ρ D1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ D1) launch1.win launch1.arr_whole c
      ((pdats m ρ D1 1 c).share_full (hq1 (V3 m ρ) c)) (V3 m ρ c) (hA1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D1 1 c).owed 0 = 0 from howed1 (V3 m ρ) c 0]
      icases HO with ⟨%W, HO⟩; iexists W; isplitr
      · ipureintro; exact fun x _ => Or.inl (by rw [show (pdats m ρ D1 1 c).recorded 0 = Set.univ from hrec1 (V3 m ρ) c]; trivial)
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D1) ((pdats m ρ D1 1 c).share_full (hq1 (V3 m ρ) c))
      (V3 m ρ c) (V4 m ρ D1 c) ((pdats m ρ D1 1 c).arrAt · cfg1.N) (hF1 m ρ D1 c) (hrest1 m ρ D1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ D1 1 c).owed (Fin.last _) = 0 from howed1 (V3 m ρ) c _]
    icases HO with ⟨%W, -, HO⟩; iexists W; iexact HO

/-! ## The program as segments, and the launch -/

/-- The four segments in order. -/
abbrev segs : List (Pipeline.Seg (pcfgs (F := F)) adm (pdats m ρ D1) () defs₀ 𝒱₀ L lv) :=
  [ .host (hseg hostOps0 hostOps0_sub hostOps0_fresh (W0 m ρ)),
    .region (reg0 m ρ D1),
    .host (hseg hostOps1 hostOps1_sub hostOps1_fresh (W2 m ρ)),
    .region (reg1 m ρ D1 hA1 hq1 howed1 hrec1 hbody1 hin1 hout1) ]
/-- The program is the run of the segments. -/
theorem main_run (c : Dev nD) : main (F := F) c = Pipeline.Seg.run (segs m ρ D1 hA1 hq1 howed1 hrec1 hbody1 hin1 hout1) := (main_chain c).trans (by chain_rfl)

set_option backward.isDefEq.respectTransparency.types false in
/-- The run with the result's value: from any memory with zero counters every weakly fair execution on the
    TensorCores terminates, nothing faulting, and every final state has the result array at what the second
    region's write-backs leave and the six argument arrays as launched. -/
theorem run_value : θ_run defs (onTc (τ := τ) (main (F := F))) ⟨m, fun _ => 0, ρ⟩ (fun r => ∀ c : Dev nD,
        r.2.mem ((c.tc : Thread nD τ).loc main_v18) = (D1 (V3 m ρ) c).arrAt 4 cfg1.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  Pipeline.θ_run_regions_kit (pcfgs (F := F)) adm (pdats m ρ D1) () cellOf_inj emb₁ defs₀ 𝒱₀ L lv m ρ main (segs m ρ D1 hA1 hq1 howed1 hrec1 hbody1 hin1 hout1)
    (fun c Q => by rw [main_run m ρ D1 hA1 hq1 howed1 hrec1 hbody1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ D1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ D1 c) s')
      isplitl [Hh] <;> iassumption)
    (hQ := fun s h c =>
      ⟨(h c _ (mem_uc main_v18 (by decide))).trans (W4_main_v18 m ρ D1 c),
       (h c _ (mem_uc main_arg0 (by decide))).trans (W4_main_arg0 m ρ D1 hA1 hq1 howed1 hrec1 hbody1 hin1 hout1 c),
       (h c _ (mem_uc main_arg1 (by decide))).trans (W4_main_arg1 m ρ D1 hA1 hq1 howed1 hrec1 hbody1 hin1 hout1 c),
       (h c _ (mem_uc main_arg2 (by decide))).trans (W4_main_arg2 m ρ D1 hA1 hq1 howed1 hrec1 hbody1 hin1 hout1 c),
       (h c _ (mem_uc main_arg3 (by decide))).trans (W4_main_arg3 m ρ D1 hA1 hq1 howed1 hrec1 hbody1 hin1 hout1 c),
       (h c _ (mem_uc main_arg4 (by decide))).trans (W4_main_arg4 m ρ D1 hA1 hq1 howed1 hrec1 hbody1 hin1 hout1 c),
       (h c _ (mem_uc main_arg5 (by decide))).trans (W4_main_arg5 m ρ D1 hA1 hq1 howed1 hrec1 hbody1 hin1 hout1 c)⟩)

/-- The frame: the same run, the argument arrays only. -/
theorem frame : θ_run defs (onTc (τ := τ) (main (F := F))) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun r h c => (h c).2) (run_value m ρ D1 hA1 hq1 howed1 hrec1 hbody1 hin1 hout1)

end Cert.KernelIdeal.Run

end
-- ==== Proof.Region0Bits.lean ====
/- Region 0: the projection kernel  out[g, block i, :] = x[g, block i, :] · w[g, :, :]  on its 2 × 8 grid.
   The windows' blocks at a point, what the body leaves in the output window's buffer as a function of the
   two input blocks, the body's triple, the pipeline's proof data at entry contents V, and the body
   obligation at every point. Generic in the float carrier. -/
import proofs.«141642_j28802050687501_2_alg».proof.Proof.Gen.Kernel.Launch
import proofs.«141642_j28802050687501_2_alg».proof.Proof.Gen.Kernel.Skeleton
import proofs.«141642_j28802050687501_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current buffer holds its block at every point, for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The w window's current buffer holds its block at every point, fetched there (the first point of each
    plane) or not (the block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1 × 1024 × 1024 buffer as a rectangle. -/
abbrev r0 : Rect S1x1024x1024 := Rect.unit (s := S1x1024x1024) ![0, 0, 0] S1x1024x1024.size inb_S1x1024x1024_S1x1024x1024_0_0_0

/-! ## What the body leaves in the output window's buffer -/

/-- The output buffer after the body, from the two input blocks: its one store, of the product payload. -/
def out0_2 (x0 : Vec F S1x1024x1024 .f32) (x1 : Vec F S1x1024x1024 .bf16) : Vec F S1x1024x1024 .bf16 :=
  View.canon [⟨r0, k0_pay1 (View.ld x0 r0) (View.ld x1 r0)⟩]

/-- The store covers the buffer. -/
theorem cover0_2 (p0 : Vec F S1x1024x1024 .bf16) (y : S1x1024x1024.Idx) :
    ∃ pc ∈ ([⟨r0, p0⟩] : List (View.Piece (Elt F) S1x1024x1024 .bf16)), y ∈ pc.1.set :=
  View.cover_of_tiled [⟨r0, p0⟩] S1x1024x1024.size (by rfl) y

/-! ## The body's triple -/

set_option maxHeartbeats 1000000 in
/-- The body on whole staging memrefs, the inputs' at read contents x0, x1 and the output's at anything,
    runs to the continuation holding the inputs' as they were and the output's at out0_2 x0 x1. -/
theorem sound_kernel0 (c : Dev nD) (E : Set ℕ) (i : grid0.Coords)
    (arg2 : Memref sig .tc .vmem S1x1024x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (x0 : Vec F S1x1024x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kv_kernel i arg2 harg2 arg3 harg3 arg4 harg4) K := by
  simp only [cc0__proj_kv_kernel_eq_skeleton]; unfold cc0__proj_kv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t
    each input's buffer at its block and the output's at out0_2 of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.LaunchBits.lean ====
/- The launch: the program's four segments in order — the host operations that build the two operand arrays,
   the projection region, the host operations that slice and reshape its result, the attention region — with the
   buffer contents at each boundary as a fold from the launch memory, each region's proof data at its entry
   contents, and the run: the result array is what the second region's write-backs leave and every argument
   array ends as launched. The second region's proof data and its obligations are parameters. -/
import proofs.«141642_j28802050687501_2_alg».proof.Proof.Region0Bits
import proofs.«141642_j28802050687501_2_alg».proof.Proof.Gen.Kernel.Launch
import proofs.«141642_j28802050687501_2_alg».proof.Proof.Gen.Kernel.Skeleton
import proofs.«141642_j28802050687501_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-! ## The second region's proof data, a parameter -/

variable (D1 : (V : (c : Dev nD) → (b : Ref sig .tc) → Buf (Elt F) ((c : Thread nD τ).loc b)) → (c : Dev nD) → Dat τ (Elt F) Unit ℕ (UR sig nD τ) ℕ cfg1 c)

/-- At the second region's exit: its arrays at what its write-backs leave, every other buffer as entered. -/
def W4 (c : Dev nD) : Valuation τ sig (Elt F) :=
  Pipeline.withArrays spec1 c (W3 m ρ c) fun w => (D1 (V3 m ρ) c).arrAt w cfg1.N
theorem W4_arr (c : Dev nD) (w : Fin cfg1.W) :
    W4 m ρ D1 c (Proc.devRef .tc (Pipeline.arrRef spec1 w)) = (D1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ D1 c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ D1 c b
theorem hF1 (c : Dev nD) (w : Fin cfg1.W) : (D1 (V3 m ρ) c).arrAt w cfg1.N = V4 m ρ D1 c (Pipeline.arrRef spec1 w) :=
  (W4_arr m ρ D1 c w).symm
theorem hrest1 (c : Dev nD) : ∀ b, b ∉ Finset.univ.image (Pipeline.arrRef spec1) → V4 m ρ D1 c b = V3 m ρ c b :=
  fun b hb => W4_of_ne m ρ D1 c b fun w e => hb (Finset.mem_image.mpr ⟨w, Finset.mem_univ _, e⟩)

/-- The result array is the second region's last window's. -/
theorem W4_main_v18 (c : Dev nD) : W4 m ρ D1 c (Proc.devRef .tc main_v18) = (D1 (V3 m ρ) c).arrAt 4 cfg1.N :=
  W4_arr m ρ D1 c 4

-- what the second region's proof data satisfy: its arrays are the entry contents, full shares, nothing owed,
-- no bound on the recorded pairs at entry, the body obligation, and its invariant from and back to the
-- scoped rest and the generator register
variable (hA1 : ∀ V c w, (D1 V c).A w = V c (Pipeline.arrRef spec1 w))
  (hq1 : ∀ V c w, (D1 V c).q w = fullShare)
  (howed1 : ∀ V c t, (D1 V c).owed t = 0)
  (hrec1 : ∀ V c, (D1 V c).recorded 0 = Set.univ)
  (hbody1 : ∀ V c, BodyObligation (D1 V c) (defs₀ (F := F)) Variants.none () Set.univ)
  (hin1 : ∀ V c, Pipeline.ΦA spec1 c ⊢ (D1 V c).Φ 0)
  (hout1 : ∀ V c, (D1 V c).Φ (Fin.last cfg1.N) ⊢ Pipeline.ΦA spec1 c)

include hA1 hq1 howed1 hrec1 hbody1 hin1 hout1

/-! ### The arguments end as launched: no host operation and no region writes one -/

theorem W4_main_arg0 (c : Dev nD) : W4 m ρ D1 c (Proc.devRef .tc main_arg0) = m ((c : Thread nD τ).loc main_arg0) :=
  calc W4 m ρ D1 c (Proc.devRef .tc main_arg0)
    _ = W3 m ρ c (Proc.devRef .tc main_arg0) := (W4_arr m ρ D1 c 0).trans (((D1 (V3 m ρ) c).arrAt_in 0 rfl _).trans (hA1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ D1 c (Proc.devRef .tc main_arg1) = m ((c : Thread nD τ).loc main_arg1) :=
  calc W4 m ρ D1 c (Proc.devRef .tc main_arg1)
    _ = W3 m ρ c (Proc.devRef .tc main_arg1) := W4_of_ne m ρ D1 c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ D1 c (Proc.devRef .tc main_arg2) = m ((c : Thread nD τ).loc main_arg2) :=
  calc W4 m ρ D1 c (Proc.devRef .tc main_arg2)
    _ = W3 m ρ c (Proc.devRef .tc main_arg2) := W4_of_ne m ρ D1 c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ D1 c (Proc.devRef .tc main_arg3) = m ((c : Thread nD τ).loc main_arg3) :=
  calc W4 m ρ D1 c (Proc.devRef .tc main_arg3)
    _ = W3 m ρ c (Proc.devRef .tc main_arg3) := W4_of_ne m ρ D1 c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ D1 c (Proc.devRef .tc main_arg4) = m ((c : Thread nD τ).loc main_arg4) :=
  calc W4 m ρ D1 c (Proc.devRef .tc main_arg4)
    _ = W3 m ρ c (Proc.devRef .tc main_arg4) := W4_of_ne m ρ D1 c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ D1 c (Proc.devRef .tc main_arg5) = m ((c : Thread nD τ).loc main_arg5) :=
  calc W4 m ρ D1 c (Proc.devRef .tc main_arg5)
    _ = W3 m ρ c (Proc.devRef .tc main_arg5) := W4_of_ne m ρ D1 c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- No pipeline has a prefetched table. -/
abbrev adm : (p : Fin 2) → (pcfgs (F := F) p).Adm := fun p => (cfgs p).toPCfg_adm
omit hA1 hq1 howed1 hrec1 hbody1 hin1 hout1 in
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => D1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed tallies, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

omit hA1 hq1 howed1 hrec1 hbody1 hin1 hout1 in
/-- No operation of the first host stretch allocates a buffer. -/
theorem hostOps0_fresh : (hostOps0 : List (HloOp τ sig (Elt F))).Forall fun op => op.fresh = ∅ := by
  simp only [List.Forall]; repeat' constructor
omit hA1 hq1 howed1 hrec1 hbody1 hin1 hout1 in
/-- No operation of the second host stretch allocates a buffer. -/
theorem hostOps1_fresh : (hostOps1 : List (HloOp τ sig (Elt F))).Forall fun op => op.fresh = ∅ := by
  simp only [List.Forall]; repeat' constructor
omit hA1 hq1 howed1 hrec1 hbody1 hin1 hout1 in
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed tallies: every unscoped buffer at the last boundary's contents, the
    generator register at some state. -/
abbrev Tₙ (c : Dev nD) : sProp 𝕄 := iprop(StableHlo.held (c : Thread nD τ) (Pipeline.ucRefs τ sig) (W4 m ρ D1 c) ∗ ∃ r, prngReg c r)

/-! ## The regions as segments -/

set_option backward.isDefEq.respectTransparency.types false in
/-- The first region over the thread state: entered from every unscoped buffer at the first stretch's contents,
    left at its exit contents. -/
def reg0 : Pipeline.RegionSeg (pcfgs (F := F)) adm (pdats m ρ D1) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ D1) launch0.win launch0.arr_whole c
      ((pdats m ρ D1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ D1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D1) ((pdats m ρ D1 0 c).share_full fun _ => rfl)
      (V1 m ρ c) (V2 m ρ c) ((pdats m ρ D1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the second stretch's
    contents, left at the last boundary's contents. Its invariant is reached from, and gives back, the scoped
    rest and the generator register (the parameters' two entailments). -/
def reg1 : Pipeline.RegionSeg (pcfgs (F := F)) adm (pdats m ρ D1) () defs₀ 𝒱₀ L lv 1 where
  win := launch1.win.to₀
  block_pos := launch1.block_pos
  stage_whole := launch1.stage_whole
  K := PEmpty
  osem k := k.elim
  ho := Pipeline.OwnSemFacts.none _
  hbody c := (hbody1 (V3 m ρ) c).loose
  hwaits := Pipeline.hwaits_of_owed_zero _ _ _ _ L lv 1 fun c t => howed1 (V3 m ρ) c t
  pre c := iprop(StableHlo.held (c : Thread nD τ) (Pipeline.ucRefs τ sig) (W3 m ρ c) ∗ R c)
  post c := iprop(Tₙ m ρ D1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ D1) launch1.win launch1.arr_whole c
      ((pdats m ρ D1 1 c).share_full (hq1 (V3 m ρ) c)) (V3 m ρ c) (hA1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D1 1 c).owed 0 = 0 from howed1 (V3 m ρ) c 0]
      icases HO with ⟨%W, HO⟩; iexists W; isplitr
      · ipureintro; exact fun x _ => Or.inl (by rw [show (pdats m ρ D1 1 c).recorded 0 = Set.univ from hrec1 (V3 m ρ) c]; trivial)
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D1) ((pdats m ρ D1 1 c).share_full (hq1 (V3 m ρ) c))
      (V3 m ρ c) (V4 m ρ D1 c) ((pdats m ρ D1 1 c).arrAt · cfg1.N) (hF1 m ρ D1 c) (hrest1 m ρ D1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ D1 1 c).owed (Fin.last _) = 0 from howed1 (V3 m ρ) c _]
    icases HO with ⟨%W, -, HO⟩; iexists W; iexact HO

/-! ## The program as segments, and the launch -/

/-- The four segments in order. -/
abbrev segs : List (Pipeline.Seg (pcfgs (F := F)) adm (pdats m ρ D1) () defs₀ 𝒱₀ L lv) :=
  [ .host (hseg hostOps0 hostOps0_sub hostOps0_fresh (W0 m ρ)),
    .region (reg0 m ρ D1),
    .host (hseg hostOps1 hostOps1_sub hostOps1_fresh (W2 m ρ)),
    .region (reg1 m ρ D1 hA1 hq1 howed1 hrec1 hbody1 hin1 hout1) ]
/-- The program is the run of the segments. -/
theorem main_run (c : Dev nD) : main (F := F) c = Pipeline.Seg.run (segs m ρ D1 hA1 hq1 howed1 hrec1 hbody1 hin1 hout1) := (main_chain c).trans (by chain_rfl)

set_option backward.isDefEq.respectTransparency.types false in
/-- The run with the result's value: from any memory with zero counters every weakly fair execution on the
    TensorCores terminates, nothing faulting, and every final state has the result array at what the second
    region's write-backs leave and the six argument arrays as launched. -/
theorem run_value : θ_run defs (onTc (τ := τ) (main (F := F))) ⟨m, fun _ => 0, ρ⟩ (fun r => ∀ c : Dev nD,
        r.2.mem ((c.tc : Thread nD τ).loc main_v18) = (D1 (V3 m ρ) c).arrAt 4 cfg1.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  Pipeline.θ_run_regions_kit (pcfgs (F := F)) adm (pdats m ρ D1) () cellOf_inj emb₁ defs₀ 𝒱₀ L lv m ρ main (segs m ρ D1 hA1 hq1 howed1 hrec1 hbody1 hin1 hout1)
    (fun c Q => by rw [main_run m ρ D1 hA1 hq1 howed1 hrec1 hbody1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ D1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ D1 c) s')
      isplitl [Hh] <;> iassumption)
    (hQ := fun s h c =>
      ⟨(h c _ (mem_uc main_v18 (by decide))).trans (W4_main_v18 m ρ D1 c),
       (h c _ (mem_uc main_arg0 (by decide))).trans (W4_main_arg0 m ρ D1 hA1 hq1 howed1 hrec1 hbody1 hin1 hout1 c),
       (h c _ (mem_uc main_arg1 (by decide))).trans (W4_main_arg1 m ρ D1 hA1 hq1 howed1 hrec1 hbody1 hin1 hout1 c),
       (h c _ (mem_uc main_arg2 (by decide))).trans (W4_main_arg2 m ρ D1 hA1 hq1 howed1 hrec1 hbody1 hin1 hout1 c),
       (h c _ (mem_uc main_arg3 (by decide))).trans (W4_main_arg3 m ρ D1 hA1 hq1 howed1 hrec1 hbody1 hin1 hout1 c),
       (h c _ (mem_uc main_arg4 (by decide))).trans (W4_main_arg4 m ρ D1 hA1 hq1 howed1 hrec1 hbody1 hin1 hout1 c),
       (h c _ (mem_uc main_arg5 (by decide))).trans (W4_main_arg5 m ρ D1 hA1 hq1 howed1 hrec1 hbody1 hin1 hout1 c)⟩)

/-- The frame: the same run, the argument arrays only. -/
theorem frame : θ_run defs (onTc (τ := τ) (main (F := F))) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun r h c => (h c).2) (run_value m ρ D1 hA1 hq1 howed1 hrec1 hbody1 hin1 hout1)

end Cert.Kernel.Run

end
-- ==== Proof.Region1Runs.lean ====
/-
  The attention kernel's body, seen from one grid point (b, qi, ki) of its 8 × 2 × 2 grid: which of its three
  conditionals are taken there, where its output block is left untouched, and the memrefs it is called with.
  The running maximum, the running denominator, the running numerator and the projected query tile live in four
  scratch buffers that the body keeps from the point (b, qi, 0) to the point (b, qi, 1).
-/
import proofs.«141642_j28802050687501_2_alg».proof.Proof.Gen.KernelIdeal.Launch
import proofs.«141642_j28802050687501_2_alg».proof.Proof.Gen.KernelIdeal.Skeleton
import proofs.«141642_j28802050687501_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

/-! ## The three conditionals, from the grid coordinates -/

/-- "This is the first key block of the row tile" (ki = 0): the scratch buffers are reset and the query tile projected. -/
abbrev cond0 (i : grid1.Coords) : Prop :=
  (Scalar.cmpi .ne (Scalar.extui (Scalar.cmpi .eq (BitVec.ofNat 32 (i 2).val) 0#32)) 0#32) = 1#1
/-- "The key block meets the causal triangle of the row tile" (ki · 512 ≤ qi · 512 + 511): the online-softmax update runs. -/
abbrev cond1 (i : grid1.Coords) : Prop :=
  (Scalar.cmpi .ne (Scalar.extui (Scalar.cmpi .sle (Scalar.muli (BitVec.ofNat 32 (i 2).val) 512#32)
    (Scalar.subi (Scalar.addi (Scalar.muli (BitVec.ofNat 32 (i 1).val) 512#32) 512#32) 1#32))) 0#32) = 1#1
/-- "This is the last key block" (ki = 1): the quotient is stored into the output block. -/
abbrev cond2 (i : grid1.Coords) : Prop := k1_cond3 i = 1#1

/-- The point t = 4b + 2qi + ki has ki = 0 exactly when t is even. -/
theorem hcond0 : ∀ t : Fin cfg1.N, cond0 (grid1.coords t) ↔ t.val % 2 = 0 :=
  (by decide +kernel : ∀ t : Fin grid1.N, cond0 (grid1.coords t) ↔ t.val % 2 = 0)
/-- The update is skipped exactly at (qi, ki) = (0, 1), the points ≡ 1 (mod 4). -/
theorem hcond1 : ∀ t : Fin cfg1.N, cond1 (grid1.coords t) ↔ t.val % 4 ≠ 1 :=
  (by decide +kernel : ∀ t : Fin grid1.N, cond1 (grid1.coords t) ↔ t.val % 4 ≠ 1)
/-- ki = 1 exactly when t is odd. -/
theorem hcond2 : ∀ t : Fin cfg1.N, cond2 (grid1.coords t) ↔ t.val % 2 = 1 :=
  (by decide +kernel : ∀ t : Fin grid1.N, cond2 (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At an even point the output block is not stored into and not written back. -/
theorem idleAt_4 : ∀ t : Fin cfg1.N, t.val % 2 = 0 → cfg1.idle 4 (grid1.coords t) = true := by decide +kernel
theorem noFlush_4 : ∀ t : Fin cfg1.N, t.val % 2 = 0 → (cfg1.win 4).flush t = false := by decide +kernel
/-- At an odd point it is stored whole. -/
theorem liveAt_4 : ∀ t : Fin cfg1.N, t.val % 2 = 1 → cfg1.idle 4 (grid1.coords t) = false := by decide +kernel

/-! ## The memrefs the body is called with -/

abbrev ms0 (t : Fin cfg1.N) : Memref sig .tc .vmem S1x512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512x1024 .f32 := win1_4.stage (cfg1.slots t 4)
abbrev hs4 (t : Fin cfg1.N) : (ms4 t).IsWhole := hstage1_4 ((cfg1.slots t 4).cast nbuf1_4)
/-- The running maximum, the running denominator, the running numerator, the projected query tile. -/
abbrev scMax : Memref sig .tc .vmem S512x1 .f32 := Memref.whole cc1_scratch0
abbrev scDen : Memref sig .tc .vmem S512x1 .f32 := Memref.whole cc1_scratch1
abbrev scNum : Memref sig .tc .vmem S512x1024 .f32 := Memref.whole cc1_scratch2
abbrev scQ : Memref sig .tc .vmem S512x1024 .bf16 := Memref.whole cc1_scratch3
/-- One staging buffer of the output window, through which its contents are stated. -/
abbrev VOut : View sig .tc .vmem S1x512x1024 .f32 := (Memref.whole cc1_stg4_0 : Memref sig .tc .vmem S1x512x1024 .f32).view

/-- The other kernel's staging buffers, which this region never touches. -/
def restBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region hands the body besides the windows: the other kernel's staging buffers, the four scratch buffers at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scMax fullShare d) ∗ (∃ d, owns (c : Thread nD τ) scDen fullShare d) ∗ (∃ d, owns (c : Thread nD τ) scNum fullShare d) ∗ (∃ d, owns (c : Thread nD τ) scQ fullShare d)) ∗ (∃ r, prngReg c r)) := by
  unfold Pipeline.ΦA; rw [scopedRest1_eq]; simp only [scMax, scDen, scNum, scQ, owns_whole]; try rfl

end Cert.KernelIdeal.R1

end
-- ==== Proof.Region1RunFirst.lean ====
/-
  The body at a point with ki = 0: the three scratch accumulators are reset, the query tile is projected once and
  kept, and the first key block's scores update the running maximum, denominator and numerator. The output block
  is not touched.
-/
import proofs.«141642_j28802050687501_2_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

set_option maxHeartbeats 4000000 in
/-- The pieces each scratch buffer ends with after the body at a point with ki = 0, and the body's run there: from the
    four input blocks at their contents, the output buffer at `xi` and the scratch buffers at anything, to the inputs
    and the output buffer as they were and each scratch buffer with its stores written. -/
noncomputable def runFirst (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole)
    (hc0 : cond0 i) (hc1 : cond1 i) (hc2 : ¬cond2 i)
    (x0 : Vec F S1x512x1024 .f32) (x1 : Vec F S1024x1024 .bf16) (x2 : Vec F S1x512x1024 .bf16) (x3 : Vec F S1x512x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x1024 .bf16) //
      ∀ (xi : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    iexists _; iexact H8

end Cert.KernelIdeal.R1

end
-- ==== Proof.Region1RunSkip.lean ====
/-
  The body at a point with (qi, ki) = (0, 1): the key block lies wholly above the causal diagonal, so nothing is
  accumulated; the quotient of the running numerator by the running denominator is stored into the output block.
-/
import proofs.«141642_j28802050687501_2_alg».proof.Proof.Region1RunFirst

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

set_option maxHeartbeats 4000000 in
/-- The pieces the output block ends with at a point where only the final division runs, and the body's run there:
    the running denominator and numerator at the contents `xs1`, `xs2` the point before left, handed back as found. -/
noncomputable def runSkip (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole)
    (hc0 : ¬cond0 i) (hc1 : ¬cond1 i) (hc2 : cond2 i)
    (x0 : Vec F S1x512x1024 .f32) (x1 : Vec F S1024x1024 .bf16) (x2 : Vec F S1x512x1024 .bf16) (x3 : Vec F S1x512x1024 .bf16)
    (xs1 : Vec F S512x1 .f32) (xs2 : Vec F S512x1024 .f32) :
    { LO : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (∃ d, owns (c : Thread nD τ) arg8 fullShare d) ∗ owns (c : Thread nD τ) arg9 fullShare xs1 ∗ owns (c : Thread nD τ) arg10 fullShare xs2 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO)
                ∗ (∃ d, owns (c : Thread nD τ) arg8 fullShare d) ∗ owns (c : Thread nD τ) arg9 fullShare xs1 ∗ owns (c : Thread nD τ) arg10 fullShare xs2 ∗ (∃ d, owns (c : Thread nD τ) arg11 fullShare d)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, %hf5, H5⟩, ⟨%f6, %hf6, H6⟩, ⟨%f7, %hf7, H7⟩, ⟨%d8, %f8, %hf8, H8⟩, Hk⟩
    obtain rfl := harg3.eq_unread hf0; obtain rfl := harg4.eq_unread hf1; obtain rfl := harg5.eq_unread hf2; obtain rfl := harg6.eq_unread hf3
    obtain rfl := harg9.eq_unread hf6; obtain rfl := harg10.eq_unread hf7
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists d5; iexists f5; isplitr; · ipureintro; exact hf5
      iexact H5
    isplitl [H6]
    · iexists _; isplitr; · ipureintro; exact harg9.read_unread _
      iexact H6
    isplitl [H7]
    · iexists _; isplitr; · ipureintro; exact harg10.read_unread _
      iexact H7
    iexists d8; iexists f8; isplitr; · ipureintro; exact hf8
    iexact H8

end Cert.KernelIdeal.R1

end
-- ==== Proof.Region1RunLast.lean ====
/-
  The body at a point with (qi, ki) = (1, 1): the second key block's scores, masked above the diagonal, update the
  running maximum, denominator and numerator that the first block left, and the quotient is stored into the output
  block.
-/
import proofs.«141642_j28802050687501_2_alg».proof.Proof.Region1RunSkip

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

set_option maxHeartbeats 4000000 in
/-- The pieces the output block and the three accumulators end with at a point where the update and the final division
    both run, and the body's run there: the four scratch buffers at the contents `xs0` … `xs3` the point before left,
    the query tile handed back as found. -/
noncomputable def runLast (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole)
    (hc0 : ¬cond0 i) (hc1 : cond1 i) (hc2 : cond2 i)
    (x0 : Vec F S1x512x1024 .f32) (x1 : Vec F S1024x1024 .bf16) (x2 : Vec F S1x512x1024 .bf16) (x3 : Vec F S1x512x1024 .bf16)
    (xs0 : Vec F S512x1 .f32) (xs1 : Vec F S512x1 .f32) (xs2 : Vec F S512x1024 .f32) (xs3 : Vec F S512x1024 .bf16) :
    Σ' (LO : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3
    obtain rfl := harg8.eq_unread hf5; obtain rfl := harg9.eq_unread hf6; obtain rfl := harg10.eq_unread hf7; obtain rfl := harg11.eq_unread hf8
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    iexists _; isplitr; · ipureintro; exact harg11.read_unread _
    iexact H8

end Cert.KernelIdeal.R1

end
-- ==== Proof.Region1Dat.lean ====
/-
  The attention region's proof data: what each window's staging buffer and each scratch buffer holds after the body,
  point by point. At an even point (ki = 0) the scratch buffers are rebuilt from the point's blocks alone; at the odd
  point that follows, the output block is the quotient computed from them (after one more update when qi = 1). So
  nothing is carried further than one point.
-/
import proofs.«141642_j28802050687501_2_alg».proof.Proof.Region1RunLast

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The three cases at a point -/

/-- The point before `t`. -/
def prev (t : Fin cfg1.N) : Fin cfg1.N := ⟨t.val - 1, lt_of_le_of_lt (Nat.sub_le _ _) t.isLt⟩
theorem prev_val (t : Fin cfg1.N) : (prev t).val = t.val - 1 := rfl

/-- The body's run at an even point. -/
def firstAt (c : Dev nD) (t : Fin cfg1.N) (h : t.val % 2 = 0) :=
  runFirst (F := F) c (grid1.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _)
    ((hcond0 t).mpr h) ((hcond1 t).mpr (by omega)) (fun h2 => by have := (hcond2 t).mp h2; omega)
    (iblk V c 0 t) (iblk V c 1 t) (iblk V c 2 t) (iblk V c 3 t)

/-- What an even point leaves in the running maximum, denominator, numerator and query tile: its stores read back. -/
def maxAfter (c : Dev nD) (t : Fin cfg1.N) (h : t.val % 2 = 0) : Vec F S512x1 .f32 :=
  scMax.view.read (Elt F) (scMax.view.writes (Elt F) scMax.view.junk (firstAt V c t h).1)
def denAfter (c : Dev nD) (t : Fin cfg1.N) (h : t.val % 2 = 0) : Vec F S512x1 .f32 :=
  scDen.view.read (Elt F) (scDen.view.writes (Elt F) scDen.view.junk (firstAt V c t h).2.1)
def numAfter (c : Dev nD) (t : Fin cfg1.N) (h : t.val % 2 = 0) : Vec F S512x1024 .f32 :=
  scNum.view.read (Elt F) (scNum.view.writes (Elt F) scNum.view.junk (firstAt V c t h).2.2.1)
def qAfter (c : Dev nD) (t : Fin cfg1.N) (h : t.val % 2 = 0) : Vec F S512x1024 .bf16 :=
  scQ.view.read (Elt F) (scQ.view.writes (Elt F) scQ.view.junk (firstAt V c t h).2.2.2.1)

/-- The body's run at a point ≡ 1 (mod 4), on what the point before left. -/
def skipAt (c : Dev nD) (t : Fin cfg1.N) (h : t.val % 4 = 1) :=
  runSkip (F := F) c (grid1.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _)
    (fun h0 => by have := (hcond0 t).mp h0; omega) (fun h1 => (hcond1 t).mp h1 h) ((hcond2 t).mpr (by omega))
    (iblk V c 0 t) (iblk V c 1 t) (iblk V c 2 t) (iblk V c 3 t)
    (denAfter V c (prev t) (by rw [prev_val]; omega)) (numAfter V c (prev t) (by rw [prev_val]; omega))

/-- The body's run at a point ≡ 3 (mod 4), on what the point before left. -/
def lastAt (c : Dev nD) (t : Fin cfg1.N) (h : t.val % 4 = 3) :=
  runLast (F := F) c (grid1.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _)
    (fun h0 => by have := (hcond0 t).mp h0; omega) ((hcond1 t).mpr (by omega)) ((hcond2 t).mpr (by omega))
    (iblk V c 0 t) (iblk V c 1 t) (iblk V c 2 t) (iblk V c 3 t)
    (maxAfter V c (prev t) (by rw [prev_val]; omega)) (denAfter V c (prev t) (by rw [prev_val]; omega)) (numAfter V c (prev t) (by rw [prev_val]; omega)) (qAfter V c (prev t) (by rw [prev_val]; omega))

/-- What the output window's staging buffer holds after the body: at an odd point the stored quotient; at an even
    point nothing is stored (a placeholder nothing consults: the block is neither written back nor read there). -/
def outAt (c : Dev nD) (t : Fin cfg1.N) : Vec F S1x512x1024 .f32 :=
  if h1 : t.val % 4 = 1 then VOut.read (Elt F) (VOut.writes (Elt F) VOut.junk (skipAt V c t h1).1)
  else if h3 : t.val % 4 = 3 then VOut.read (Elt F) (VOut.writes (Elt F) VOut.junk (lastAt V c t h3).1)
  else VOut.read (Elt F) VOut.junk

theorem outAt_skip (c : Dev nD) (t : Fin cfg1.N) (h1 : t.val % 4 = 1) :
    outAt V c t = VOut.read (Elt F) (VOut.writes (Elt F) VOut.junk (skipAt V c t h1).1) := dif_pos h1
theorem outAt_last (c : Dev nD) (t : Fin cfg1.N) (h3 : t.val % 4 = 3) :
    outAt V c t = VOut.read (Elt F) (VOut.writes (Elt F) VOut.junk (lastAt V c t h3).1) :=
  (dif_neg (by omega)).trans (dif_pos h3)

/-! ## The region's invariant -/

/-- Before position `n`: right after an even point the four scratch buffers hold what that point left; otherwise
    they hold anything. The other kernel's staging buffers and the generator register ride along. -/
def PhiS (c : Dev nD) : (n : ℕ) → n ≤ cfg1.N → sProp 𝕄
  | 0, _ => Pipeline.ΦA spec1 c
  | n + 1, hn =>
    if h : n % 2 = 0 then
      iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scMax fullShare (maxAfter V c ⟨n, hn⟩ h)
      ∗ owns (c : Thread nD τ) scDen fullShare (denAfter V c ⟨n, hn⟩ h)
      ∗ owns (c : Thread nD τ) scNum fullShare (numAfter V c ⟨n, hn⟩ h)
      ∗ owns (c : Thread nD τ) scQ fullShare (qAfter V c ⟨n, hn⟩ h)) ∗ (∃ r, prngReg c r))
    else Pipeline.ΦA spec1 c

theorem PhiS_zero (c : Dev nD) (h : 0 ≤ cfg1.N) : PhiS V c 0 h = Pipeline.ΦA spec1 c := rfl

/-- After an even point: the scratch buffers at that point's contents. -/
theorem PhiS_succ_even (c : Dev nD) (n : ℕ) (hn : n + 1 ≤ cfg1.N) (h : n % 2 = 0) : PhiS V c (n + 1) hn =
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scMax fullShare (maxAfter V c ⟨n, hn⟩ h)
      ∗ owns (c : Thread nD τ) scDen fullShare (denAfter V c ⟨n, hn⟩ h)
      ∗ owns (c : Thread nD τ) scNum fullShare (numAfter V c ⟨n, hn⟩ h)
      ∗ owns (c : Thread nD τ) scQ fullShare (qAfter V c ⟨n, hn⟩ h)) ∗ (∃ r, prngReg c r)) := dif_pos h

/-- After an odd point nothing is tracked. -/
theorem PhiS_succ_odd (c : Dev nD) (n : ℕ) (hn : n + 1 ≤ cfg1.N) (h : ¬ n % 2 = 0) : PhiS V c (n + 1) hn = Pipeline.ΦA spec1 c := dif_neg h

/-- Before an even point nothing is tracked. -/
theorem PhiS_of_even (c : Dev nD) (n : ℕ) (hn : n ≤ cfg1.N) (h : n % 2 = 0) : PhiS V c n hn = Pipeline.ΦA spec1 c := by
  cases n with
  | zero => rfl
  | succ k => exact dif_neg (by omega)

/-- Before an odd point: the scratch buffers at what the point before left. -/
theorem PhiS_of_odd (c : Dev nD) (t : Fin cfg1.N) (h : t.val % 2 = 1) : PhiS V c t.val (Nat.le_of_lt t.isLt) =
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scMax fullShare (maxAfter V c (prev t) (by rw [prev_val]; omega))
      ∗ owns (c : Thread nD τ) scDen fullShare (denAfter V c (prev t) (by rw [prev_val]; omega))
      ∗ owns (c : Thread nD τ) scNum fullShare (numAfter V c (prev t) (by rw [prev_val]; omega))
      ∗ owns (c : Thread nD τ) scQ fullShare (qAfter V c (prev t) (by rw [prev_val]; omega))) ∗ (∃ r, prngReg c r)) := by
  obtain ⟨n, hn⟩ := t
  cases n with
  | zero => exact absurd (show (0 : ℕ) % 2 = 1 from h) (by decide)
  | succ k => exact dif_pos (by have h' : (k + 1) % 2 = 1 := h; omega)

/-! ## The proof data -/

/-- The attention pipeline's proof data on core `c`: the arrays as the region finds them; after the body each input's
    buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem q_eq (c : Dev nD) (w : Fin cfg1.W) : (dat V c).q w = fullShare := by dsimp only [dat]
theorem owed_eq (c : Dev nD) (t : Fin (cfg1.N + 1)) : (dat V c).owed t = 0 := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]
theorem before_0 (c : Dev nD) (t : Fin cfg1.N) (d) : (dat V c).before 0 t d = iblk V c 0 t := before_0_of V (dat V c) (A_eq V c 0) (after_0 V c) t d
theorem before_1 (c : Dev nD) (t : Fin cfg1.N) (d) : (dat V c).before 1 t d = iblk V c 1 t := before_1_of V (dat V c) (A_eq V c 1) (after_1 V c) t d
theorem before_2 (c : Dev nD) (t : Fin cfg1.N) (d) : (dat V c).before 2 t d = iblk V c 2 t := before_2_of V (dat V c) (A_eq V c 2) (after_2 V c) t d
theorem before_3 (c : Dev nD) (t : Fin cfg1.N) (d) : (dat V c).before 3 t d = iblk V c 3 t := before_3_of V (dat V c) (A_eq V c 3) (after_3 V c) t d

theorem Phi_castSucc (c : Dev nD) (t : Fin cfg1.N) : (dat V c).Φ t.castSucc = PhiS V c t.val (Nat.le_of_lt t.isLt) := by
  dsimp only [dat]; simp only [Fin.coe_castSucc]
theorem Phi_succ (c : Dev nD) (t : Fin cfg1.N) : (dat V c).Φ t.succ = PhiS V c (t.val + 1) t.isLt := rfl
theorem recorded_eq (c : Dev nD) : (dat V c).recorded 0 = Set.univ := rfl

/-- What the region hands the body first is the invariant before the first point. -/
theorem hin (c : Dev nD) : Pipeline.ΦA spec1 c ⊢ (dat V c).Φ 0 := by
  rw [show (dat V c).Φ 0 = PhiS V c 0 (Nat.zero_le _) from rfl, PhiS_zero]

/-- After the last point (an odd one: position 32 is even) the invariant is the class's again. -/
theorem hout (c : Dev nD) : (dat V c).Φ (Fin.last cfg1.N) ⊢ Pipeline.ΦA spec1 c := by
  rw [show (dat V c).Φ (Fin.last cfg1.N) = PhiS V c cfg1.N (le_refl _) from rfl, PhiS_of_even V c _ _ (by have : cfg1.N = 32 := N_1; omega)]

end

end Cert.KernelIdeal.R1

end
-- ==== Proof.Region1Body.lean ====
/-
  The attention region's body obligation: at every grid point the body, run on the windows' blocks and on what the
  invariant holds of the scratch buffers, leaves the windows and the invariant as the proof data say. Three cases by
  the point's position in its group of four: even (the accumulators are rebuilt), ≡ 1 (the quotient alone),
  ≡ 3 (one more update, then the quotient).
-/
import proofs.«141642_j28802050687501_2_alg».proof.Proof.Region1Dat

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

section
variable (V : (c : Dev nD) → (b : Ref sig .tc) → Buf (Elt F) ((c : Thread nD τ).loc b))

/-! ## Each case's stores cover the buffer they go to -/

theorem cover_first_max (c : Dev nD) (t : Fin cfg1.N) (h : t.val % 2 = 0) (y : S512x1.Idx) :
    ∃ pc ∈ (firstAt V c t h).1, y ∈ pc.1.set :=
  View.cover_of_tiledL (firstAt V c t h).1 S512x1.size (by sl_kernel_rfl) y
theorem cover_first_den (c : Dev nD) (t : Fin cfg1.N) (h : t.val % 2 = 0) (y : S512x1.Idx) :
    ∃ pc ∈ (firstAt V c t h).2.1, y ∈ pc.1.set :=
  View.cover_of_tiledL (firstAt V c t h).2.1 S512x1.size (by sl_kernel_rfl) y
theorem cover_first_num (c : Dev nD) (t : Fin cfg1.N) (h : t.val % 2 = 0) (y : S512x1024.Idx) :
    ∃ pc ∈ (firstAt V c t h).2.2.1, y ∈ pc.1.set :=
  View.cover_of_tiledL (firstAt V c t h).2.2.1 S512x1024.size (by sl_kernel_rfl) y
theorem cover_first_q (c : Dev nD) (t : Fin cfg1.N) (h : t.val % 2 = 0) (y : S512x1024.Idx) :
    ∃ pc ∈ (firstAt V c t h).2.2.2.1, y ∈ pc.1.set :=
  View.cover_of_tiledL (firstAt V c t h).2.2.2.1 S512x1024.size (by sl_kernel_rfl) y
theorem cover_skip_out (c : Dev nD) (t : Fin cfg1.N) (h : t.val % 4 = 1) (y : S1x512x1024.Idx) :
    ∃ pc ∈ (skipAt V c t h).1, y ∈ pc.1.set :=
  View.cover_of_tiledL (skipAt V c t h).1 S1x512x1024.size (by sl_kernel_rfl) y
theorem cover_last_out (c : Dev nD) (t : Fin cfg1.N) (h : t.val % 4 = 3) (y : S1x512x1024.Idx) :
    ∃ pc ∈ (lastAt V c t h).1, y ∈ pc.1.set :=
  View.cover_of_tiledL (lastAt V c t h).1 S1x512x1024.size (by sl_kernel_rfl) y

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point. The inputs' memrefs hold their blocks; the position in the group of four says which case
    runs; the invariant hands over the scratch buffers (at what the point before left, after an even point) and takes
    them back (at this point's contents, after an even point; at anything otherwise); nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [Phi_succ, Phi_castSucc]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  have hN : t.val < 32 := lt_of_lt_of_eq t.isLt (show cfg1.N = 32 from N_1)
  by_cases h0 : t.val % 2 = 0
  · -- an even point: the accumulators are rebuilt from the point's blocks
    rw [Dat.leavesExact_idle (dat V c) 4 t (idleAt_4 t h0) (noFlush_4 t h0)]
    rw [PhiS_of_even V c _ _ h0, PhiA1_eq, PhiS_succ_even V c t.val t.isLt h0]
    unfold maxAfter denAfter numAfter qAfter
    iintro ⟨⟨⟨Ha, Hb, Hc, Hd, He, Hf, HS0, HS1, HS2, HS3⟩, Hg⟩, Ho, ⟨%d0, H0⟩, ⟨%d1, H1⟩, ⟨%d2, H2⟩, ⟨%d3, H3⟩, ⟨%d4, H4⟩⟩
    iapply ((firstAt V c t h0).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%e0, HS0⟩, ⟨%e1, HS1⟩, ⟨%e2, HS2⟩, ⟨%e3, HS3⟩⟩
    isplitl [Ha Hb Hc Hd He Hf HS0 HS1 HS2 HS3 Hg]
    · isplitr [Hg]
      ·
        isplitl [Ha]; · iexact Ha
        isplitl [Hb]; · iexact Hb
        isplitl [Hc]; · iexact Hc
        isplitl [Hd]; · iexact Hd
        isplitl [He]; · iexact He
        isplitl [Hf]; · iexact Hf
        isplitl [HS0]
        · unfold owns; iexists _; isplitr
          swap; · iexact HS0
          ipureintro; exact View.read_writes_of_cover _ _ _ _ _ (cover_first_max V c t h0)
        isplitl [HS1]
        · unfold owns; iexists _; isplitr
          swap; · iexact HS1
          ipureintro; exact View.read_writes_of_cover _ _ _ _ _ (cover_first_den V c t h0)
        isplitl [HS2]
        · unfold owns; iexists _; isplitr
          swap; · iexact HS2
          ipureintro; exact View.read_writes_of_cover _ _ _ _ _ (cover_first_num V c t h0)
        · unfold owns; iexists _; isplitr
          swap; · iexact HS3
          ipureintro; exact View.read_writes_of_cover _ _ _ _ _ (cover_first_q V c t h0)
      · iexact Hg
    isplitl [Ho]; · iexact Ho
    isplitl [H0]; · iexact H0
    isplitl [H1]; · iexact H1
    isplitl [H2]; · iexact H2
    isplitl [H3]; · iexact H3
    iexists _; iexact H4
  · have h1 : t.val % 2 = 1 := by omega
    rw [show (dat V c).leavesExact 4 t = owns (c : Thread nD τ) (ms4 t) fullShare ((dat V c).after 4 t) from by
      unfold Dat.leavesExact; rw [liveAt_4 t h1], after_4]
    rw [PhiS_of_odd V c t h1, PhiS_succ_odd V c t.val t.isLt h0, PhiA1_eq]
    by_cases h4 : t.val % 4 = 1
    · -- the key block is wholly masked: the quotient alone
      rw [outAt_skip V c t h4]
      iintro ⟨⟨⟨Ha, Hb, Hc, Hd, He, Hf, HS0, HS1, HS2, HS3⟩, Hg⟩, Ho, ⟨%d0, H0⟩, ⟨%d1, H1⟩, ⟨%d2, H2⟩, ⟨%d3, H3⟩, ⟨%d4, H4⟩⟩
      iapply ((skipAt V c t h4).2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexact HS1
      isplitl [HS2]; · iexact HS2
      isplitl [HS3]; · iexists _; iexact HS3
      iintro ⟨H0, H1, H2, H3, ⟨%e4, H4⟩, HS0, HS1, HS2, HS3⟩
      isplitl [Ha Hb Hc Hd He Hf HS0 HS1 HS2 HS3 Hg]
      · isplitr [Hg]
        ·
          isplitl [Ha]; · iexact Ha
          isplitl [Hb]; · iexact Hb
          isplitl [Hc]; · iexact Hc
          isplitl [Hd]; · iexact Hd
          isplitl [He]; · iexact He
          isplitl [Hf]; · iexact Hf
          isplitl [HS0]; · iexact HS0
          isplitl [HS1]; · iexists _; iexact HS1
          isplitl [HS2]; · iexists _; iexact HS2
          iexact HS3
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_skip_out V c t h4)
    · have h3 : t.val % 4 = 3 := by omega
      -- one more update with the second key block, then the quotient
      rw [outAt_last V c t h3]
      iintro ⟨⟨⟨Ha, Hb, Hc, Hd, He, Hf, HS0, HS1, HS2, HS3⟩, Hg⟩, Ho, ⟨%d0, H0⟩, ⟨%d1, H1⟩, ⟨%d2, H2⟩, ⟨%d3, H3⟩, ⟨%d4, H4⟩⟩
      iapply ((lastAt V c t h3).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, HS3⟩
      isplitl [Ha Hb Hc Hd He Hf HS0 HS1 HS2 HS3 Hg]
      · isplitr [Hg]
        ·
          isplitl [Ha]; · iexact Ha
          isplitl [Hb]; · iexact Hb
          isplitl [Hc]; · iexact Hc
          isplitl [Hd]; · iexact Hd
          isplitl [He]; · iexact He
          isplitl [Hf]; · iexact Hf
          isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          iexists _; iexact HS3
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last_out V c t h3)

/-- The library's body obligation, at every point. -/
theorem body_obligation (c : Dev nD) : BodyObligation (dat (F := F) V c) (defs₀ (F := F)) Variants.none () Set.univ := fun t => by
  rw [bigSep_W1, bigSep_W1]
  exact sound_body V c t

end

end Cert.KernelIdeal.R1

end
-- ==== Proof.Region1RunsBits.lean ====
/-
  The attention kernel's body, seen from one grid point (b, qi, ki) of its 8 × 2 × 2 grid: which of its three
  conditionals are taken there, where its output block is left untouched, and the memrefs it is called with.
  The running maximum, the running denominator, the running numerator and the projected query tile live in four
  scratch buffers that the body keeps from the point (b, qi, 0) to the point (b, qi, 1).
-/
import proofs.«141642_j28802050687501_2_alg».proof.Proof.Gen.Kernel.Launch
import proofs.«141642_j28802050687501_2_alg».proof.Proof.Gen.Kernel.Skeleton
import proofs.«141642_j28802050687501_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The three conditionals, from the grid coordinates -/

/-- "This is the first key block of the row tile" (ki = 0): the scratch buffers are reset and the query tile projected. -/
abbrev cond0 (i : grid1.Coords) : Prop :=
  (Scalar.cmpi .ne (Scalar.extui (Scalar.cmpi .eq (BitVec.ofNat 32 (i 2).val) 0#32)) 0#32) = 1#1
/-- "The key block meets the causal triangle of the row tile" (ki · 512 ≤ qi · 512 + 511): the online-softmax update runs. -/
abbrev cond1 (i : grid1.Coords) : Prop :=
  (Scalar.cmpi .ne (Scalar.extui (Scalar.cmpi .sle (Scalar.muli (BitVec.ofNat 32 (i 2).val) 512#32)
    (Scalar.subi (Scalar.addi (Scalar.muli (BitVec.ofNat 32 (i 1).val) 512#32) 512#32) 1#32))) 0#32) = 1#1
/-- "This is the last key block" (ki = 1): the quotient is stored into the output block. -/
abbrev cond2 (i : grid1.Coords) : Prop := k1_cond3 i = 1#1

/-- The point t = 4b + 2qi + ki has ki = 0 exactly when t is even. -/
theorem hcond0 : ∀ t : Fin cfg1.N, cond0 (grid1.coords t) ↔ t.val % 2 = 0 :=
  (by decide +kernel : ∀ t : Fin grid1.N, cond0 (grid1.coords t) ↔ t.val % 2 = 0)
/-- The update is skipped exactly at (qi, ki) = (0, 1), the points ≡ 1 (mod 4). -/
theorem hcond1 : ∀ t : Fin cfg1.N, cond1 (grid1.coords t) ↔ t.val % 4 ≠ 1 :=
  (by decide +kernel : ∀ t : Fin grid1.N, cond1 (grid1.coords t) ↔ t.val % 4 ≠ 1)
/-- ki = 1 exactly when t is odd. -/
theorem hcond2 : ∀ t : Fin cfg1.N, cond2 (grid1.coords t) ↔ t.val % 2 = 1 :=
  (by decide +kernel : ∀ t : Fin grid1.N, cond2 (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At an even point the output block is not stored into and not written back. -/
theorem idleAt_4 : ∀ t : Fin cfg1.N, t.val % 2 = 0 → cfg1.idle 4 (grid1.coords t) = true := by decide +kernel
theorem noFlush_4 : ∀ t : Fin cfg1.N, t.val % 2 = 0 → (cfg1.win 4).flush t = false := by decide +kernel
/-- At an odd point it is stored whole. -/
theorem liveAt_4 : ∀ t : Fin cfg1.N, t.val % 2 = 1 → cfg1.idle 4 (grid1.coords t) = false := by decide +kernel

/-! ## The memrefs the body is called with -/

abbrev ms0 (t : Fin cfg1.N) : Memref sig .tc .vmem S1x512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512x1024 .f32 := win1_4.stage (cfg1.slots t 4)
abbrev hs4 (t : Fin cfg1.N) : (ms4 t).IsWhole := hstage1_4 ((cfg1.slots t 4).cast nbuf1_4)
/-- The running maximum, the running denominator, the running numerator, the projected query tile. -/
abbrev scMax : Memref sig .tc .vmem S512x1 .f32 := Memref.whole cc1_scratch0
abbrev scDen : Memref sig .tc .vmem S512x1 .f32 := Memref.whole cc1_scratch1
abbrev scNum : Memref sig .tc .vmem S512x1024 .f32 := Memref.whole cc1_scratch2
abbrev scQ : Memref sig .tc .vmem S512x1024 .bf16 := Memref.whole cc1_scratch3
/-- One staging buffer of the output window, through which its contents are stated. -/
abbrev VOut : View sig .tc .vmem S1x512x1024 .f32 := (Memref.whole cc1_stg4_0 : Memref sig .tc .vmem S1x512x1024 .f32).view

/-- The other kernel's staging buffers, which this region never touches. -/
def restBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region hands the body besides the windows: the other kernel's staging buffers, the four scratch buffers at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scMax fullShare d) ∗ (∃ d, owns (c : Thread nD τ) scDen fullShare d) ∗ (∃ d, owns (c : Thread nD τ) scNum fullShare d) ∗ (∃ d, owns (c : Thread nD τ) scQ fullShare d)) ∗ (∃ r, prngReg c r)) := by
  unfold Pipeline.ΦA; rw [scopedRest1_eq]; simp only [scMax, scDen, scNum, scQ, owns_whole]; try rfl

end Cert.Kernel.R1

end
-- ==== Proof.Region1RunFirstBits.lean ====
/-
  The body at a point with ki = 0: the three scratch accumulators are reset, the query tile is projected once and
  kept, and the first key block's scores update the running maximum, denominator and numerator. The output block
  is not touched.
-/
import proofs.«141642_j28802050687501_2_alg».proof.Proof.Region1RunsBits

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The pieces each scratch buffer ends with after the body at a point with ki = 0, and the body's run there: from the
    four input blocks at their contents, the output buffer at `xi` and the scratch buffers at anything, to the inputs
    and the output buffer as they were and each scratch buffer with its stores written. -/
noncomputable def runFirst (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole)
    (hc0 : cond0 i) (hc1 : cond1 i) (hc2 : ¬cond2 i)
    (x0 : Vec F S1x512x1024 .f32) (x1 : Vec F S1024x1024 .bf16) (x2 : Vec F S1x512x1024 .bf16) (x3 : Vec F S1x512x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x1024 .bf16) //
      ∀ (xi : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    iexists _; iexact H8

end Cert.Kernel.R1

end
-- ==== Proof.Region1RunSkipBits.lean ====
/-
  The body at a point with (qi, ki) = (0, 1): the key block lies wholly above the causal diagonal, so nothing is
  accumulated; the quotient of the running numerator by the running denominator is stored into the output block.
-/
import proofs.«141642_j28802050687501_2_alg».proof.Proof.Region1RunFirstBits

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The pieces the output block ends with at a point where only the final division runs, and the body's run there:
    the running denominator and numerator at the contents `xs1`, `xs2` the point before left, handed back as found. -/
noncomputable def runSkip (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole)
    (hc0 : ¬cond0 i) (hc1 : ¬cond1 i) (hc2 : cond2 i)
    (x0 : Vec F S1x512x1024 .f32) (x1 : Vec F S1024x1024 .bf16) (x2 : Vec F S1x512x1024 .bf16) (x3 : Vec F S1x512x1024 .bf16)
    (xs1 : Vec F S512x1 .f32) (xs2 : Vec F S512x1024 .f32) :
    { LO : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (∃ d, owns (c : Thread nD τ) arg8 fullShare d) ∗ owns (c : Thread nD τ) arg9 fullShare xs1 ∗ owns (c : Thread nD τ) arg10 fullShare xs2 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO)
                ∗ (∃ d, owns (c : Thread nD τ) arg8 fullShare d) ∗ owns (c : Thread nD τ) arg9 fullShare xs1 ∗ owns (c : Thread nD τ) arg10 fullShare xs2 ∗ (∃ d, owns (c : Thread nD τ) arg11 fullShare d)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, %hf5, H5⟩, ⟨%f6, %hf6, H6⟩, ⟨%f7, %hf7, H7⟩, ⟨%d8, %f8, %hf8, H8⟩, Hk⟩
    obtain rfl := harg3.eq_unread hf0; obtain rfl := harg4.eq_unread hf1; obtain rfl := harg5.eq_unread hf2; obtain rfl := harg6.eq_unread hf3
    obtain rfl := harg9.eq_unread hf6; obtain rfl := harg10.eq_unread hf7
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists d5; iexists f5; isplitr; · ipureintro; exact hf5
      iexact H5
    isplitl [H6]
    · iexists _; isplitr; · ipureintro; exact harg9.read_unread _
      iexact H6
    isplitl [H7]
    · iexists _; isplitr; · ipureintro; exact harg10.read_unread _
      iexact H7
    iexists d8; iexists f8; isplitr; · ipureintro; exact hf8
    iexact H8

end Cert.Kernel.R1

end
-- ==== Proof.Region1RunLastBits.lean ====
/-
  The body at a point with (qi, ki) = (1, 1): the second key block's scores, masked above the diagonal, update the
  running maximum, denominator and numerator that the first block left, and the quotient is stored into the output
  block.
-/
import proofs.«141642_j28802050687501_2_alg».proof.Proof.Region1RunSkipBits

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The pieces the output block and the three accumulators end with at a point where the update and the final division
    both run, and the body's run there: the four scratch buffers at the contents `xs0` … `xs3` the point before left,
    the query tile handed back as found. -/
noncomputable def runLast (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole)
    (hc0 : ¬cond0 i) (hc1 : cond1 i) (hc2 : cond2 i)
    (x0 : Vec F S1x512x1024 .f32) (x1 : Vec F S1024x1024 .bf16) (x2 : Vec F S1x512x1024 .bf16) (x3 : Vec F S1x512x1024 .bf16)
    (xs0 : Vec F S512x1 .f32) (xs1 : Vec F S512x1 .f32) (xs2 : Vec F S512x1024 .f32) (xs3 : Vec F S512x1024 .bf16) :
    Σ' (LO : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3
    obtain rfl := harg8.eq_unread hf5; obtain rfl := harg9.eq_unread hf6; obtain rfl := harg10.eq_unread hf7; obtain rfl := harg11.eq_unread hf8
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    iexists _; isplitr; · ipureintro; exact harg11.read_unread _
    iexact H8

end Cert.Kernel.R1

end
-- ==== Proof.Region1DatBits.lean ====
/-
  The attention region's proof data: what each window's staging buffer and each scratch buffer holds after the body,
  point by point. At an even point (ki = 0) the scratch buffers are rebuilt from the point's blocks alone; at the odd
  point that follows, the output block is the quotient computed from them (after one more update when qi = 1). So
  nothing is carried further than one point.
-/
import proofs.«141642_j28802050687501_2_alg».proof.Proof.Region1RunLastBits

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The three cases at a point -/

/-- The point before `t`. -/
def prev (t : Fin cfg1.N) : Fin cfg1.N := ⟨t.val - 1, lt_of_le_of_lt (Nat.sub_le _ _) t.isLt⟩
theorem prev_val (t : Fin cfg1.N) : (prev t).val = t.val - 1 := rfl

/-- The body's run at an even point. -/
def firstAt (c : Dev nD) (t : Fin cfg1.N) (h : t.val % 2 = 0) :=
  runFirst (F := F) c (grid1.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _)
    ((hcond0 t).mpr h) ((hcond1 t).mpr (by omega)) (fun h2 => by have := (hcond2 t).mp h2; omega)
    (iblk V c 0 t) (iblk V c 1 t) (iblk V c 2 t) (iblk V c 3 t)

/-- What an even point leaves in the running maximum, denominator, numerator and query tile: its stores read back. -/
def maxAfter (c : Dev nD) (t : Fin cfg1.N) (h : t.val % 2 = 0) : Vec F S512x1 .f32 :=
  scMax.view.read (Elt F) (scMax.view.writes (Elt F) scMax.view.junk (firstAt V c t h).1)
def denAfter (c : Dev nD) (t : Fin cfg1.N) (h : t.val % 2 = 0) : Vec F S512x1 .f32 :=
  scDen.view.read (Elt F) (scDen.view.writes (Elt F) scDen.view.junk (firstAt V c t h).2.1)
def numAfter (c : Dev nD) (t : Fin cfg1.N) (h : t.val % 2 = 0) : Vec F S512x1024 .f32 :=
  scNum.view.read (Elt F) (scNum.view.writes (Elt F) scNum.view.junk (firstAt V c t h).2.2.1)
def qAfter (c : Dev nD) (t : Fin cfg1.N) (h : t.val % 2 = 0) : Vec F S512x1024 .bf16 :=
  scQ.view.read (Elt F) (scQ.view.writes (Elt F) scQ.view.junk (firstAt V c t h).2.2.2.1)

/-- The body's run at a point ≡ 1 (mod 4), on what the point before left. -/
def skipAt (c : Dev nD) (t : Fin cfg1.N) (h : t.val % 4 = 1) :=
  runSkip (F := F) c (grid1.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _)
    (fun h0 => by have := (hcond0 t).mp h0; omega) (fun h1 => (hcond1 t).mp h1 h) ((hcond2 t).mpr (by omega))
    (iblk V c 0 t) (iblk V c 1 t) (iblk V c 2 t) (iblk V c 3 t)
    (denAfter V c (prev t) (by rw [prev_val]; omega)) (numAfter V c (prev t) (by rw [prev_val]; omega))

/-- The body's run at a point ≡ 3 (mod 4), on what the point before left. -/
def lastAt (c : Dev nD) (t : Fin cfg1.N) (h : t.val % 4 = 3) :=
  runLast (F := F) c (grid1.coords t) (ms0 t) (hs0 t) (ms1 t) (hs1 t) (ms2 t) (hs2 t) (ms3 t) (hs3 t) (ms4 t) (hs4 t) scMax (Memref.isWhole_whole _) scDen (Memref.isWhole_whole _) scNum (Memref.isWhole_whole _) scQ (Memref.isWhole_whole _)
    (fun h0 => by have := (hcond0 t).mp h0; omega) ((hcond1 t).mpr (by omega)) ((hcond2 t).mpr (by omega))
    (iblk V c 0 t) (iblk V c 1 t) (iblk V c 2 t) (iblk V c 3 t)
    (maxAfter V c (prev t) (by rw [prev_val]; omega)) (denAfter V c (prev t) (by rw [prev_val]; omega)) (numAfter V c (prev t) (by rw [prev_val]; omega)) (qAfter V c (prev t) (by rw [prev_val]; omega))

/-- What the output window's staging buffer holds after the body: at an odd point the stored quotient; at an even
    point nothing is stored (a placeholder nothing consults: the block is neither written back nor read there). -/
def outAt (c : Dev nD) (t : Fin cfg1.N) : Vec F S1x512x1024 .f32 :=
  if h1 : t.val % 4 = 1 then VOut.read (Elt F) (VOut.writes (Elt F) VOut.junk (skipAt V c t h1).1)
  else if h3 : t.val % 4 = 3 then VOut.read (Elt F) (VOut.writes (Elt F) VOut.junk (lastAt V c t h3).1)
  else VOut.read (Elt F) VOut.junk

theorem outAt_skip (c : Dev nD) (t : Fin cfg1.N) (h1 : t.val % 4 = 1) :
    outAt V c t = VOut.read (Elt F) (VOut.writes (Elt F) VOut.junk (skipAt V c t h1).1) := dif_pos h1
theorem outAt_last (c : Dev nD) (t : Fin cfg1.N) (h3 : t.val % 4 = 3) :
    outAt V c t = VOut.read (Elt F) (VOut.writes (Elt F) VOut.junk (lastAt V c t h3).1) :=
  (dif_neg (by omega)).trans (dif_pos h3)

/-! ## The region's invariant -/

/-- Before position `n`: right after an even point the four scratch buffers hold what that point left; otherwise
    they hold anything. The other kernel's staging buffers and the generator register ride along. -/
def PhiS (c : Dev nD) : (n : ℕ) → n ≤ cfg1.N → sProp 𝕄
  | 0, _ => Pipeline.ΦA spec1 c
  | n + 1, hn =>
    if h : n % 2 = 0 then
      iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scMax fullShare (maxAfter V c ⟨n, hn⟩ h)
      ∗ owns (c : Thread nD τ) scDen fullShare (denAfter V c ⟨n, hn⟩ h)
      ∗ owns (c : Thread nD τ) scNum fullShare (numAfter V c ⟨n, hn⟩ h)
      ∗ owns (c : Thread nD τ) scQ fullShare (qAfter V c ⟨n, hn⟩ h)) ∗ (∃ r, prngReg c r))
    else Pipeline.ΦA spec1 c

theorem PhiS_zero (c : Dev nD) (h : 0 ≤ cfg1.N) : PhiS V c 0 h = Pipeline.ΦA spec1 c := rfl

/-- After an even point: the scratch buffers at that point's contents. -/
theorem PhiS_succ_even (c : Dev nD) (n : ℕ) (hn : n + 1 ≤ cfg1.N) (h : n % 2 = 0) : PhiS V c (n + 1) hn =
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scMax fullShare (maxAfter V c ⟨n, hn⟩ h)
      ∗ owns (c : Thread nD τ) scDen fullShare (denAfter V c ⟨n, hn⟩ h)
      ∗ owns (c : Thread nD τ) scNum fullShare (numAfter V c ⟨n, hn⟩ h)
      ∗ owns (c : Thread nD τ) scQ fullShare (qAfter V c ⟨n, hn⟩ h)) ∗ (∃ r, prngReg c r)) := dif_pos h

/-- After an odd point nothing is tracked. -/
theorem PhiS_succ_odd (c : Dev nD) (n : ℕ) (hn : n + 1 ≤ cfg1.N) (h : ¬ n % 2 = 0) : PhiS V c (n + 1) hn = Pipeline.ΦA spec1 c := dif_neg h

/-- Before an even point nothing is tracked. -/
theorem PhiS_of_even (c : Dev nD) (n : ℕ) (hn : n ≤ cfg1.N) (h : n % 2 = 0) : PhiS V c n hn = Pipeline.ΦA spec1 c := by
  cases n with
  | zero => rfl
  | succ k => exact dif_neg (by omega)

/-- Before an odd point: the scratch buffers at what the point before left. -/
theorem PhiS_of_odd (c : Dev nD) (t : Fin cfg1.N) (h : t.val % 2 = 1) : PhiS V c t.val (Nat.le_of_lt t.isLt) =
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scMax fullShare (maxAfter V c (prev t) (by rw [prev_val]; omega))
      ∗ owns (c : Thread nD τ) scDen fullShare (denAfter V c (prev t) (by rw [prev_val]; omega))
      ∗ owns (c : Thread nD τ) scNum fullShare (numAfter V c (prev t) (by rw [prev_val]; omega))
      ∗ owns (c : Thread nD τ) scQ fullShare (qAfter V c (prev t) (by rw [prev_val]; omega))) ∗ (∃ r, prngReg c r)) := by
  obtain ⟨n, hn⟩ := t
  cases n with
  | zero => exact absurd (show (0 : ℕ) % 2 = 1 from h) (by decide)
  | succ k => exact dif_pos (by have h' : (k + 1) % 2 = 1 := h; omega)

/-! ## The proof data -/

/-- The attention pipeline's proof data on core `c`: the arrays as the region finds them; after the body each input's
    buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem q_eq (c : Dev nD) (w : Fin cfg1.W) : (dat V c).q w = fullShare := by dsimp only [dat]
theorem owed_eq (c : Dev nD) (t : Fin (cfg1.N + 1)) : (dat V c).owed t = 0 := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]
theorem before_0 (c : Dev nD) (t : Fin cfg1.N) (d) : (dat V c).before 0 t d = iblk V c 0 t := before_0_of V (dat V c) (A_eq V c 0) (after_0 V c) t d
theorem before_1 (c : Dev nD) (t : Fin cfg1.N) (d) : (dat V c).before 1 t d = iblk V c 1 t := before_1_of V (dat V c) (A_eq V c 1) (after_1 V c) t d
theorem before_2 (c : Dev nD) (t : Fin cfg1.N) (d) : (dat V c).before 2 t d = iblk V c 2 t := before_2_of V (dat V c) (A_eq V c 2) (after_2 V c) t d
theorem before_3 (c : Dev nD) (t : Fin cfg1.N) (d) : (dat V c).before 3 t d = iblk V c 3 t := before_3_of V (dat V c) (A_eq V c 3) (after_3 V c) t d

theorem Phi_castSucc (c : Dev nD) (t : Fin cfg1.N) : (dat V c).Φ t.castSucc = PhiS V c t.val (Nat.le_of_lt t.isLt) := by
  dsimp only [dat]; simp only [Fin.coe_castSucc]
theorem Phi_succ (c : Dev nD) (t : Fin cfg1.N) : (dat V c).Φ t.succ = PhiS V c (t.val + 1) t.isLt := rfl
theorem recorded_eq (c : Dev nD) : (dat V c).recorded 0 = Set.univ := rfl

/-- What the region hands the body first is the invariant before the first point. -/
theorem hin (c : Dev nD) : Pipeline.ΦA spec1 c ⊢ (dat V c).Φ 0 := by
  rw [show (dat V c).Φ 0 = PhiS V c 0 (Nat.zero_le _) from rfl, PhiS_zero]

/-- After the last point (an odd one: position 32 is even) the invariant is the class's again. -/
theorem hout (c : Dev nD) : (dat V c).Φ (Fin.last cfg1.N) ⊢ Pipeline.ΦA spec1 c := by
  rw [show (dat V c).Φ (Fin.last cfg1.N) = PhiS V c cfg1.N (le_refl _) from rfl, PhiS_of_even V c _ _ (by have : cfg1.N = 32 := N_1; omega)]

end

end Cert.Kernel.R1

end
-- ==== Proof.Region1BodyBits.lean ====
/-
  The attention region's body obligation: at every grid point the body, run on the windows' blocks and on what the
  invariant holds of the scratch buffers, leaves the windows and the invariant as the proof data say. Three cases by
  the point's position in its group of four: even (the accumulators are rebuilt), ≡ 1 (the quotient alone),
  ≡ 3 (one more update, then the quotient).
-/
import proofs.«141642_j28802050687501_2_alg».proof.Proof.Region1DatBits

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section
variable (V : (c : Dev nD) → (b : Ref sig .tc) → Buf (Elt F) ((c : Thread nD τ).loc b))

/-! ## Each case's stores cover the buffer they go to -/

theorem cover_first_max (c : Dev nD) (t : Fin cfg1.N) (h : t.val % 2 = 0) (y : S512x1.Idx) :
    ∃ pc ∈ (firstAt V c t h).1, y ∈ pc.1.set :=
  View.cover_of_tiledL (firstAt V c t h).1 S512x1.size (by sl_kernel_rfl) y
theorem cover_first_den (c : Dev nD) (t : Fin cfg1.N) (h : t.val % 2 = 0) (y : S512x1.Idx) :
    ∃ pc ∈ (firstAt V c t h).2.1, y ∈ pc.1.set :=
  View.cover_of_tiledL (firstAt V c t h).2.1 S512x1.size (by sl_kernel_rfl) y
theorem cover_first_num (c : Dev nD) (t : Fin cfg1.N) (h : t.val % 2 = 0) (y : S512x1024.Idx) :
    ∃ pc ∈ (firstAt V c t h).2.2.1, y ∈ pc.1.set :=
  View.cover_of_tiledL (firstAt V c t h).2.2.1 S512x1024.size (by sl_kernel_rfl) y
theorem cover_first_q (c : Dev nD) (t : Fin cfg1.N) (h : t.val % 2 = 0) (y : S512x1024.Idx) :
    ∃ pc ∈ (firstAt V c t h).2.2.2.1, y ∈ pc.1.set :=
  View.cover_of_tiledL (firstAt V c t h).2.2.2.1 S512x1024.size (by sl_kernel_rfl) y
theorem cover_skip_out (c : Dev nD) (t : Fin cfg1.N) (h : t.val % 4 = 1) (y : S1x512x1024.Idx) :
    ∃ pc ∈ (skipAt V c t h).1, y ∈ pc.1.set :=
  View.cover_of_tiledL (skipAt V c t h).1 S1x512x1024.size (by sl_kernel_rfl) y
theorem cover_last_out (c : Dev nD) (t : Fin cfg1.N) (h : t.val % 4 = 3) (y : S1x512x1024.Idx) :
    ∃ pc ∈ (lastAt V c t h).1, y ∈ pc.1.set :=
  View.cover_of_tiledL (lastAt V c t h).1 S1x512x1024.size (by sl_kernel_rfl) y

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point. The inputs' memrefs hold their blocks; the position in the group of four says which case
    runs; the invariant hands over the scratch buffers (at what the point before left, after an even point) and takes
    them back (at this point's contents, after an even point; at anything otherwise); nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [Phi_succ, Phi_castSucc]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  have hN : t.val < 32 := lt_of_lt_of_eq t.isLt (show cfg1.N = 32 from N_1)
  by_cases h0 : t.val % 2 = 0
  · -- an even point: the accumulators are rebuilt from the point's blocks
    rw [Dat.leavesExact_idle (dat V c) 4 t (idleAt_4 t h0) (noFlush_4 t h0)]
    rw [PhiS_of_even V c _ _ h0, PhiA1_eq, PhiS_succ_even V c t.val t.isLt h0]
    unfold maxAfter denAfter numAfter qAfter
    iintro ⟨⟨⟨Ha, Hb, Hc, Hd, He, Hf, HS0, HS1, HS2, HS3⟩, Hg⟩, Ho, ⟨%d0, H0⟩, ⟨%d1, H1⟩, ⟨%d2, H2⟩, ⟨%d3, H3⟩, ⟨%d4, H4⟩⟩
    iapply ((firstAt V c t h0).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%e0, HS0⟩, ⟨%e1, HS1⟩, ⟨%e2, HS2⟩, ⟨%e3, HS3⟩⟩
    isplitl [Ha Hb Hc Hd He Hf HS0 HS1 HS2 HS3 Hg]
    · isplitr [Hg]
      ·
        isplitl [Ha]; · iexact Ha
        isplitl [Hb]; · iexact Hb
        isplitl [Hc]; · iexact Hc
        isplitl [Hd]; · iexact Hd
        isplitl [He]; · iexact He
        isplitl [Hf]; · iexact Hf
        isplitl [HS0]
        · unfold owns; iexists _; isplitr
          swap; · iexact HS0
          ipureintro; exact View.read_writes_of_cover _ _ _ _ _ (cover_first_max V c t h0)
        isplitl [HS1]
        · unfold owns; iexists _; isplitr
          swap; · iexact HS1
          ipureintro; exact View.read_writes_of_cover _ _ _ _ _ (cover_first_den V c t h0)
        isplitl [HS2]
        · unfold owns; iexists _; isplitr
          swap; · iexact HS2
          ipureintro; exact View.read_writes_of_cover _ _ _ _ _ (cover_first_num V c t h0)
        · unfold owns; iexists _; isplitr
          swap; · iexact HS3
          ipureintro; exact View.read_writes_of_cover _ _ _ _ _ (cover_first_q V c t h0)
      · iexact Hg
    isplitl [Ho]; · iexact Ho
    isplitl [H0]; · iexact H0
    isplitl [H1]; · iexact H1
    isplitl [H2]; · iexact H2
    isplitl [H3]; · iexact H3
    iexists _; iexact H4
  · have h1 : t.val % 2 = 1 := by omega
    rw [show (dat V c).leavesExact 4 t = owns (c : Thread nD τ) (ms4 t) fullShare ((dat V c).after 4 t) from by
      unfold Dat.leavesExact; rw [liveAt_4 t h1], after_4]
    rw [PhiS_of_odd V c t h1, PhiS_succ_odd V c t.val t.isLt h0, PhiA1_eq]
    by_cases h4 : t.val % 4 = 1
    · -- the key block is wholly masked: the quotient alone
      rw [outAt_skip V c t h4]
      iintro ⟨⟨⟨Ha, Hb, Hc, Hd, He, Hf, HS0, HS1, HS2, HS3⟩, Hg⟩, Ho, ⟨%d0, H0⟩, ⟨%d1, H1⟩, ⟨%d2, H2⟩, ⟨%d3, H3⟩, ⟨%d4, H4⟩⟩
      iapply ((skipAt V c t h4).2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexact HS1
      isplitl [HS2]; · iexact HS2
      isplitl [HS3]; · iexists _; iexact HS3
      iintro ⟨H0, H1, H2, H3, ⟨%e4, H4⟩, HS0, HS1, HS2, HS3⟩
      isplitl [Ha Hb Hc Hd He Hf HS0 HS1 HS2 HS3 Hg]
      · isplitr [Hg]
        ·
          isplitl [Ha]; · iexact Ha
          isplitl [Hb]; · iexact Hb
          isplitl [Hc]; · iexact Hc
          isplitl [Hd]; · iexact Hd
          isplitl [He]; · iexact He
          isplitl [Hf]; · iexact Hf
          isplitl [HS0]; · iexact HS0
          isplitl [HS1]; · iexists _; iexact HS1
          isplitl [HS2]; · iexists _; iexact HS2
          iexact HS3
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_skip_out V c t h4)
    · have h3 : t.val % 4 = 3 := by omega
      -- one more update with the second key block, then the quotient
      rw [outAt_last V c t h3]
      iintro ⟨⟨⟨Ha, Hb, Hc, Hd, He, Hf, HS0, HS1, HS2, HS3⟩, Hg⟩, Ho, ⟨%d0, H0⟩, ⟨%d1, H1⟩, ⟨%d2, H2⟩, ⟨%d3, H3⟩, ⟨%d4, H4⟩⟩
      iapply ((lastAt V c t h3).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, HS3⟩
      isplitl [Ha Hb Hc Hd He Hf HS0 HS1 HS2 HS3 Hg]
      · isplitr [Hg]
        ·
          isplitl [Ha]; · iexact Ha
          isplitl [Hb]; · iexact Hb
          isplitl [Hc]; · iexact Hc
          isplitl [Hd]; · iexact Hd
          isplitl [He]; · iexact He
          isplitl [Hf]; · iexact Hf
          isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          iexists _; iexact HS3
        · iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last_out V c t h3)

/-- The library's body obligation, at every point. -/
theorem body_obligation (c : Dev nD) : BodyObligation (dat (F := F) V c) (defs₀ (F := F)) Variants.none () Set.univ := fun t => by
  rw [bigSep_W1, bigSep_W1]
  exact sound_body V c t

end

end Cert.Kernel.R1

end
-- ==== Proof.Frames.lean ====
/-
  Four of the five conjuncts. Each kernel program terminates without a fault and leaves its six argument arrays
  unchanged: the launch over the two regions, the projection kernel's proof data and the attention kernel's (whose
  scratch buffers are tracked from each even grid point to the odd one after it). The reference's frame is its run
  with the result dropped. The one recorded idealization reads the mask fill as minus infinity.
-/
import proofs.«141642_j28802050687501_2_alg».proof.Defs
import proofs.«141642_j28802050687501_2_alg».proof.Proof.Launch
import proofs.«141642_j28802050687501_2_alg».proof.Proof.LaunchBits
import proofs.«141642_j28802050687501_2_alg».proof.Proof.Region1Body
import proofs.«141642_j28802050687501_2_alg».proof.Proof.Region1BodyBits
import proofs.«141642_j28802050687501_2_alg».proof.Proof.Gen.Kernel
import proofs.«141642_j28802050687501_2_alg».proof.Proof.Gen.KernelIdeal
import proofs.«141642_j28802050687501_2_alg».proof.Proof.Gen.ReferenceIdeal
import proofs.«141642_j28802050687501_2_alg».proof.Proof.Gen.ReferenceIdeal.Run
import proofs.«141642_j28802050687501_2_alg».proof.Proof.Gen.Pre_finite_inputs

noncomputable section

namespace Cert.Proof.Frames

open Idealize.ShloMosaic Idealize.ShloMosaic.TcCoe Idealize.SL.Sem

/-- The word-level kernel program runs and keeps its arguments. -/
theorem frame_kernel : Cert.frame_Kernel := fun m ρ _ =>
  Cert.Kernel.Run.frame m ρ (fun V c => Cert.Kernel.R1.dat V c)
    (fun V c w => Cert.Kernel.R1.A_eq V c w) (fun V c w => Cert.Kernel.R1.q_eq V c w)
    (fun V c t => Cert.Kernel.R1.owed_eq V c t) (fun V c => Cert.Kernel.R1.recorded_eq V c)
    (fun V c => Cert.Kernel.R1.body_obligation V c) (fun V c => Cert.Kernel.R1.hin V c) (fun V c => Cert.Kernel.R1.hout V c)

/-- The idealized kernel program runs and keeps its arguments. -/
theorem frame_kernelIdeal : Cert.frame_KernelIdeal := fun m ρ _ =>
  Cert.KernelIdeal.Run.frame m ρ (fun V c => Cert.KernelIdeal.R1.dat V c)
    (fun V c w => Cert.KernelIdeal.R1.A_eq V c w) (fun V c w => Cert.KernelIdeal.R1.q_eq V c w)
    (fun V c t => Cert.KernelIdeal.R1.owed_eq V c t) (fun V c => Cert.KernelIdeal.R1.recorded_eq V c)
    (fun V c => Cert.KernelIdeal.R1.body_obligation V c) (fun V c => Cert.KernelIdeal.R1.hin V c) (fun V c => Cert.KernelIdeal.R1.hout V c)

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The mask fill, a very negative finite number in the program text, is read as minus infinity: the table's entry. -/
theorem preserves : Cert.preserves_Kernel_KernelIdeal :=
  IdealRules.named_const.statement Cert.KernelIdeal.κ "neg_big" .f32 0xF149F2CA#32 ⊥ rfl

end Cert.Proof.Frames

end
-- ==== Proof.Region0Value.lean ====
/- Region 0 at the ideal values: the array the projection kernel leaves. Its payload at an index is the sum,
   over the shared axis, of the products of a row of the first block and a column of the second; the blocks of
   the 16 points tile the 2 × 8192 × 1024 result, so the result array is, plane by plane, the matrix product
   of the region-entry contents of the two operand arrays. -/
import proofs.«141642_j28802050687501_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal.Gen
open Idealize.ShloMosaic Idealize.ShloMosaic.TcCoe Idealize.ShloMosaic.ValueIdx
open Idealize.SL Idealize.SL.Sem
open Idealize.ShloMosaic.Pipeline (Dat Cfg Window)

/-! ## The product payload at an index -/

/-- The contraction record of the body's one matrix product: rows by the second axis of the left operand,
    columns by the first axis of the right. -/
abbrev D0 : DotDims S1024x1024 S1024x1024 S1024x1024 := dot_S1024x1024_S1024x1024_S1024x1024_1_0_0_1_n_n

theorem lhs_row (i : S1024x1024.Idx) (q : D0.contr.Idx) : (D0.lhsIdx i q 0).val = (i 0).val := by
  unfold DotDims.lhsIdx
  rw [dif_neg (show ¬(0 : Fin S1024x1024.rank) ∈ D0.lhsBatch by decide), dif_pos (show (0 : Fin S1024x1024.rank) ∈ D0.lhsNonContracting by decide)]
  rfl
theorem lhs_contr (i : S1024x1024.Idx) (q : D0.contr.Idx) : (D0.lhsIdx i q 1).val = (q ⟨0, by decide⟩).val :=
  D0.lhsIdx_val_of_single rfl i q
theorem rhs_contr (i : S1024x1024.Idx) (q : D0.contr.Idx) : (D0.rhsIdx i q 0).val = (q ⟨0, by decide⟩).val :=
  D0.rhsIdx_val_of_single rfl i q
theorem rhs_col (i : S1024x1024.Idx) (q : D0.contr.Idx) : (D0.rhsIdx i q 1).val = (i 1).val := by
  unfold DotDims.rhsIdx
  rw [dif_neg (show ¬(1 : Fin S1024x1024.rank) ∈ D0.rhsBatch by decide), dif_pos (show (1 : Fin S1024x1024.rank) ∈ D0.rhsNonContracting by decide)]
  rfl

/-- At the ideal values the matrix product into the zero accumulator, at row p and column q, is the sum over
    the shared axis of the products. -/
theorem matmul_at (a b : FVec Ideal S1024x1024 .bf16) (p q : Fin 1024) :
    matmul D0 none a b (constant (F := Ideal) S1024x1024 .f32 0x00000000#32) (ix2 p q) = ∑ d : Fin 1024, a (ix2 p d) * b (ix2 d q) := by
  simp only [matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 p q) ((contrEquiv1 D0 1024 rfl rfl).symm k) = ix2 p k := funext fun a => Fin.ext (by
    match a with
    | ⟨0, _⟩ => exact lhs_row _ _
    | ⟨1, _⟩ => exact (lhs_contr _ _).trans hk)
  have er : D0.rhsIdx (ix2 p q) ((contrEquiv1 D0 1024 rfl rfl).symm k) = ix2 k q := funext fun a => Fin.ext (by
    match a with
    | ⟨0, _⟩ => exact (rhs_contr _ _).trans hk
    | ⟨1, _⟩ => exact rhs_col _ _)
  rw [el, er]

/-- The body's payload at plane 0, row p, column q: the row of the first block against the column of the second. -/
theorem pay_at (x0 : FVec Ideal S1x1024x1024 .f32) (x1 : FVec Ideal S1x1024x1024 .bf16) (p q : Fin 1024) :
    k0_pay1 (F := Ideal) x0 x1 (ix3 (0 : Fin 1) p q) = ∑ d : Fin 1024, x0 (ix3 (0 : Fin 1) p d) * x1 (ix3 (0 : Fin 1) d q) := by
  unfold k0_pay1
  refine (shapeCast_ab_1ab_apply _ _ (0 : Fin 1) p q).trans ?_
  refine (truncf_apply (φ := .f32) (ψ := .bf16) _ bitsLt_bf16_f32 (ix2 p q)).trans ?_
  refine (matmul_at _ _ p q).trans ?_
  refine Finset.sum_congr rfl fun d _ => ?_
  refine congrArg₂ (· * ·) ?_ ?_
  · exact (truncf_apply (φ := .f32) (ψ := .bf16) _ bitsLt_bf16_f32 (ix2 p d)).trans (shapeCast_1ab_ab_apply x0 _ p d)
  · exact shapeCast_1ab_ab_apply x1 _ d q

/-- The payload at any index y of the block. -/
theorem pay_apply (x0 : FVec Ideal S1x1024x1024 .f32) (x1 : FVec Ideal S1x1024x1024 .bf16) (y : S1x1024x1024.Idx) :
    k0_pay1 (F := Ideal) x0 x1 y
      = ∑ d : Fin 1024, x0 (ix3 (0 : Fin 1) (⟨(y 1).val, (y 1).isLt⟩ : Fin 1024) d) * x1 (ix3 (0 : Fin 1) d (⟨(y 2).val, (y 2).isLt⟩ : Fin 1024)) := by
  have hy : y = ix3 (0 : Fin 1) (⟨(y 1).val, (y 1).isLt⟩ : Fin 1024) (⟨(y 2).val, (y 2).isLt⟩ : Fin 1024) := by
    funext a; apply Fin.ext
    match a with
    | ⟨0, _⟩ => show (y 0).val = 0; have h : (y 0).val < 1 := (y 0).isLt; omega
    | ⟨1, _⟩ => rfl
    | ⟨2, _⟩ => rfl
  exact (congrArg (k0_pay1 (F := Ideal) x0 x1) hy).trans (pay_at x0 x1 _ _)

/-! ## From the blocks to the array -/

/-- The product array: plane g, row r, column q is row r of plane g of X against column q of plane g of W. -/
def projG (X : S2x8192x1024.Idx → EReal) (W : S2x1024x1024.Idx → EReal) : S2x8192x1024.Idx → EReal :=
  fun j => ∑ d : Fin 1024, X (ix3 (⟨(j 0).val, (j 0).isLt⟩ : Fin 2) (⟨(j 1).val, (j 1).isLt⟩ : Fin 8192) d)
      * W (ix3 (⟨(j 0).val, (j 0).isLt⟩ : Fin 2) d (⟨(j 2).val, (j 2).isLt⟩ : Fin 1024))

theorem projG_apply (X : S2x8192x1024.Idx → EReal) (W : S2x1024x1024.Idx → EReal) (j : S2x8192x1024.Idx) :
    projG X W j = ∑ d : Fin 1024, X (ix3 (⟨(j 0).val, (j 0).isLt⟩ : Fin 2) (⟨(j 1).val, (j 1).isLt⟩ : Fin 8192) d)
      * W (ix3 (⟨(j 0).val, (j 0).isLt⟩ : Fin 2) d (⟨(j 2).val, (j 2).isLt⟩ : Fin 1024)) := rfl

theorem hz : (![0, 0, 0] : Fin 3 → Nat) = fun _ => 0 := funext fun a => by fin_cases a <;> rfl

/-- The three windows' block indices at each of the 16 points: point t is plane t / 8, row block t % 8;
    the second operand's window stays on its plane's one block. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0 :=
  (by decide +kernel : ∀ t : Fin grid0.N, _)

-- the region-entry contents at the ideal values
variable (V : (c : Dev nD) → (b : Ref sig .tc) → Buf (Elt Ideal) ((c : Thread nD τ).loc b))

/-- What point t writes back is block t of the product array of the region-entry contents. -/
theorem flushed_eq (c : Dev nD) (t : Fin cfg0.N) :
    (dat0 V c).flushed 2 t = ((cfg0.win 2).blk t).view.read (Elt Ideal) (projG (V c main_v7) (V c main_v10)) := by
  show (cfg0.win 2).cut (grid0.coords t) ((dat0 V c).after 2 t) = _
  rw [after0_2]
  unfold out0_2
  rw [View.canon_unit_zero hz]
  simp only [View.ld_unit_zero (S := S1x1024x1024) hz]
  obtain ⟨a0, a1, a2, b0, b1, b2, c0, c1, c2⟩ := idx_facts t
  funext y
  refine (pay_apply (iblk0 V c 0 t) (iblk0 V c 1 t) y).trans ?_
  have hy0 : (y 0).val < 1 := (y 0).isLt
  have hy1 : (y 1).val < 1024 := (y 1).isLt
  have hy2 : (y 2).val < 1024 := (y 2).isLt
  show ∑ d : Fin 1024, @HMul.hMul EReal EReal EReal instHMul
          (V c main_v7 (((cfg0.win 0).blk t).view.emb (ix3 (0 : Fin 1) (⟨(y 1).val, (y 1).isLt⟩ : Fin 1024) d)))
          (V c main_v10 (((cfg0.win 1).blk t).view.emb (ix3 (0 : Fin 1) d (⟨(y 2).val, (y 2).isLt⟩ : Fin 1024))))
      = projG (V c main_v7) (V c main_v10) (((cfg0.win 2).blk t).view.emb y)
  rw [projG_apply]
  refine Finset.sum_congr rfl fun d _ => ?_
  have hd : d.val < 1024 := d.isLt
  refine congrArg₂ (· * ·) (congrArg (V c main_v7) ?_) (congrArg (V c main_v10) ?_)
  · funext a; apply Fin.ext
    match a with
    | ⟨0, _⟩ => show win0_0.index t (0 : Fin 3) * 1 + 1 * 0 = win0_2.index t (0 : Fin 3) * 1 + 1 * (y 0).val; omega
    | ⟨1, _⟩ => show win0_0.index t (1 : Fin 3) * 1024 + 1 * (y 1).val = win0_2.index t (1 : Fin 3) * 1024 + 1 * (y 1).val; omega
    | ⟨2, _⟩ => show win0_0.index t (2 : Fin 3) * 1024 + 1 * d.val = d.val; omega
  · funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 1024 + 1 * d.val = d.val; omega
    | ⟨2, _⟩ => show win0_1.index t (2 : Fin 3) * 1024 + 1 * (y 2).val = win0_2.index t (2 : Fin 3) * 1024 + 1 * (y 2).val; omega

/-- An index of the array is in point t's block iff each coordinate is in the block's range on its axis. -/
theorem mem_blk (t : Fin cfg0.N) (i : S2x8192x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v11).slice (win0_2.rect t)).set ↔ _
  rw [View.set_slice_whole, Rect.mem_set_unit]
  exact Iff.rfl

/-- Every index of the array is in some point's block: row r of plane g is in the block of point g * 8 + r / 1024. -/
theorem cover (i : S2x8192x1024.Idx) : ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 1024 := (i 2).isLt
  obtain ⟨t, ht⟩ : ∃ t : Fin cfg0.N, t.val = (i 0).val * 8 + (i 1).val / 1024 :=
    ⟨⟨(i 0).val * 8 + (i 1).val / 1024, by show _ < grid0.N; rw [N_0]; omega⟩, rfl⟩
  obtain ⟨-, -, -, -, -, -, c0, c1, c2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The region's output array after the run: the product array of the region-entry contents. -/
theorem proj_final (c : Dev nD) : (dat0 V c).arrAt 2 cfg0.N = projG (V c main_v7) (V c main_v10) :=
  (dat0 V c).arrAt_eq_of_cover 2 (projG (V c main_v7) (V c main_v10)) (fun t _ => flushed_eq V c t) cover

/-- The same at an index (its right side opens by the product array's defining sum). -/
theorem proj_final_apply (c : Dev nD) (j : S2x8192x1024.Idx) :
    (dat0 V c).arrAt 2 cfg0.N j = projG (V c main_v7) (V c main_v10) j :=
  congrFun (proj_final V c) j

/-- The windows' arrays: the two operands and the result. -/
theorem arrRef_x : Pipeline.arrRef spec0 0 = main_v7 := rfl
theorem arrRef_w : Pipeline.arrRef spec0 1 = main_v10 := rfl
theorem arrRef_out : Pipeline.arrRef spec0 2 = main_v11 := rfl

end Cert.KernelIdeal.R0

end
-- ==== Proof.LaunchValues.lean ====
/- The launch's values at the ideal instance: what the two host stretches put in the regions' operand arrays,
   read at an index. The first stretch stacks the key and value arrays (rows laid end to end) and the two weight
   matrices, one plane each; the first region multiplies plane by plane; the second stretch cuts the planes apart
   and regroups the rows into batches. So the second region's key and value operands are the key and value
   arrays times their weight matrices; its query operand and query weights are the arguments themselves. -/
import proofs.«141642_j28802050687501_2_alg».proof.Proof.Launch
import proofs.«141642_j28802050687501_2_alg».proof.Proof.Region0Value
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The argument arrays and the first region's result, as real-valued functions -/

/-- The argument arrays on core c. -/
abbrev arg0 (c : Dev nD) : S8x1024x1024.Idx → EReal := m ((c.tc : Thread nD τ).loc main_arg0)
abbrev arg1 (c : Dev nD) : S8x1024x1024.Idx → EReal := m ((c.tc : Thread nD τ).loc main_arg1)
abbrev arg2 (c : Dev nD) : S8x1024x1024.Idx → EReal := m ((c.tc : Thread nD τ).loc main_arg2)
abbrev arg3 (c : Dev nD) : S1024x1024.Idx → EReal := m ((c.tc : Thread nD τ).loc main_arg3)
abbrev arg4 (c : Dev nD) : S1024x1024.Idx → EReal := m ((c.tc : Thread nD τ).loc main_arg4)
abbrev arg5 (c : Dev nD) : S1024x1024.Idx → EReal := m ((c.tc : Thread nD τ).loc main_arg5)

/-- What the first region leaves in its result array. -/
abbrev out0 (c : Dev nD) : S2x8192x1024.Idx → EReal := (R0.dat0 (V1 m ρ) c).arrAt 2 cfg0.N

/-- The first region's two operand arrays at its entry, and the second region's four input arrays at its entry. -/
abbrev stackX (c : Dev nD) : S2x8192x1024.Idx → EReal := V1 m ρ c main_v7
abbrev stackW (c : Dev nD) : S2x1024x1024.Idx → EReal := V1 m ρ c main_v10
abbrev kproj (c : Dev nD) : S8x1024x1024.Idx → EReal := V3 m ρ c main_v14
abbrev vproj (c : Dev nD) : S8x1024x1024.Idx → EReal := V3 m ρ c main_v17
abbrev qweights (c : Dev nD) : S1024x1024.Idx → EReal := V3 m ρ c main_v0
abbrev query (c : Dev nD) : S8x1024x1024.Idx → EReal := V3 m ρ c main_arg0

/-- Row r of batch b among the 8 × 1024 rows laid end to end. -/
abbrev flatRow (b : Fin 8) (r : Fin 1024) : Fin 8192 := ⟨b.val * 1024 + r.val, by have := b.isLt; have := r.isLt; omega⟩

/-! ## The first host stretch: the two operand arrays of the first region -/

/-- The stacked activations: each of the two batched arrays with its rows laid end to end, one plane each. -/
theorem V1_v7_eq (c : Dev nD) : stackX m ρ c
    = concatenate S2x8192x1024 0
        [⟨S1x8192x1024, broadcastInDim S1x8192x1024 ![1, 2] bcast_S8192x1024_S1x8192x1024_1_2
            (shapeCast S8192x1024 (arg1 m c) shapeCasts_S8x1024x1024_S8192x1024)⟩,
         ⟨S1x8192x1024, broadcastInDim S1x8192x1024 ![1, 2] bcast_S8192x1024_S1x8192x1024_1_2
            (shapeCast S8192x1024 (arg2 m c) shapeCasts_S8x1024x1024_S8192x1024)⟩]
        concatenates_S1x8192x1024_S1x8192x1024_S2x8192x1024_d0 := by
  dsimp only [stackX, stackW, V1, W1, W0, hostOps0]
  after_results
  rfl

/-- One plane of a stack of two, read at an index of the plane: a unit leading axis over the rows laid end to end. -/
theorem plane_rows_apply (x : S8x1024x1024.Idx → EReal) (b : Fin 8) (r d : Fin 1024) :
    broadcastInDim S1x8192x1024 ![1, 2] bcast_S8192x1024_S1x8192x1024_1_2
        (shapeCast S8192x1024 x shapeCasts_S8x1024x1024_S8192x1024) (ix3 (0 : Fin 1) (flatRow b r) d)
      = x (ix3 b r d) := by
  refine (broadcastInDim_apply ![1, 2] bcast_S8192x1024_S1x8192x1024_1_2 _ (ix3 (0 : Fin 1) (flatRow b r) d) (ix2 (flatRow b r) d) ?_).trans ?_
  · intro a
    match a with
    | ⟨0, _⟩ => rfl
    | ⟨1, _⟩ => rfl
  refine shapeCast_apply x shapeCasts_S8x1024x1024_S8192x1024 (ix2 (flatRow b r) d) (ix3 b r d) ?_
  rw [Shape.rowMajor_val_three, Shape.rowMajor_val_two]
  rfl

theorem v7_plane0 (c : Dev nD) (b : Fin 8) (r d : Fin 1024) :
    stackX m ρ c (ix3 (0 : Fin 2) (flatRow b r) d) = arg1 m c (ix3 b r d) := by
  rw [V1_v7_eq]
  refine (concatenate_pair_apply_left 0 _ _ concatenates_S1x8192x1024_S1x8192x1024_S2x8192x1024_d0
    (ix3 (0 : Fin 2) (flatRow b r) d) rfl (ix3 (0 : Fin 1) (flatRow b r) d) ?_).trans (plane_rows_apply (arg1 m c) b r d)
  intro a
  match a with
  | ⟨0, _⟩ => rfl
  | ⟨1, _⟩ => rfl
  | ⟨2, _⟩ => rfl

theorem v7_plane1 (c : Dev nD) (b : Fin 8) (r d : Fin 1024) :
    stackX m ρ c (ix3 (1 : Fin 2) (flatRow b r) d) = arg2 m c (ix3 b r d) := by
  rw [V1_v7_eq]
  refine (concatenate_pair_apply_right 0 _ _ concatenates_S1x8192x1024_S1x8192x1024_S2x8192x1024_d0
    (ix3 (1 : Fin 2) (flatRow b r) d) rfl rfl (ix3 (0 : Fin 1) (flatRow b r) d) ?_ rfl).trans (plane_rows_apply (arg2 m c) b r d)
  intro a ha
  match a with
  | ⟨0, _⟩ => exact absurd rfl ha
  | ⟨1, _⟩ => rfl
  | ⟨2, _⟩ => rfl

/-- The stacked weights: each of the two weight matrices, rounded to the narrower format, one plane each. -/
theorem V1_v10_eq (c : Dev nD) : stackW m ρ c
    = concatenate S2x1024x1024 0
        [⟨S1x1024x1024, broadcastInDim S1x1024x1024 ![1, 2] bcast_S1024x1024_S1x1024x1024_1_2
            (truncf (F := Ideal) .bf16 (arg4 m c : FVec Ideal S1024x1024 .f32) bitsLt_bf16_f32)⟩,
         ⟨S1x1024x1024, broadcastInDim S1x1024x1024 ![1, 2] bcast_S1024x1024_S1x1024x1024_1_2
            (truncf (F := Ideal) .bf16 (arg5 m c : FVec Ideal S1024x1024 .f32) bitsLt_bf16_f32)⟩]
        concatenates_S1x1024x1024_S1x1024x1024_S2x1024x1024_d0 := by
  dsimp only [stackX, stackW, V1, W1, W0, hostOps0]
  after_results

/-- One plane of the stacked weights at an index of the plane: at the ideal values the rounding is the identity. -/
theorem plane_weights_apply (x : FVec Ideal S1024x1024 .f32) (d e : Fin 1024) :
    broadcastInDim S1x1024x1024 ![1, 2] bcast_S1024x1024_S1x1024x1024_1_2
        (truncf (F := Ideal) .bf16 x bitsLt_bf16_f32) (ix3 (0 : Fin 1) d e)
      = x (ix2 d e) := by
  refine (broadcastInDim_apply ![1, 2] bcast_S1024x1024_S1x1024x1024_1_2 _ (ix3 (0 : Fin 1) d e) (ix2 d e) ?_).trans ?_
  · intro a
    match a with
    | ⟨0, _⟩ => rfl
    | ⟨1, _⟩ => rfl
  exact truncf_apply (φ := .f32) (ψ := .bf16) x bitsLt_bf16_f32 (ix2 d e)

theorem v10_plane0 (c : Dev nD) (d e : Fin 1024) :
    stackW m ρ c (ix3 (0 : Fin 2) d e) = arg4 m c (ix2 d e) := by
  rw [V1_v10_eq]
  refine (concatenate_pair_apply_left 0 _ _ concatenates_S1x1024x1024_S1x1024x1024_S2x1024x1024_d0
    (ix3 (0 : Fin 2) d e) rfl (ix3 (0 : Fin 1) d e) ?_).trans (plane_weights_apply (arg4 m c) d e)
  intro a
  match a with
  | ⟨0, _⟩ => rfl
  | ⟨1, _⟩ => rfl
  | ⟨2, _⟩ => rfl

theorem v10_plane1 (c : Dev nD) (d e : Fin 1024) :
    stackW m ρ c (ix3 (1 : Fin 2) d e) = arg5 m c (ix2 d e) := by
  rw [V1_v10_eq]
  refine (concatenate_pair_apply_right 0 _ _ concatenates_S1x1024x1024_S1x1024x1024_S2x1024x1024_d0
    (ix3 (1 : Fin 2) d e) rfl rfl (ix3 (0 : Fin 1) d e) ?_ rfl).trans (plane_weights_apply (arg5 m c) d e)
  intro a ha
  match a with
  | ⟨0, _⟩ => exact absurd rfl ha
  | ⟨1, _⟩ => rfl
  | ⟨2, _⟩ => rfl

/-! ## The second host stretch: the second region's projected operands -/

/-- The first region's result array at its exit. -/
theorem W2_v11 (c : Dev nD) : (W2 m ρ c (Proc.devRef .tc main_v11) : S2x8192x1024.Idx → EReal) = out0 m ρ c :=
  W2_arr m ρ c 2

/-- Plane g of a stack of two, cut out and its rows regrouped into 8 batches of 1024. -/
theorem V3_v14_eq (c : Dev nD) : kproj m ρ c
    = shapeCast S8x1024x1024 (shapeCast S8192x1024
        (extractStridedSlice S1x8192x1024 ![0, 0, 0] (out0 m ρ c) slices_S2x8192x1024_S1x8192x1024_0_0_0)
        shapeCasts_S1x8192x1024_S8192x1024) shapeCasts_S8192x1024_S8x1024x1024 := by
  rw [← W2_v11]
  dsimp only [kproj, vproj, qweights, query, V3, W3, hostOps1]
  after_results
  rfl

theorem V3_v17_eq (c : Dev nD) : vproj m ρ c
    = shapeCast S8x1024x1024 (shapeCast S8192x1024
        (extractStridedSlice S1x8192x1024 ![1, 0, 0] (out0 m ρ c) slices_S2x8192x1024_S1x8192x1024_1_0_0)
        shapeCasts_S1x8192x1024_S8192x1024) shapeCasts_S8192x1024_S8x1024x1024 := by
  rw [← W2_v11]
  dsimp only [kproj, vproj, qweights, query, V3, W3, hostOps1]
  after_results
  rfl

/-- The rows of one plane regrouped into batches, read at batch b, row r, column e. -/
theorem regroup_apply (x : S1x8192x1024.Idx → EReal) (b : Fin 8) (r e : Fin 1024) :
    shapeCast S8x1024x1024 (shapeCast S8192x1024 x shapeCasts_S1x8192x1024_S8192x1024) shapeCasts_S8192x1024_S8x1024x1024 (ix3 b r e)
      = x (ix3 (0 : Fin 1) (flatRow b r) e) := by
  refine (shapeCast_apply _ shapeCasts_S8192x1024_S8x1024x1024 (ix3 b r e) (ix2 (flatRow b r) e) ?_).trans ?_
  · rw [Shape.rowMajor_val_three, Shape.rowMajor_val_two]
    rfl
  refine shapeCast_apply x shapeCasts_S1x8192x1024_S8192x1024 (ix2 (flatRow b r) e) (ix3 (0 : Fin 1) (flatRow b r) e) ?_
  rw [Shape.rowMajor_val_three, Shape.rowMajor_val_two]
  show (0 * 8192 + (b.val * 1024 + r.val)) * 1024 + e.val = (b.val * 1024 + r.val) * 1024 + e.val
  omega

/-- Plane 0, resp. 1, of a stack of two read at an index of the plane. -/
theorem slice_plane0 (x : S2x8192x1024.Idx → EReal) (R : Fin 8192) (e : Fin 1024) :
    extractStridedSlice S1x8192x1024 ![0, 0, 0] x slices_S2x8192x1024_S1x8192x1024_0_0_0 (ix3 (0 : Fin 1) R e) = x (ix3 (0 : Fin 2) R e) :=
  extractStridedSlice_apply (s := S2x8192x1024) (t := S1x8192x1024) ![0, 0, 0] x slices_S2x8192x1024_S1x8192x1024_0_0_0
    (ix3 (0 : Fin 1) R e) (ix3 (0 : Fin 2) R e) (fun a => by
      match a with
      | ⟨0, _⟩ => rfl
      | ⟨1, _⟩ => exact (Nat.zero_add _).symm
      | ⟨2, _⟩ => exact (Nat.zero_add _).symm)
theorem slice_plane1 (x : S2x8192x1024.Idx → EReal) (R : Fin 8192) (e : Fin 1024) :
    extractStridedSlice S1x8192x1024 ![1, 0, 0] x slices_S2x8192x1024_S1x8192x1024_1_0_0 (ix3 (0 : Fin 1) R e) = x (ix3 (1 : Fin 2) R e) :=
  extractStridedSlice_apply (s := S2x8192x1024) (t := S1x8192x1024) ![1, 0, 0] x slices_S2x8192x1024_S1x8192x1024_1_0_0
    (ix3 (0 : Fin 1) R e) (ix3 (1 : Fin 2) R e) (fun a => by
      match a with
      | ⟨0, _⟩ => rfl
      | ⟨1, _⟩ => exact (Nat.zero_add _).symm
      | ⟨2, _⟩ => exact (Nat.zero_add _).symm)

theorem v14_apply (c : Dev nD) (b : Fin 8) (r e : Fin 1024) :
    kproj m ρ c (ix3 b r e) = out0 m ρ c (ix3 (0 : Fin 2) (flatRow b r) e) := by
  rw [V3_v14_eq]
  exact (regroup_apply _ b r e).trans (slice_plane0 (out0 m ρ c) (flatRow b r) e)

theorem v17_apply (c : Dev nD) (b : Fin 8) (r e : Fin 1024) :
    vproj m ρ c (ix3 b r e) = out0 m ρ c (ix3 (1 : Fin 2) (flatRow b r) e) := by
  rw [V3_v17_eq]
  exact (regroup_apply _ b r e).trans (slice_plane1 (out0 m ρ c) (flatRow b r) e)

/-! ## The two projections the second region reads -/

/-- The first region's result at plane g: the matrix product of the stacked operands' planes. -/
theorem out0_apply (c : Dev nD) (g : Fin 2) (R : Fin 8192) (e : Fin 1024) :
    out0 m ρ c (ix3 g R e) = ∑ d : Fin 1024, stackX m ρ c (ix3 g R d)
      * stackW m ρ c (ix3 g d e) :=
  (R0.proj_final_apply (V1 m ρ) c (ix3 g R e)).trans (R0.projG_apply _ _ _)

/-- The key projection: batch b, row r, column e is row r of batch b of the key array against column e of
    the key weights. -/
theorem kproj_eq (c : Dev nD) (b : Fin 8) (r e : Fin 1024) :
    kproj m ρ c (ix3 b r e) = ∑ d : Fin 1024, arg1 m c (ix3 b r d) * arg4 m c (ix2 d e) := by
  rw [v14_apply, out0_apply]
  refine Finset.sum_congr rfl fun d _ => ?_
  rw [v7_plane0, v10_plane0]

/-- The value projection, likewise, of the value array against the value weights. -/
theorem vproj_eq (c : Dev nD) (b : Fin 8) (r e : Fin 1024) :
    vproj m ρ c (ix3 b r e) = ∑ d : Fin 1024, arg2 m c (ix3 b r d) * arg5 m c (ix2 d e) := by
  rw [v17_apply, out0_apply]
  refine Finset.sum_congr rfl fun d _ => ?_
  rw [v7_plane1, v10_plane1]

/-! ## The second region's other two inputs -/

/-- The query weights, rounded: at the ideal values, themselves. -/
theorem V3_v0_eq (c : Dev nD) : qweights m ρ c = arg3 m c := by
  have h1 : qweights m ρ c = (W2 m ρ c (Proc.devRef .tc main_v0) : S1024x1024.Idx → EReal) := by
    dsimp only [kproj, vproj, qweights, query, V3, W3, hostOps1]
    after_results
  have h2 : (W2 m ρ c (Proc.devRef .tc main_v0) : S1024x1024.Idx → EReal) = W1 m ρ c (Proc.devRef .tc main_v0) :=
    W2_of_ne m ρ c main_v0 (by decide)
  have h3 : (W1 m ρ c (Proc.devRef .tc main_v0) : S1024x1024.Idx → EReal)
      = truncf (F := Ideal) .bf16 (arg3 m c : FVec Ideal S1024x1024 .f32) bitsLt_bf16_f32 := by
    dsimp only [W1, W0, hostOps0]
    after_results
  rw [h1, h2, h3]
  rfl

/-- The query array reaches the second region as launched. -/
theorem V3_arg0_eq (c : Dev nD) : query m ρ c = arg0 m c := by
  have h1 : query m ρ c = W2 m ρ c (Proc.devRef .tc main_arg0) := by
    dsimp only [kproj, vproj, qweights, query, V3, W3, hostOps1]
    after_results
  have h2 : (W2 m ρ c (Proc.devRef .tc main_arg0) : S8x1024x1024.Idx → EReal) = W1 m ρ c (Proc.devRef .tc main_arg0) :=
    W2_of_ne m ρ c main_arg0 (by decide)
  have h3 : (W1 m ρ c (Proc.devRef .tc main_arg0) : S8x1024x1024.Idx → EReal) = arg0 m c := by
    dsimp only [W1, W0, hostOps0]
    after_results
  rw [h1, h2, h3]

end Cert.KernelIdeal.Run

end
-- ==== Proof.RefAttention.lean ====
/-
  The reference computation read as mathematics. Over six argument arrays — three inputs of shape 8 × 1024 × 1024 and
  three weight matrices of shape 1024 × 1024 — the reference's result at (b, r, f) is causal softmax attention:
  the inputs are projected by the weights, the score of query row r against key row c is the inner product of the
  projected rows times 1/32 (the reciprocal of the square root of 1024), scores above the diagonal (c > r) get minus
  infinity added, each row is shifted by its maximum, exponentiated, divided by the row's sum of exponentials, and
  contracted against the projected values. All statements are over the extended reals.
-/
import proofs.«141642_j28802050687501_2_alg».proof.Proof.Gen.ReferenceIdeal.Read
import Idealize.ShloMosaic.Lib.ValueIdx
import Idealize.ShloMosaic.Lib.Pipeline.Value
import Idealize.ShloMosaic.Lib.WordArith
import Idealize.ShloMosaic.PureOps.Ideal.Laws

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- One projected row entry: the input row (b, r) against column e of the weight. -/
def proj (x : S8x1024x1024.Idx → EReal) (w : S1024x1024.Idx → EReal) (b : Fin 8) (r e : Fin 1024) : EReal :=
  ∑ d : Fin 1024, x (ix3 b r d) * w (ix2 d e)

theorem proj_eq0 (x0 : S8x1024x1024.Idx → EReal) (x3 : S1024x1024.Idx → EReal) (b : Fin 8) (r e : Fin 1024) :
    val_main_v0 (F := Ideal) x0 x3 (ix3 b r e) = proj x0 x3 b r e := by
  rw [val_main_v0_apply]
  unfold proj
  refine Finset.sum_congr rfl fun k _ => ?_
  have el : lidx_main_v0 (ix3 b r e) k = ix3 b r k := funext fun a => by
    match a with | ⟨0, _⟩ => rfl | ⟨1, _⟩ => rfl | ⟨2, _⟩ => rfl
  have er : ridx_main_v0 (ix3 b r e) k = ix2 k e := funext fun a => by
    match a with | ⟨0, _⟩ => rfl | ⟨1, _⟩ => rfl
  rw [el, er]

/-- The word of the float 1. -/
theorem one_word : Ideal.ofBits .f32 0x3F800000#32 = ((1 : ℝ) : EReal) := by
  simp [Ideal.ofBits, Ideal.ieee]
  rw [← EReal.coe_mul]; norm_num

/-- The word of the float 1024. -/
theorem k1024_word : Ideal.ofBits .f32 0x44800000#32 = ((1024 : ℝ) : EReal) := by
  simp [Ideal.ofBits, Ideal.ieee]
  rw [← EReal.coe_mul]; norm_num

/-- The word of minus infinity. -/
theorem ninf_word : Ideal.ofBits .f32 0xFF800000#32 = (⊥ : EReal) := by
  simp [Ideal.ofBits, Ideal.ieee]

/-- The scale 1 / sqrt 1024 is 1/32. -/
theorem scale_eq (i : S_.Idx) : val_main_v4 (F := Ideal) i = (((1 / 32 : ℝ)) : EReal) := by
  rw [val_main_v4_apply, val_main_v3_apply, val_main_cst_apply, val_main_cst_0_apply]
  simp only [Ideal.ofBits_def, Ideal.hostUnary_sqrt_def, Ideal.hostDivf_def, one_word, k1024_word]
  have h32 : Real.sqrt 1024 = 32 := by
    rw [show (1024 : ℝ) = 32 ^ 2 by norm_num]
    exact Real.sqrt_sq (by norm_num)
  rw [Ideal.sqrt_coe, if_neg (by norm_num), h32, Ideal.div_coe (by norm_num), EReal.coe_one, one_mul]

/-- On coordinates below 1024 the signed word comparison `r + 0 ≥ c` is the comparison of the natural numbers. -/
theorem ge_word (r c : Nat) (hr : r < 1024) (hc : c < 1024) :
    IntOp.cmpi .sge (IntOp.addi (BitVec.ofNat 32 r) 0#32) (BitVec.ofNat 32 c) = if c ≤ r then 1#1 else 0#1 := by
  have h0 : IntOp.addi (BitVec.ofNat 32 r) 0#32 = BitVec.ofNat 32 r := by simp [IntOp.addi]
  rw [h0]
  unfold IntOp.cmpi
  simp only
  by_cases h : c ≤ r
  · rw [if_pos h]
    have hs : (BitVec.ofNat 32 c).sle (BitVec.ofNat 32 r) = true := by
      rw [BitVec.sle_iff_toInt_le, WordArith.toInt_ofNat_small c (by omega), WordArith.toInt_ofNat_small r (by omega)]
      exact_mod_cast h
    rw [hs]; rfl
  · rw [if_neg h]
    have hs : (BitVec.ofNat 32 c).sle (BitVec.ofNat 32 r) = false := by
      rw [Bool.eq_false_iff, Ne, BitVec.sle_iff_toInt_le, WordArith.toInt_ofNat_small c (by omega), WordArith.toInt_ofNat_small r (by omega)]
      exact_mod_cast h
    rw [hs]; rfl

/-- The causal mask: zero on and below the diagonal, minus infinity above it. -/
theorem mask_eq (r c : Fin 1024) :
    val_main_v9 (F := Ideal) (ix2 r c) = if c.val ≤ r.val then (0 : EReal) else ⊥ := by
  rw [val_main_v9_apply, val_main_call0_v4_apply, val_main_call0_v2_apply, val_main_call0_v0_apply, val_main_call0_v3_apply,
    val_main_call0_v1_apply, val_main_call0_c_apply, val_main_call0_v5_apply, val_main_call0_cst_apply, val_main_v8_apply, val_main_cst_1_apply]
  simp only [Ideal.ofBits_def, Ideal.ofBits_zero_f32, ninf_word]
  show Scalar.select (IntOp.cmpi .sge (IntOp.addi (BitVec.ofNat 32 r.val) 0#32) (BitVec.ofNat 32 c.val)) (0 : EReal) ⊥ = _
  rw [ge_word r.val c.val r.isLt c.isLt]
  by_cases h : c.val ≤ r.val
  · rw [if_pos h, if_pos h]; exact select_one _ _
  · rw [if_neg h, if_neg h]; exact select_zero _ _

theorem proj_eq1 (x1 : S8x1024x1024.Idx → EReal) (x4 : S1024x1024.Idx → EReal) (b : Fin 8) (r e : Fin 1024) :
    val_main_v1 (F := Ideal) x1 x4 (ix3 b r e) = proj x1 x4 b r e := by
  rw [val_main_v1_apply]
  unfold proj
  refine Finset.sum_congr rfl fun k _ => ?_
  have el : lidx_main_v1 (ix3 b r e) k = ix3 b r k := funext fun a => by
    match a with | ⟨0, _⟩ => rfl | ⟨1, _⟩ => rfl | ⟨2, _⟩ => rfl
  have er : ridx_main_v1 (ix3 b r e) k = ix2 k e := funext fun a => by
    match a with | ⟨0, _⟩ => rfl | ⟨1, _⟩ => rfl
  rw [el, er]

theorem proj_eq2 (x2 : S8x1024x1024.Idx → EReal) (x5 : S1024x1024.Idx → EReal) (b : Fin 8) (r e : Fin 1024) :
    val_main_v2 (F := Ideal) x2 x5 (ix3 b r e) = proj x2 x5 b r e := by
  rw [val_main_v2_apply]
  unfold proj
  refine Finset.sum_congr rfl fun k _ => ?_
  have el : lidx_main_v2 (ix3 b r e) k = ix3 b r k := funext fun a => by
    match a with | ⟨0, _⟩ => rfl | ⟨1, _⟩ => rfl | ⟨2, _⟩ => rfl
  have er : ridx_main_v2 (ix3 b r e) k = ix2 k e := funext fun a => by
    match a with | ⟨0, _⟩ => rfl | ⟨1, _⟩ => rfl
  rw [el, er]

/-- The scaled score of query row r against key row c in batch b. -/
def score (x0 x1 : S8x1024x1024.Idx → EReal) (x3 x4 : S1024x1024.Idx → EReal) (b : Fin 8) (r c : Fin 1024) : EReal :=
  (∑ e : Fin 1024, proj x0 x3 b r e * proj x1 x4 b c e) * (((1 / 32 : ℝ)) : EReal)

theorem score_eq (x0 x1 : S8x1024x1024.Idx → EReal) (x3 x4 : S1024x1024.Idx → EReal) (b : Fin 8) (r c : Fin 1024) :
    val_main_v7 (F := Ideal) x0 x1 x3 x4 (ix3 b r c) = score x0 x1 x3 x4 b r c := by
  rw [val_main_v7_apply, val_main_v5_apply, val_main_v6_apply, scale_eq, Ideal.mulf_def]
  unfold score
  refine congrArg (· * _) (Finset.sum_congr rfl fun k _ => ?_)
  have el : lidx_main_v5 (ix3 b r c) k = ix3 b r k := funext fun a => by
    match a with | ⟨0, _⟩ => rfl | ⟨1, _⟩ => rfl | ⟨2, _⟩ => rfl
  have er : ridx_main_v5 (ix3 b r c) k = ix3 b c k := funext fun a => by
    match a with | ⟨0, _⟩ => rfl | ⟨1, _⟩ => rfl | ⟨2, _⟩ => rfl
  rw [el, er, proj_eq0, proj_eq1]

/-- The score with the causal mask added. -/
def masked (x0 x1 : S8x1024x1024.Idx → EReal) (x3 x4 : S1024x1024.Idx → EReal) (b : Fin 8) (r c : Fin 1024) : EReal :=
  score x0 x1 x3 x4 b r c + (if c.val ≤ r.val then (0 : EReal) else ⊥)

theorem masked_eq (x0 x1 : S8x1024x1024.Idx → EReal) (x3 x4 : S1024x1024.Idx → EReal) (b : Fin 8) (r c : Fin 1024) :
    val_main_v12 (F := Ideal) x0 x1 x3 x4 (ix3 b r c) = masked x0 x1 x3 x4 b r c := by
  rw [val_main_v12_apply, val_main_v11_apply, val_main_v10_apply, score_eq, Ideal.addf_def]
  have e : idx_main_v10 (idx_main_v11 (ix3 b r c)) = ix2 r c := funext fun a => by
    match a with | ⟨0, _⟩ => rfl | ⟨1, _⟩ => rfl
  rw [e, mask_eq]
  rfl

/-- The largest masked score of a row. -/
def rowmax (x0 x1 : S8x1024x1024.Idx → EReal) (x3 x4 : S1024x1024.Idx → EReal) (b : Fin 8) (r : Fin 1024) : EReal :=
  Finset.univ.sup (fun c : Fin 1024 => masked x0 x1 x3 x4 b r c)

/-- A maximum taken along the last axis from minus infinity is the supremum over that axis. -/
theorem reduce_max_eq (y : S8x1024x1024.Idx → EReal) (b : Fin 8) (r : Fin 1024) :
    Host.reduce (FloatOps.maximumf (F := Ideal) (φ := .f32)) y (val_main_cst_2 (F := Ideal)) reducesTo_S8x1024x1024_S8x1024_d2 h_S_ (ix2 b r)
      = Finset.univ.sup (fun c : Fin 1024 => y (ix3 b r c)) := by
  have h : S8x1024x1024.Reduces [2] S8x1024 := by decide
  refine (Host.reduce_eq_fold_single (FloatOps.maximumf (F := Ideal) (φ := .f32)) y _ reducesTo_S8x1024x1024_S8x1024_d2 h h_S_ (ix2 b r)).trans ?_
  have hf : (y ∘ h.lift (ix2 b r)) = fun c : Fin 1024 => y (ix3 b r c) := funext fun k => congrArg y (funext fun a => Fin.ext (by
    match a with | ⟨0, _⟩ => rfl | ⟨1, _⟩ => rfl | ⟨2, _⟩ => rfl))
  rw [hf]
  show (Finset.univ : Finset (Fin 1024)).fold max (Ideal.ofBits .f32 0xFF800000#32) (fun c : Fin 1024 => y (ix3 b r c)) = _
  rw [ninf_word]
  rfl

theorem rowmax_eq (x0 x1 : S8x1024x1024.Idx → EReal) (x3 x4 : S1024x1024.Idx → EReal) (b : Fin 8) (r : Fin 1024) :
    val_main_v15 (F := Ideal) x0 x1 x3 x4 (ix2 b r) = rowmax x0 x1 x3 x4 b r := by
  rw [val_main_v15_apply, val_main_v14_apply, val_main_cst_3_apply]
  unfold val_main_v13
  rw [reduce_max_eq]
  simp only [Ideal.ofBits_def, ninf_word, Ideal.maximumf_def]
  rw [max_bot_left]
  unfold rowmax
  exact congrArg (Finset.univ.sup) (funext fun c => masked_eq x0 x1 x3 x4 b r c)

theorem expo_eq (x0 x1 : S8x1024x1024.Idx → EReal) (x3 x4 : S1024x1024.Idx → EReal) (b : Fin 8) (r c : Fin 1024) :
    val_main_v19 (F := Ideal) x0 x1 x3 x4 (ix3 b r c) = Ideal.exp (masked x0 x1 x3 x4 b r c - rowmax x0 x1 x3 x4 b r) := by
  rw [val_main_v19_apply, val_main_v18_apply, val_main_v17_apply, val_main_v16_apply, masked_eq]
  have e : idx_main_v16 (idx_main_v17 (ix3 b r c)) = ix2 b r := funext fun a => by
    match a with | ⟨0, _⟩ => rfl | ⟨1, _⟩ => rfl
  rw [e, rowmax_eq]
  rfl

theorem denom_eq (x0 x1 : S8x1024x1024.Idx → EReal) (x3 x4 : S1024x1024.Idx → EReal) (b : Fin 8) (r : Fin 1024) :
    val_main_v20 (F := Ideal) x0 x1 x3 x4 (ix2 b r) = (0 + ∑ c' : Fin 1024, Ideal.exp (masked x0 x1 x3 x4 b r c' - rowmax x0 x1 x3 x4 b r)) := by
  rw [val_main_v20_apply, val_main_cst_4_apply]
  simp only [Ideal.ofBits_def, Ideal.ofBits_zero_f32]
  refine congrArg (0 + ·) (Finset.sum_congr rfl fun k _ => ?_)
  have e : idx_main_v20 (ix2 b r) k = ix3 b r k := funext fun a => by
    match a with | ⟨0, _⟩ => rfl | ⟨1, _⟩ => rfl | ⟨2, _⟩ => rfl
  rw [e, expo_eq]

theorem weight_eq (x0 x1 : S8x1024x1024.Idx → EReal) (x3 x4 : S1024x1024.Idx → EReal) (b : Fin 8) (r c : Fin 1024) :
    val_main_v23 (F := Ideal) x0 x1 x3 x4 (ix3 b r c) = Ideal.div (Ideal.exp (masked x0 x1 x3 x4 b r c - rowmax x0 x1 x3 x4 b r)) (0 + ∑ c' : Fin 1024, Ideal.exp (masked x0 x1 x3 x4 b r c' - rowmax x0 x1 x3 x4 b r)) := by
  rw [val_main_v23_apply, val_main_v22_apply, val_main_v21_apply, expo_eq]
  have e : idx_main_v21 (idx_main_v22 (ix3 b r c)) = ix2 b r := funext fun a => by
    match a with | ⟨0, _⟩ => rfl | ⟨1, _⟩ => rfl
  rw [e, denom_eq]
  rfl

/-- Causal softmax attention at batch b, query row r, output feature f: the softmax weights of row r against the
    projected values. The sum in the denominator keeps its initial value 0; the final contraction has none. -/
def attnAt (x0 x1 x2 : S8x1024x1024.Idx → EReal) (x3 x4 x5 : S1024x1024.Idx → EReal) (b : Fin 8) (r f : Fin 1024) : EReal :=
  ∑ c : Fin 1024, Ideal.div (Ideal.exp (masked x0 x1 x3 x4 b r c - rowmax x0 x1 x3 x4 b r)) (0 + ∑ c' : Fin 1024, Ideal.exp (masked x0 x1 x3 x4 b r c' - rowmax x0 x1 x3 x4 b r)) * proj x2 x5 b c f

theorem attnAt_eq (x0 x1 x2 : S8x1024x1024.Idx → EReal) (x3 x4 x5 : S1024x1024.Idx → EReal) (b : Fin 8) (r f : Fin 1024) :
    val_main_v24 (F := Ideal) x0 x1 x2 x3 x4 x5 (ix3 b r f) = attnAt x0 x1 x2 x3 x4 x5 b r f := by
  rw [val_main_v24_apply]
  unfold attnAt
  refine Finset.sum_congr rfl fun k _ => ?_
  have el : lidx_main_v24 (ix3 b r f) k = ix3 b r k := funext fun a => by
    match a with | ⟨0, _⟩ => rfl | ⟨1, _⟩ => rfl | ⟨2, _⟩ => rfl
  have er : ridx_main_v24 (ix3 b r f) k = ix3 b k f := funext fun a => by
    match a with | ⟨0, _⟩ => rfl | ⟨1, _⟩ => rfl | ⟨2, _⟩ => rfl
  rw [el, er, weight_eq, proj_eq2]

/-- Causal softmax attention as a function of the six argument arrays. -/
def attn (x0 x1 x2 : S8x1024x1024.Idx → EReal) (x3 x4 x5 : S1024x1024.Idx → EReal) : S8x1024x1024.Idx → EReal := fun i =>
  attnAt x0 x1 x2 x3 x4 x5 ⟨(i 0).val, (i 0).isLt⟩ ⟨(i 1).val, (i 1).isLt⟩ ⟨(i 2).val, (i 2).isLt⟩

/-- The reference's result is causal softmax attention. -/
theorem ref_eq (x0 x1 x2 : S8x1024x1024.Idx → EReal) (x3 x4 x5 : S1024x1024.Idx → EReal) :
    Cert.ReferenceIdeal.Read.val_main_v24 (F := Ideal) x0 x1 x2 x3 x4 x5 = attn x0 x1 x2 x3 x4 x5 := by
  funext i
  obtain ⟨b, r, f, rfl⟩ : ∃ (b : Fin 8) (r f : Fin 1024), i = ix3 b r f := ⟨i 0, i 1, i 2, eq_ix3 i⟩
  rw [attnAt_eq]
  rfl

end Cert.RefValue

end
-- ==== Proof.FiniteInputs.lean ====
import proofs.«141642_j28802050687501_2_alg».proof.Defs
import Idealize.ShloMosaic.Lib.ReduceAll

/-!
# The precondition says every argument entry is a real

The precondition is a conjunction of six statements `all (|x| < +∞)`, one per argument
array, at the extended reals.  An extended real whose absolute value `max x (-x)` is below
`⊤` is neither `⊤` nor `⊥`; a conjunction that is 1 has every conjunct 1; a reduction by
`and` over all axes that is 1 had a 1 at every index.
-/

noncomputable section

namespace Cert.FiniteInputs

open Idealize.ShloMosaic
open Cert.Pre_finite_inputs

/-- The scalar shape has one index. -/
instance : Subsingleton S_.Idx := ⟨fun a b => funext fun d => d.elim0⟩

/-- The pattern `0x7F800000` denotes `+∞`. -/
theorem inf_eq_top : Ideal.ofBits .f32 0x7F800000#32 = (⊤ : EReal) := by
  simp [Ideal.ofBits, Ideal.ieee]

/-- An extended real whose absolute value is below `+∞` is a real. -/
theorem finite_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have h' : Ideal.cmp .olt (max x (-x)) (Ideal.ofBits .f32 0x7F800000#32) = 1#1 := h
  rw [inf_eq_top] at h'
  have hlt : max x (-x) < ⊤ := by
    by_contra hn
    have h0 : Ideal.cmp .olt (max x (-x)) ⊤ = 0#1 := by simp [Ideal.cmp, hn]
    rw [h0] at h'
    exact absurd h' (by decide)
  induction x using EReal.rec with
  | bot => simp at hlt
  | coe r => exact ⟨EReal.coe_ne_top r, EReal.coe_ne_bot r⟩
  | top => simp at hlt

/-- One array: if `all (|x| < +∞)` is 1 then every entry of `x` is a real. -/
theorem finite_of_all {s : Shape} {axes : List (Fin s.rank)} (x : FVec Ideal s .f32)
    (hb : S_.BroadcastsInDim s (![] : Fin 0 → Fin s.rank)) (hr : s.ReducesTo axes S_)
    (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) :
    ∀ i, x i ≠ ⊤ ∧ x i ≠ ⊥ := by
  intro i
  have hi := Host.reduce_andi_all _ _ hr hu j e i
  exact finite_of_abs_lt (x i) hi

/-- Under the precondition every entry of the six argument arrays is a real. -/
theorem finite_of_pre [Facts] (x0 x1 x2 : FVec Ideal S8x1024x1024 .f32)
    (x3 x4 x5 : FVec Ideal S1024x1024 .f32)
    (h : fn (F := Ideal) x0 x1 x2 x3 x4 x5 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ (∀ i, x4 i ≠ ⊤ ∧ x4 i ≠ ⊥) ∧ (∀ i, x5 i ≠ ⊤ ∧ x5 i ≠ ⊥) := by
  have h0 := congrFun h (fun a => a.elim0)
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨finite_of_all x0 _ _ _ _ e0, finite_of_all x1 _ _ _ _ e1, finite_of_all x2 _ _ _ _ e2,
    finite_of_all x3 _ _ _ _ e3, finite_of_all x4 _ _ _ _ e4, finite_of_all x5 _ _ _ _ e5⟩

end Cert.FiniteInputs
-- ==== Proof.Region1Pieces.lean ====
/- The attention region's pieces as terms: what each case of the body leaves in the scratch buffers and in the
   output block, with the whole-buffer loads and stores read through — the projected query tile, the running
   maximum, denominator and numerator after the first key block from their reset values, and the output block as
   the quotient, either of what the point before left or of its one further update. -/
import proofs.«141642_j28802050687501_2_alg».proof.Proof.Region1Body
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Cert.KernelIdeal Cert.KernelIdeal.Gen

section
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## What an even point leaves in the four scratch buffers -/

/-- The projected query tile: the query block times the query weights, rounded. -/
theorem qAfter_eq (c : Dev nD) (t : Fin cfg1.N) (h : t.val % 2 = 0) :
    qAfter V c t h = k1_pay4 (iblk V c 0 t) (iblk V c 1 t) := by
  unfold qAfter
  rw [View.read_writes_eq_canon _ _ _ (cover_first_q V c t h)]
  unfold firstAt runFirst
  dsimp only
  sl_unfold_run_names
  rw [View.canon_unit_zero (S := S512x1024) hz2]
  simp only [View.readAt_eq_ld, Memref.IsWhole.read_unread, View.ld_unit_zero (S := S1x512x1024) hz3, View.ld_unit_zero (S := S1024x1024) hz2, View.ld_unit_zero (S := S512x1024) hz2, View.ld_unit_zero (S := S512x1) hz2, View.readCov_unit_zero (S := S512x1024) (h := hz2), View.readCov_unit_zero (S := S512x1) (h := hz2)]

/-- The running maximum after the first key block, from the reset value. -/
theorem maxAfter_eq (c : Dev nD) (t : Fin cfg1.N) (h : t.val % 2 = 0) :
    maxAfter V c t h = k1_pay6 (k1_pay10 (BitVec.ofNat 32 (grid1.coords t 1).val) (BitVec.ofNat 32 (grid1.coords t 2).val)
      (k1_pay4 (iblk V c 0 t) (iblk V c 1 t)) (iblk V c 2 t) k1_pay1) := by
  unfold maxAfter
  rw [View.read_writes_eq_canon _ _ _ (cover_first_max V c t h)]
  unfold firstAt runFirst
  dsimp only
  sl_unfold_run_names
  rw [View.canon_cons_unit_zero (S := S512x1) hz2]
  simp only [View.readAt_eq_ld, Memref.IsWhole.read_unread, View.ld_unit_zero (S := S1x512x1024) hz3, View.ld_unit_zero (S := S1024x1024) hz2, View.ld_unit_zero (S := S512x1024) hz2, View.ld_unit_zero (S := S512x1) hz2, View.readCov_unit_zero (S := S512x1024) (h := hz2), View.readCov_unit_zero (S := S512x1) (h := hz2)]

/-- The running denominator after the first key block, from the reset values. -/
theorem denAfter_eq (c : Dev nD) (t : Fin cfg1.N) (h : t.val % 2 = 0) :
    denAfter V c t h = k1_pay13 (BitVec.ofNat 32 (grid1.coords t 1).val) (BitVec.ofNat 32 (grid1.coords t 2).val)
      (k1_pay4 (iblk V c 0 t) (iblk V c 1 t)) (iblk V c 2 t) k1_pay1 k1_pay2 := by
  unfold denAfter
  rw [View.read_writes_eq_canon _ _ _ (cover_first_den V c t h)]
  unfold firstAt runFirst
  dsimp only
  sl_unfold_run_names
  rw [View.canon_cons_unit_zero (S := S512x1) hz2]
  simp only [View.readAt_eq_ld, Memref.IsWhole.read_unread, View.ld_unit_zero (S := S1x512x1024) hz3, View.ld_unit_zero (S := S1024x1024) hz2, View.ld_unit_zero (S := S512x1024) hz2, View.ld_unit_zero (S := S512x1) hz2, View.readCov_unit_zero (S := S512x1024) (h := hz2), View.readCov_unit_zero (S := S512x1) (h := hz2)]

/-- The running numerator after the first key block, from the reset values. -/
theorem numAfter_eq (c : Dev nD) (t : Fin cfg1.N) (h : t.val % 2 = 0) :
    numAfter V c t h = k1_pay5 (k1_pay8 (iblk V c 3 t))
      (k1_pay11 (BitVec.ofNat 32 (grid1.coords t 1).val) (BitVec.ofNat 32 (grid1.coords t 2).val) (k1_pay4 (iblk V c 0 t) (iblk V c 1 t)) (iblk V c 2 t) k1_pay1)
      (k1_pay12 (BitVec.ofNat 32 (grid1.coords t 1).val) (BitVec.ofNat 32 (grid1.coords t 2).val) (k1_pay4 (iblk V c 0 t) (iblk V c 1 t)) (iblk V c 2 t) k1_pay1)
      k1_pay3 := by
  unfold numAfter
  rw [View.read_writes_eq_canon _ _ _ (cover_first_num V c t h)]
  unfold firstAt runFirst
  dsimp only
  sl_unfold_run_names
  rw [View.canon_cons_unit_zero (S := S512x1024) hz2]
  simp only [View.readAt_eq_ld, Memref.IsWhole.read_unread, View.ld_unit_zero (S := S1x512x1024) hz3, View.ld_unit_zero (S := S1024x1024) hz2, View.ld_unit_zero (S := S512x1024) hz2, View.ld_unit_zero (S := S512x1) hz2, View.readCov_unit_zero (S := S512x1024) (h := hz2), View.readCov_unit_zero (S := S512x1) (h := hz2)]

/-! ## What an odd point leaves in the output block -/

/-- A scratch buffer read back through its whole view is the contents it was given. -/
theorem read_unread_scMax (h : (scMax : Memref sig .tc .vmem S512x1 .f32).IsWhole) (X : Vec F S512x1 .f32) :
    View.read (Elt F) (View.whole cc1_scratch0) (h.unread X) = X := h.read_unread X
theorem read_unread_scDen (h : (scDen : Memref sig .tc .vmem S512x1 .f32).IsWhole) (X : Vec F S512x1 .f32) :
    View.read (Elt F) (View.whole cc1_scratch1) (h.unread X) = X := h.read_unread X
theorem read_unread_scNum (h : (scNum : Memref sig .tc .vmem S512x1024 .f32).IsWhole) (X : Vec F S512x1024 .f32) :
    View.read (Elt F) (View.whole cc1_scratch2) (h.unread X) = X := h.read_unread X
theorem read_unread_scQ (h : (scQ : Memref sig .tc .vmem S512x1024 .bf16).IsWhole) (X : Vec F S512x1024 .bf16) :
    View.read (Elt F) (View.whole cc1_scratch3) (h.unread X) = X := h.read_unread X

/-- Where the update is skipped: the quotient of what the point before left. -/
theorem outAt_skip_eq (c : Dev nD) (t : Fin cfg1.N) (h : t.val % 4 = 1) :
    outAt V c t = k1_pay7 (numAfter V c (prev t) (by rw [prev_val]; omega)) (denAfter V c (prev t) (by rw [prev_val]; omega)) := by
  rw [outAt_skip V c t h, View.read_writes_eq_canon _ _ _ (cover_skip_out V c t h)]
  unfold skipAt runSkip
  dsimp only
  sl_unfold_run_names
  rw [View.canon_unit_zero (S := S1x512x1024) hz3]
  simp only [View.readAt_eq_ld, Memref.IsWhole.read_unread, View.ld_unit_zero (S := S1x512x1024) hz3, View.ld_unit_zero (S := S1024x1024) hz2, View.ld_unit_zero (S := S512x1024) hz2, View.ld_unit_zero (S := S512x1) hz2, View.readCov_unit_zero (S := S512x1024) (h := hz2), View.readCov_unit_zero (S := S512x1) (h := hz2), read_unread_scMax, read_unread_scDen, read_unread_scNum, read_unread_scQ]

/-- Where the update runs once more: the quotient of the updated numerator and denominator. -/
theorem outAt_last_eq (c : Dev nD) (t : Fin cfg1.N) (h : t.val % 4 = 3) :
    outAt V c t = k1_pay7
      (k1_pay5 (k1_pay8 (iblk V c 3 t))
        (k1_pay11 (BitVec.ofNat 32 (grid1.coords t 1).val) (BitVec.ofNat 32 (grid1.coords t 2).val)
          (qAfter V c (prev t) (by rw [prev_val]; omega)) (iblk V c 2 t) (maxAfter V c (prev t) (by rw [prev_val]; omega)))
        (k1_pay12 (BitVec.ofNat 32 (grid1.coords t 1).val) (BitVec.ofNat 32 (grid1.coords t 2).val)
          (qAfter V c (prev t) (by rw [prev_val]; omega)) (iblk V c 2 t) (maxAfter V c (prev t) (by rw [prev_val]; omega)))
        (numAfter V c (prev t) (by rw [prev_val]; omega)))
      (k1_pay13 (BitVec.ofNat 32 (grid1.coords t 1).val) (BitVec.ofNat 32 (grid1.coords t 2).val)
        (qAfter V c (prev t) (by rw [prev_val]; omega)) (iblk V c 2 t) (maxAfter V c (prev t) (by rw [prev_val]; omega))
        (denAfter V c (prev t) (by rw [prev_val]; omega))) := by
  rw [outAt_last V c t h, View.read_writes_eq_canon _ _ _ (cover_last_out V c t h)]
  unfold lastAt runLast
  dsimp only
  sl_unfold_run_names
  rw [View.canon_unit_zero (S := S1x512x1024) hz3]
  simp only [View.readAt_eq_ld, Memref.IsWhole.read_unread, View.ld_unit_zero (S := S1x512x1024) hz3, View.ld_unit_zero (S := S1024x1024) hz2, View.ld_unit_zero (S := S512x1024) hz2, View.ld_unit_zero (S := S512x1) hz2, View.readCov_unit_zero (S := S512x1024) (h := hz2), View.readCov_unit_zero (S := S512x1) (h := hz2), read_unread_scMax, read_unread_scDen, read_unread_scNum, read_unread_scQ]

end

end Cert.KernelIdeal.R1

end
-- ==== Proof.LibOnlineSoftmax.lean ====
import Idealize.ShloMosaic.PureOps.Ideal
import Mathlib.Tactic

/-!
# The streaming softmax over two blocks equals the plain softmax

Pure mathematics on the extended reals `[-∞, +∞]`.  A row of scores is split into two
column blocks.  The streaming ("online") evaluation keeps a running maximum `m`, a running
normaliser `l` and a running weighted sum `acc`, and when the maximum grows from `m₁` to
`m₂` it rescales what it has by `e^(m₁ - m₂)`; its answer is `acc / l`.  The plain evaluation
takes the maximum `M` of all scores at once, and answers `∑ (e^(s - M) / Z) · v` with
`Z = ∑ e^(s - M)`.  A masked score is `⊥ = -∞` and weighs `e^(-∞) = 0`.

Both evaluations are the same real number as soon as every score is a real or `⊥`, the
first block has an unmasked column and the values are real: then every maximum in sight is
a real, every weight `e^(s - m)` is a nonnegative real, the identity
`e^(m₁ - m₂) · e^(s - m₁) = e^(s - m₂)` turns the rescaled block-one sums into sums against
the final maximum, and the normaliser is a positive real, so the quotient is a product with
its real reciprocal and distributes over the sums.
-/

noncomputable section

namespace Cert.Lib.OnlineSoftmax

open Idealize.ShloMosaic
open scoped BigOperators

/-! ### Coercion and finite sums -/

/-- The inclusion of the reals in the extended reals commutes with a finite sum. -/
theorem coe_sum {ι : Type*} (t : Finset ι) (f : ι → ℝ) :
    ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

/-- A finite sum of products of (included) reals is the included sum of the real products. -/
theorem coe_sum_mul {ι : Type*} (t : Finset ι) (f g : ι → ℝ) :
    ∑ c ∈ t, ((f c : EReal) * (g c : EReal)) = ((∑ c ∈ t, f c * g c : ℝ) : EReal) := by
  rw [coe_sum]
  exact Finset.sum_congr rfl (fun c _ => (EReal.coe_mul _ _).symm)

/-! ### The weight of a score -/

/-- The real weight `e^(x - m)` of an extended-real score `x` against a real maximum `m`;
    a masked score `x = ⊥` weighs `0`. -/
def weight (x : EReal) (m : ℝ) : ℝ := if x = ⊥ then 0 else Real.exp (x.toReal - m)

/-- For a score `x < ⊤` and a real `m`, the extended exponential of `x - m` is the real
    weight of `x` against `m`. -/
theorem exp_sub_coe {x : EReal} (hx : x ≠ ⊤) (m : ℝ) :
    Ideal.exp (x - (m : EReal)) = ((weight x m : ℝ) : EReal) := by
  induction x using EReal.rec with
  | bot => simp [weight, EReal.bot_sub]
  | coe r =>
    have hr : (r : EReal) ≠ ⊥ := EReal.coe_ne_bot r
    rw [weight, if_neg hr, EReal.toReal_coe, ← EReal.coe_sub, Ideal.exp_coe]
  | top => exact absurd rfl hx

/-- A weight is nonnegative. -/
theorem weight_nonneg (x : EReal) (m : ℝ) : 0 ≤ weight x m := by
  unfold weight
  split_ifs
  · exact le_rfl
  · exact (Real.exp_pos _).le

/-- The weight of an unmasked score is positive. -/
theorem weight_pos {x : EReal} (hx : x ≠ ⊥) (m : ℝ) : 0 < weight x m := by
  rw [weight, if_neg hx]
  exact Real.exp_pos _

/-- Changing the maximum from `a` to `b` multiplies every weight by `e^(a - b)`. -/
theorem weight_rescale (x : EReal) (a b : ℝ) :
    Real.exp (a - b) * weight x a = weight x b := by
  unfold weight
  split_ifs with h
  · simp
  · rw [← Real.exp_add]
    congr 1
    ring

/-- The exponential of a masked score less anything is `0`. -/
theorem exp_bot_sub (M : EReal) : Ideal.exp (⊥ - M) = 0 := by
  rw [EReal.bot_sub]
  rfl

/-- The exponential of a masked score less a real maximum is `0`. -/
theorem exp_masked (M : EReal) (_hM : M ≠ ⊥) (_hM' : M ≠ ⊤) : Ideal.exp (⊥ - M) = 0 :=
  exp_bot_sub M

/-! ### The maximum of a block -/

/-- The maximum of finitely many scores below `⊤` is below `⊤`. -/
theorem sup_ne_top {ι : Type*} [Fintype ι] (s : ι → EReal) (hs : ∀ c, s c ≠ ⊤) :
    Finset.univ.sup s ≠ ⊤ := by
  have h : Finset.univ.sup s < ⊤ :=
    (Finset.sup_lt_iff (bot_lt_top : (⊥ : EReal) < ⊤)).2 (fun c _ => lt_top_iff_ne_top.2 (hs c))
  exact h.ne

/-- The maximum of a block with an unmasked column is not `⊥`. -/
theorem sup_ne_bot {ι : Type*} [Fintype ι] (s : ι → EReal) (h : ∃ c, s c ≠ ⊥) :
    Finset.univ.sup s ≠ ⊥ := by
  obtain ⟨c, hc⟩ := h
  intro h0
  have hle : s c ≤ Finset.univ.sup s := Finset.le_sup (Finset.mem_univ c)
  rw [h0] at hle
  exact hc (le_bot_iff.1 hle)

/-! ### The two evaluations against real maxima -/

section Core

variable {ι₁ ι₂ : Type*} [Fintype ι₁] [Fintype ι₂]

/-- The normaliser against a real maximum `b` is a positive real: a sum of nonnegative
    weights, one of which (an unmasked column of the first block) is positive. -/
theorem normaliser_pos (s₁ : ι₁ → EReal) (s₂ : ι₂ → EReal) (h₁ : ∃ c, s₁ c ≠ ⊥) (b : ℝ) :
    0 < (∑ c, weight (s₁ c) b) + ∑ c, weight (s₂ c) b := by
  obtain ⟨c₀, hc₀⟩ := h₁
  have hpos : 0 < ∑ c, weight (s₁ c) b :=
    Finset.sum_pos' (fun c _ => weight_nonneg _ _) ⟨c₀, Finset.mem_univ c₀, weight_pos hc₀ b⟩
  have hnn : 0 ≤ ∑ c, weight (s₂ c) b := Finset.sum_nonneg (fun c _ => weight_nonneg _ _)
  linarith

/-- The real identity behind the theorem: a quotient of a sum by the normaliser is the sum
    of the normalised terms. -/
theorem real_core (w₁ V₁ : ι₁ → ℝ) (w₂ V₂ : ι₂ → ℝ) (Z : ℝ) :
    ((∑ c, w₁ c * V₁ c) + ∑ c, w₂ c * V₂ c) * (1 / Z)
      = (∑ c, w₁ c * (1 / Z) * V₁ c) + ∑ c, w₂ c * (1 / Z) * V₂ c := by
  rw [add_mul, Finset.sum_mul, Finset.sum_mul]
  congr 1 <;> exact Finset.sum_congr rfl (fun c _ => by ring)

/-- The streaming evaluation over two blocks against real maxima `a` (after block one) and
    `b` (after block two) equals the plain evaluation against `b`. -/
theorem two_blocks_coe (s₁ : ι₁ → EReal) (s₂ : ι₂ → EReal) (v₁ : ι₁ → EReal) (v₂ : ι₂ → EReal)
    (hs₁ : ∀ c, s₁ c ≠ ⊤) (hs₂ : ∀ c, s₂ c ≠ ⊤) (h₁ : ∃ c, s₁ c ≠ ⊥)
    (hv₁ : ∀ c, v₁ c ≠ ⊤ ∧ v₁ c ≠ ⊥) (hv₂ : ∀ c, v₂ c ≠ ⊤ ∧ v₂ c ≠ ⊥) (a b : ℝ) :
    Ideal.div
        (Ideal.exp ((a : EReal) - (b : EReal))
            * (Ideal.exp (⊥ - (a : EReal)) * 0 + ∑ c, Ideal.exp (s₁ c - (a : EReal)) * v₁ c)
          + ∑ c, Ideal.exp (s₂ c - (b : EReal)) * v₂ c)
        (Ideal.exp ((a : EReal) - (b : EReal))
            * (Ideal.exp (⊥ - (a : EReal)) * 0 + ∑ c, Ideal.exp (s₁ c - (a : EReal)))
          + ∑ c, Ideal.exp (s₂ c - (b : EReal)))
      = (∑ c, Ideal.div (Ideal.exp (s₁ c - (b : EReal)))
              ((∑ c, Ideal.exp (s₁ c - (b : EReal))) + ∑ c, Ideal.exp (s₂ c - (b : EReal))) * v₁ c)
        + ∑ c, Ideal.div (Ideal.exp (s₂ c - (b : EReal)))
              ((∑ c, Ideal.exp (s₁ c - (b : EReal))) + ∑ c, Ideal.exp (s₂ c - (b : EReal))) * v₂ c := by
  -- the values are reals
  obtain ⟨V₁, rfl⟩ : ∃ V₁ : ι₁ → ℝ, v₁ = fun c => (V₁ c : EReal) :=
    ⟨fun c => (v₁ c).toReal, funext fun c => (EReal.coe_toReal (hv₁ c).1 (hv₁ c).2).symm⟩
  obtain ⟨V₂, rfl⟩ : ∃ V₂ : ι₂ → ℝ, v₂ = fun c => (V₂ c : EReal) :=
    ⟨fun c => (v₂ c).toReal, funext fun c => (EReal.coe_toReal (hv₂ c).1 (hv₂ c).2).symm⟩
  -- every exponential is a real weight
  have e₁ : ∀ (c : ι₁) (m : ℝ), Ideal.exp (s₁ c - (m : EReal)) = ((weight (s₁ c) m : ℝ) : EReal) :=
    fun c m => exp_sub_coe (hs₁ c) m
  have e₂ : ∀ (c : ι₂) (m : ℝ), Ideal.exp (s₂ c - (m : EReal)) = ((weight (s₂ c) m : ℝ) : EReal) :=
    fun c m => exp_sub_coe (hs₂ c) m
  have ek : Ideal.exp ((a : EReal) - (b : EReal)) = ((Real.exp (a - b) : ℝ) : EReal) := by
    rw [← EReal.coe_sub, Ideal.exp_coe]
  simp only [e₁, e₂, ek, mul_zero, zero_add]
  -- the normaliser
  have hZ : ((∑ c, weight (s₁ c) b) + ∑ c, weight (s₂ c) b) ≠ 0 := (normaliser_pos s₁ s₂ h₁ b).ne'
  -- push the inclusion of the reals outwards, block one rescaled to the final maximum
  have hl : ((Real.exp (a - b) : ℝ) : EReal) * ∑ c, ((weight (s₁ c) a : ℝ) : EReal)
      = ((∑ c, weight (s₁ c) b : ℝ) : EReal) := by
    rw [← coe_sum, ← EReal.coe_mul, Finset.mul_sum]
    simp only [weight_rescale]
  have hacc : ((Real.exp (a - b) : ℝ) : EReal) * ∑ c, ((weight (s₁ c) a : ℝ) : EReal) * (V₁ c : EReal)
      = ((∑ c, weight (s₁ c) b * V₁ c : ℝ) : EReal) := by
    rw [coe_sum_mul, ← EReal.coe_mul, Finset.mul_sum]
    simp only [← mul_assoc, weight_rescale]
  rw [hl, hacc, coe_sum_mul, ← coe_sum, ← coe_sum, ← EReal.coe_add, ← EReal.coe_add,
    Ideal.div_coe hZ, ← EReal.coe_mul]
  simp only [Ideal.div_coe hZ, ← EReal.coe_mul, ← coe_sum, ← EReal.coe_add]
  rw [real_core]

end Core

/-! ### One block against a real maximum -/

section CoreOne

variable {ι₁ : Type*} [Fintype ι₁]

/-- The normaliser of one block against a real maximum `a` is a positive real. -/
theorem normaliser_one_pos (s₁ : ι₁ → EReal) (h₁ : ∃ c, s₁ c ≠ ⊥) (a : ℝ) :
    0 < ∑ c, weight (s₁ c) a := by
  obtain ⟨c₀, hc₀⟩ := h₁
  exact Finset.sum_pos' (fun c _ => weight_nonneg _ _) ⟨c₀, Finset.mem_univ c₀, weight_pos hc₀ a⟩

/-- The streaming evaluation of a single block against a real maximum `a` equals the plain
    evaluation of that block against `a`. -/
theorem one_block_coe (s₁ : ι₁ → EReal) (v₁ : ι₁ → EReal)
    (hs₁ : ∀ c, s₁ c ≠ ⊤) (h₁ : ∃ c, s₁ c ≠ ⊥) (hv₁ : ∀ c, v₁ c ≠ ⊤ ∧ v₁ c ≠ ⊥) (a : ℝ) :
    Ideal.div
        (Ideal.exp (⊥ - (a : EReal)) * 0 + ∑ c, Ideal.exp (s₁ c - (a : EReal)) * v₁ c)
        (Ideal.exp (⊥ - (a : EReal)) * 0 + ∑ c, Ideal.exp (s₁ c - (a : EReal)))
      = ∑ c, Ideal.div (Ideal.exp (s₁ c - (a : EReal)))
              (∑ c, Ideal.exp (s₁ c - (a : EReal))) * v₁ c := by
  obtain ⟨V₁, rfl⟩ : ∃ V₁ : ι₁ → ℝ, v₁ = fun c => (V₁ c : EReal) :=
    ⟨fun c => (v₁ c).toReal, funext fun c => (EReal.coe_toReal (hv₁ c).1 (hv₁ c).2).symm⟩
  have e₁ : ∀ (c : ι₁) (m : ℝ), Ideal.exp (s₁ c - (m : EReal)) = ((weight (s₁ c) m : ℝ) : EReal) :=
    fun c m => exp_sub_coe (hs₁ c) m
  simp only [e₁, mul_zero, zero_add]
  have hZ : (∑ c, weight (s₁ c) a) ≠ 0 := (normaliser_one_pos s₁ h₁ a).ne'
  rw [coe_sum_mul, ← coe_sum, Ideal.div_coe hZ, ← EReal.coe_mul]
  simp only [Ideal.div_coe hZ, ← EReal.coe_mul, ← coe_sum]
  rw [Finset.sum_mul]
  congr 1
  exact Finset.sum_congr rfl (fun c _ => by ring)

end CoreOne

/-! ### The theorems, with the maxima as the streaming and the plain evaluation compute them -/

section Main

variable {ι₁ ι₂ : Type*} [Fintype ι₁] [Fintype ι₂]

/-- The running maximum after both blocks is not `⊤`. -/
theorem max_sup_ne_top (s₁ : ι₁ → EReal) (s₂ : ι₂ → EReal)
    (hs₁ : ∀ c, s₁ c ≠ ⊤) (hs₂ : ∀ c, s₂ c ≠ ⊤) :
    max (Finset.univ.sup s₁) (Finset.univ.sup s₂) ≠ ⊤ :=
  (max_lt (lt_top_iff_ne_top.2 (sup_ne_top s₁ hs₁)) (lt_top_iff_ne_top.2 (sup_ne_top s₂ hs₂))).ne

/-- The running maximum after both blocks is not `⊥` when block one has an unmasked column. -/
theorem max_sup_ne_bot (s₁ : ι₁ → EReal) (s₂ : ι₂ → EReal) (h₁ : ∃ c, s₁ c ≠ ⊥) :
    max (Finset.univ.sup s₁) (Finset.univ.sup s₂) ≠ ⊥ := by
  intro h
  have hle : Finset.univ.sup s₁ ≤ max (Finset.univ.sup s₁) (Finset.univ.sup s₂) := le_max_left _ _
  rw [h] at hle
  exact sup_ne_bot s₁ h₁ (le_bot_iff.1 hle)

/-- **Two blocks, general form.**  With `m₁` the maximum of block one, `m₂` the running
    maximum after block two and `M` the maximum of all scores (given by equations, so that they may
    be presented in any form), the streaming quotient
    `acc₂ / l₂` equals the plain softmax-weighted sum `∑ (e^(s - M) / Z) · v`. -/
theorem two_blocks_of_eq (s₁ : ι₁ → EReal) (s₂ : ι₂ → EReal) (v₁ : ι₁ → EReal) (v₂ : ι₂ → EReal)
    (hs₁ : ∀ c, s₁ c ≠ ⊤) (hs₂ : ∀ c, s₂ c ≠ ⊤) (h₁ : ∃ c, s₁ c ≠ ⊥)
    (hv₁ : ∀ c, v₁ c ≠ ⊤ ∧ v₁ c ≠ ⊥) (hv₂ : ∀ c, v₂ c ≠ ⊤ ∧ v₂ c ≠ ⊥)
    (m₁ m₂ M : EReal) (hm₁ : m₁ = Finset.univ.sup s₁)
    (hm₂ : m₂ = max m₁ (Finset.univ.sup s₂))
    (hM : M = max (Finset.univ.sup s₁) (Finset.univ.sup s₂)) :
    Ideal.div
        (Ideal.exp (m₁ - m₂) * (Ideal.exp (⊥ - m₁) * 0 + ∑ c, Ideal.exp (s₁ c - m₁) * v₁ c)
          + ∑ c, Ideal.exp (s₂ c - m₂) * v₂ c)
        (Ideal.exp (m₁ - m₂) * (Ideal.exp (⊥ - m₁) * 0 + ∑ c, Ideal.exp (s₁ c - m₁))
          + ∑ c, Ideal.exp (s₂ c - m₂))
      = (∑ c, Ideal.div (Ideal.exp (s₁ c - M))
              ((∑ c, Ideal.exp (s₁ c - M)) + ∑ c, Ideal.exp (s₂ c - M)) * v₁ c)
        + ∑ c, Ideal.div (Ideal.exp (s₂ c - M))
              ((∑ c, Ideal.exp (s₁ c - M)) + ∑ c, Ideal.exp (s₂ c - M)) * v₂ c := by
  obtain ⟨a, ha⟩ : ∃ a : ℝ, (a : EReal) = Finset.univ.sup s₁ :=
    ⟨_, EReal.coe_toReal (sup_ne_top s₁ hs₁) (sup_ne_bot s₁ h₁)⟩
  obtain ⟨b, hb⟩ : ∃ b : ℝ, (b : EReal) = max (Finset.univ.sup s₁) (Finset.univ.sup s₂) :=
    ⟨_, EReal.coe_toReal (max_sup_ne_top s₁ s₂ hs₁ hs₂) (max_sup_ne_bot s₁ s₂ h₁)⟩
  have hm₁' : m₁ = (a : EReal) := hm₁.trans ha.symm
  have hM' : M = (b : EReal) := hM.trans hb.symm
  have hm₂' : m₂ = (b : EReal) := by rw [hm₂, hm₁, hb]
  rw [hm₁', hm₂', hM']
  exact two_blocks_coe s₁ s₂ v₁ v₂ hs₁ hs₂ h₁ hv₁ hv₂ a b

/-- **Two blocks.**  The streaming softmax over two column blocks — running maximum
    `m₁ = sup s₁` then `m₂ = max m₁ (sup s₂)`, normaliser and accumulator rescaled by
    `e^(m₁ - m₂)` — divided out at the end, equals the plain softmax over all columns
    against `M = max (sup s₁) (sup s₂)` applied to the values. -/
theorem two_blocks (s₁ : ι₁ → EReal) (s₂ : ι₂ → EReal) (v₁ : ι₁ → EReal) (v₂ : ι₂ → EReal)
    (hs₁ : ∀ c, s₁ c ≠ ⊤) (hs₂ : ∀ c, s₂ c ≠ ⊤) (h₁ : ∃ c, s₁ c ≠ ⊥)
    (hv₁ : ∀ c, v₁ c ≠ ⊤ ∧ v₁ c ≠ ⊥) (hv₂ : ∀ c, v₂ c ≠ ⊤ ∧ v₂ c ≠ ⊥) :
    Ideal.div
        (Ideal.exp (Finset.univ.sup s₁ - max (Finset.univ.sup s₁) (Finset.univ.sup s₂))
            * (Ideal.exp (⊥ - Finset.univ.sup s₁) * 0
                + ∑ c, Ideal.exp (s₁ c - Finset.univ.sup s₁) * v₁ c)
          + ∑ c, Ideal.exp (s₂ c - max (Finset.univ.sup s₁) (Finset.univ.sup s₂)) * v₂ c)
        (Ideal.exp (Finset.univ.sup s₁ - max (Finset.univ.sup s₁) (Finset.univ.sup s₂))
            * (Ideal.exp (⊥ - Finset.univ.sup s₁) * 0
                + ∑ c, Ideal.exp (s₁ c - Finset.univ.sup s₁))
          + ∑ c, Ideal.exp (s₂ c - max (Finset.univ.sup s₁) (Finset.univ.sup s₂)))
      = (∑ c, Ideal.div
              (Ideal.exp (s₁ c - max (Finset.univ.sup s₁) (Finset.univ.sup s₂)))
              ((∑ c, Ideal.exp (s₁ c - max (Finset.univ.sup s₁) (Finset.univ.sup s₂)))
                + ∑ c, Ideal.exp (s₂ c - max (Finset.univ.sup s₁) (Finset.univ.sup s₂))) * v₁ c)
        + ∑ c, Ideal.div
              (Ideal.exp (s₂ c - max (Finset.univ.sup s₁) (Finset.univ.sup s₂)))
              ((∑ c, Ideal.exp (s₁ c - max (Finset.univ.sup s₁) (Finset.univ.sup s₂)))
                + ∑ c, Ideal.exp (s₂ c - max (Finset.univ.sup s₁) (Finset.univ.sup s₂))) * v₂ c :=
  two_blocks_of_eq s₁ s₂ v₁ v₂ hs₁ hs₂ h₁ hv₁ hv₂ _ _ _ rfl rfl rfl

/-- **One block, general form.**  With `m₁` and `M'` both equal to the maximum of the block
    (given by equations), the streaming quotient `acc₁ / l₁` after the single block equals
    the plain softmax-weighted sum over that block. -/
theorem one_block_of_eq (s₁ : ι₁ → EReal) (v₁ : ι₁ → EReal)
    (hs₁ : ∀ c, s₁ c ≠ ⊤) (h₁ : ∃ c, s₁ c ≠ ⊥) (hv₁ : ∀ c, v₁ c ≠ ⊤ ∧ v₁ c ≠ ⊥)
    (m₁ M' : EReal) (hm₁ : m₁ = Finset.univ.sup s₁) (hM' : M' = Finset.univ.sup s₁) :
    Ideal.div
        (Ideal.exp (⊥ - m₁) * 0 + ∑ c, Ideal.exp (s₁ c - m₁) * v₁ c)
        (Ideal.exp (⊥ - m₁) * 0 + ∑ c, Ideal.exp (s₁ c - m₁))
      = ∑ c, Ideal.div (Ideal.exp (s₁ c - M')) (∑ c, Ideal.exp (s₁ c - M')) * v₁ c := by
  obtain ⟨a, ha⟩ : ∃ a : ℝ, (a : EReal) = Finset.univ.sup s₁ :=
    ⟨_, EReal.coe_toReal (sup_ne_top s₁ hs₁) (sup_ne_bot s₁ h₁)⟩
  rw [hm₁.trans ha.symm, hM'.trans ha.symm]
  exact one_block_coe s₁ v₁ hs₁ h₁ hv₁ a

/-- **One block.**  The streaming softmax after a single column block, divided out, equals
    the plain softmax over that block against `M' = sup s₁` applied to the values. -/
theorem one_block (s₁ : ι₁ → EReal) (v₁ : ι₁ → EReal)
    (hs₁ : ∀ c, s₁ c ≠ ⊤) (h₁ : ∃ c, s₁ c ≠ ⊥) (hv₁ : ∀ c, v₁ c ≠ ⊤ ∧ v₁ c ≠ ⊥) :
    Ideal.div
        (Ideal.exp (⊥ - Finset.univ.sup s₁) * 0
          + ∑ c, Ideal.exp (s₁ c - Finset.univ.sup s₁) * v₁ c)
        (Ideal.exp (⊥ - Finset.univ.sup s₁) * 0 + ∑ c, Ideal.exp (s₁ c - Finset.univ.sup s₁))
      = ∑ c, Ideal.div (Ideal.exp (s₁ c - Finset.univ.sup s₁))
              (∑ c, Ideal.exp (s₁ c - Finset.univ.sup s₁)) * v₁ c :=
  one_block_of_eq s₁ v₁ hs₁ h₁ hv₁ _ _ rfl rfl

end Main

/-! ### One block against a reference that also sums an entirely masked second block -/

section Masked

variable {ι₁ ι₂ : Type*} [Fintype ι₁] [Fintype ι₂]

/-- The maximum of an entirely masked block is `⊥`. -/
theorem sup_eq_bot_of_masked (s₂ : ι₂ → EReal) (hmask : ∀ c, s₂ c = ⊥) :
    Finset.univ.sup s₂ = ⊥ :=
  le_bot_iff.1 (Finset.sup_le (fun c _ => (hmask c).le))

/-- With the second block entirely masked the maximum of all scores is that of block one. -/
theorem max_sup_of_masked (s₁ : ι₁ → EReal) (s₂ : ι₂ → EReal) (hmask : ∀ c, s₂ c = ⊥) :
    max (Finset.univ.sup s₁) (Finset.univ.sup s₂) = Finset.univ.sup s₁ := by
  rw [sup_eq_bot_of_masked s₂ hmask]
  exact max_eq_left bot_le

/-- Zero divided by a nonzero extended real is zero. -/
theorem zero_div_of_ne {y : EReal} (hy : y ≠ 0) : Ideal.div 0 y = 0 := by
  rw [Ideal.div, if_neg hy, zero_mul]

/-- **One block against the two-block reference.**  When the second block is entirely
    masked, the streaming quotient `acc₁ / l₁` after block one equals the plain softmax over
    BOTH blocks (the masked columns weigh `0` in the normaliser and contribute `0 · v`).
    The maxima `m₁` and `M` are given by equations.  Nothing is asked of `v₂`. -/
theorem one_block_masked_of_eq (s₁ : ι₁ → EReal) (s₂ : ι₂ → EReal) (v₁ : ι₁ → EReal)
    (v₂ : ι₂ → EReal) (hs₁ : ∀ c, s₁ c ≠ ⊤) (h₁ : ∃ c, s₁ c ≠ ⊥)
    (hv₁ : ∀ c, v₁ c ≠ ⊤ ∧ v₁ c ≠ ⊥) (hmask : ∀ c, s₂ c = ⊥)
    (m₁ M : EReal) (hm₁ : m₁ = Finset.univ.sup s₁)
    (hM : M = max (Finset.univ.sup s₁) (Finset.univ.sup s₂)) :
    Ideal.div
        (Ideal.exp (⊥ - m₁) * 0 + ∑ c, Ideal.exp (s₁ c - m₁) * v₁ c)
        (Ideal.exp (⊥ - m₁) * 0 + ∑ c, Ideal.exp (s₁ c - m₁))
      = (∑ c, Ideal.div (Ideal.exp (s₁ c - M))
              ((∑ c, Ideal.exp (s₁ c - M)) + ∑ c, Ideal.exp (s₂ c - M)) * v₁ c)
        + ∑ c, Ideal.div (Ideal.exp (s₂ c - M))
              ((∑ c, Ideal.exp (s₁ c - M)) + ∑ c, Ideal.exp (s₂ c - M)) * v₂ c := by
  obtain ⟨a, ha⟩ : ∃ a : ℝ, (a : EReal) = Finset.univ.sup s₁ :=
    ⟨_, EReal.coe_toReal (sup_ne_top s₁ hs₁) (sup_ne_bot s₁ h₁)⟩
  have hM' : M = (a : EReal) := by rw [hM, max_sup_of_masked s₁ s₂ hmask, ha]
  rw [hm₁.trans ha.symm, hM']
  -- the masked columns weigh nothing
  have hz : ∀ c, Ideal.exp (s₂ c - (a : EReal)) = 0 := fun c => by
    rw [hmask c]
    exact exp_bot_sub _
  -- the normaliser is a nonzero real
  have hZ : (∑ c, Ideal.exp (s₁ c - (a : EReal))) ≠ 0 := by
    have e₁ : ∀ c : ι₁, Ideal.exp (s₁ c - (a : EReal)) = ((weight (s₁ c) a : ℝ) : EReal) :=
      fun c => exp_sub_coe (hs₁ c) a
    simp only [e₁, ← coe_sum]
    exact EReal.coe_ne_zero.2 (normaliser_one_pos s₁ h₁ a).ne'
  simp only [hz, Finset.sum_const_zero, add_zero, zero_div_of_ne hZ, zero_mul]
  exact one_block_coe s₁ v₁ hs₁ h₁ hv₁ a

end Masked

end Cert.Lib.OnlineSoftmax
-- ==== Proof.LibRowSplit.lean ====
import Mathlib.Tactic
import Idealize.ShloMosaic.PureOps.Ideal
import proofs.«141642_j28802050687501_2_alg».proof.Proof.LibOnlineSoftmax

/-!
# A row of 1024 columns as two blocks of 512

Pure mathematics.  A row indexed by `Fin 1024` is the concatenation of its low half
(columns `0 … 511`) and its high half (columns `512 … 1023`): a sum over the row is the sum
of the two half sums, a maximum over the row is the maximum of the two half maxima.  With
that, the streaming softmax over the two halves (see `Cert.Lib.OnlineSoftmax`) equals the
plain softmax over the whole row.  Also here: a finite sum of products of finite extended
reals is finite, and a few facts on adding `0` or `⊥`.
-/

noncomputable section

namespace Cert.Lib.RowSplit

open Idealize.ShloMosaic
open Cert.Lib.OnlineSoftmax
open scoped BigOperators

/-! ### The two halves -/

/-- Column `c` of the low half, as a column of the row. -/
def lo (c : Fin 512) : Fin 1024 := ⟨c.val, by omega⟩

/-- Column `c` of the high half, as a column of the row: `512 + c`. -/
def hi (c : Fin 512) : Fin 1024 := ⟨512 + c.val, by omega⟩

@[simp] theorem lo_val (c : Fin 512) : (lo c).val = c.val := rfl

@[simp] theorem hi_val (c : Fin 512) : (hi c).val = 512 + c.val := rfl

/-- Every column of the row is a low column or a high column. -/
theorem lo_or_hi (c : Fin 1024) : (∃ d, c = lo d) ∨ ∃ d, c = hi d := by
  by_cases h : c.val < 512
  · exact Or.inl ⟨⟨c.val, h⟩, Fin.ext rfl⟩
  · refine Or.inr ⟨⟨c.val - 512, by omega⟩, Fin.ext ?_⟩
    simp only [hi_val]
    omega

/-- A sum over the row is the sum over the low half plus the sum over the high half. -/
theorem sum_split {M : Type*} [AddCommMonoid M] (f : Fin 1024 → M) :
    ∑ c : Fin 1024, f c = (∑ c : Fin 512, f (lo c)) + ∑ c : Fin 512, f (hi c) := by
  have h := Fin.sum_univ_add (a := 512) (b := 512) (fun i : Fin (512 + 512) => f i)
  exact h

/-- A maximum over the row is the larger of the maxima of the two halves. -/
theorem sup_split (f : Fin 1024 → EReal) :
    Finset.univ.sup f
      = max (Finset.univ.sup fun c : Fin 512 => f (lo c)) (Finset.univ.sup fun c : Fin 512 => f (hi c)) := by
  apply le_antisymm
  · refine Finset.sup_le (fun c _ => ?_)
    rcases lo_or_hi c with ⟨d, rfl⟩ | ⟨d, rfl⟩
    · exact le_trans (Finset.le_sup (f := fun c : Fin 512 => f (lo c)) (Finset.mem_univ d))
        (le_max_left _ _)
    · exact le_trans (Finset.le_sup (f := fun c : Fin 512 => f (hi c)) (Finset.mem_univ d))
        (le_max_right _ _)
  · exact max_le (Finset.sup_le (fun c _ => Finset.le_sup (f := f) (Finset.mem_univ (lo c))))
      (Finset.sup_le (fun c _ => Finset.le_sup (f := f) (Finset.mem_univ (hi c))))

/-! ### The streaming softmax over the halves is the plain softmax over the row -/

/-- **Both halves processed.**  The streaming quotient over the low then the high half
    equals the plain softmax over the row (normaliser written `0 + ∑`) applied to the values. -/
theorem row_two_blocks (s v : Fin 1024 → EReal) (hs : ∀ c, s c ≠ ⊤)
    (h₁ : ∃ c : Fin 512, s (lo c) ≠ ⊥) (hv : ∀ c, v c ≠ ⊤ ∧ v c ≠ ⊥)
    (m₁ m₂ : EReal) (hm₁ : m₁ = Finset.univ.sup fun c : Fin 512 => s (lo c))
    (hm₂ : m₂ = max m₁ (Finset.univ.sup fun c : Fin 512 => s (hi c))) :
    Ideal.div
        (Ideal.exp (m₁ - m₂)
            * (Ideal.exp (⊥ - m₁) * 0 + ∑ c : Fin 512, Ideal.exp (s (lo c) - m₁) * v (lo c))
          + ∑ c : Fin 512, Ideal.exp (s (hi c) - m₂) * v (hi c))
        (Ideal.exp (m₁ - m₂)
            * (Ideal.exp (⊥ - m₁) * 0 + ∑ c : Fin 512, Ideal.exp (s (lo c) - m₁))
          + ∑ c : Fin 512, Ideal.exp (s (hi c) - m₂))
      = ∑ c : Fin 1024, Ideal.div (Ideal.exp (s c - Finset.univ.sup s))
            (0 + ∑ c' : Fin 1024, Ideal.exp (s c' - Finset.univ.sup s)) * v c := by
  have hZ : (0 + ∑ c' : Fin 1024, Ideal.exp (s c' - Finset.univ.sup s))
      = (∑ c : Fin 512, Ideal.exp (s (lo c) - Finset.univ.sup s))
        + ∑ c : Fin 512, Ideal.exp (s (hi c) - Finset.univ.sup s) := by
    rw [zero_add]
    exact sum_split _
  rw [hZ, sum_split]
  exact two_blocks_of_eq (fun c => s (lo c)) (fun c => s (hi c)) (fun c => v (lo c))
    (fun c => v (hi c)) (fun c => hs _) (fun c => hs _) h₁ (fun c => hv _) (fun c => hv _)
    m₁ m₂ (Finset.univ.sup s) hm₁ hm₂ (sup_split s)

/-- **Only the low half processed, the high half entirely masked.**  The streaming quotient
    after the low half equals the plain softmax over the whole row applied to the values. -/
theorem row_one_block (s v : Fin 1024 → EReal) (hs : ∀ c, s c ≠ ⊤)
    (h₁ : ∃ c : Fin 512, s (lo c) ≠ ⊥) (hv : ∀ c, v c ≠ ⊤ ∧ v c ≠ ⊥)
    (hmask : ∀ c : Fin 512, s (hi c) = ⊥)
    (m₁ : EReal) (hm₁ : m₁ = Finset.univ.sup fun c : Fin 512 => s (lo c)) :
    Ideal.div
        (Ideal.exp (⊥ - m₁) * 0 + ∑ c : Fin 512, Ideal.exp (s (lo c) - m₁) * v (lo c))
        (Ideal.exp (⊥ - m₁) * 0 + ∑ c : Fin 512, Ideal.exp (s (lo c) - m₁))
      = ∑ c : Fin 1024, Ideal.div (Ideal.exp (s c - Finset.univ.sup s))
            (0 + ∑ c' : Fin 1024, Ideal.exp (s c' - Finset.univ.sup s)) * v c := by
  have hZ : (0 + ∑ c' : Fin 1024, Ideal.exp (s c' - Finset.univ.sup s))
      = (∑ c : Fin 512, Ideal.exp (s (lo c) - Finset.univ.sup s))
        + ∑ c : Fin 512, Ideal.exp (s (hi c) - Finset.univ.sup s) := by
    rw [zero_add]
    exact sum_split _
  rw [hZ, sum_split]
  exact one_block_masked_of_eq (fun c => s (lo c)) (fun c => s (hi c)) (fun c => v (lo c))
    (fun c => v (hi c)) (fun c => hs _) h₁ (fun c => hv _) hmask
    m₁ (Finset.univ.sup s) hm₁ (sup_split s)

/-- `row_two_blocks` with the streaming state's initial values `m₀ = ⊥`, `l₀ = 0`, `a₀ = 0`
    named, and the first maximum taken against `m₀`. -/
theorem row_two_blocks' (s v : Fin 1024 → EReal) (hs : ∀ c, s c ≠ ⊤)
    (h₁ : ∃ c : Fin 512, s (lo c) ≠ ⊥) (hv : ∀ c, v c ≠ ⊤ ∧ v c ≠ ⊥)
    (m₀ l₀ a₀ : EReal) (hm₀ : m₀ = ⊥) (hl₀ : l₀ = 0) (ha₀ : a₀ = 0)
    (m₁ m₂ : EReal) (hm₁ : m₁ = max m₀ (Finset.univ.sup fun c : Fin 512 => s (lo c)))
    (hm₂ : m₂ = max m₁ (Finset.univ.sup fun c : Fin 512 => s (hi c))) :
    Ideal.div
        (Ideal.exp (m₁ - m₂)
            * (Ideal.exp (m₀ - m₁) * a₀ + ∑ c : Fin 512, Ideal.exp (s (lo c) - m₁) * v (lo c))
          + ∑ c : Fin 512, Ideal.exp (s (hi c) - m₂) * v (hi c))
        (Ideal.exp (m₁ - m₂)
            * (Ideal.exp (m₀ - m₁) * l₀ + ∑ c : Fin 512, Ideal.exp (s (lo c) - m₁))
          + ∑ c : Fin 512, Ideal.exp (s (hi c) - m₂))
      = ∑ c : Fin 1024, Ideal.div (Ideal.exp (s c - Finset.univ.sup s))
            (0 + ∑ c' : Fin 1024, Ideal.exp (s c' - Finset.univ.sup s)) * v c := by
  subst hm₀ hl₀ ha₀
  have hm₁' : m₁ = Finset.univ.sup fun c : Fin 512 => s (lo c) := by
    rw [hm₁]
    exact max_eq_right bot_le
  exact row_two_blocks s v hs h₁ hv m₁ m₂ hm₁' hm₂

/-- `row_one_block` with the streaming state's initial values `m₀ = ⊥`, `l₀ = 0`, `a₀ = 0`
    named, and the maximum taken against `m₀`. -/
theorem row_one_block' (s v : Fin 1024 → EReal) (hs : ∀ c, s c ≠ ⊤)
    (h₁ : ∃ c : Fin 512, s (lo c) ≠ ⊥) (hv : ∀ c, v c ≠ ⊤ ∧ v c ≠ ⊥)
    (hmask : ∀ c : Fin 512, s (hi c) = ⊥)
    (m₀ l₀ a₀ : EReal) (hm₀ : m₀ = ⊥) (hl₀ : l₀ = 0) (ha₀ : a₀ = 0)
    (m₁ : EReal) (hm₁ : m₁ = max m₀ (Finset.univ.sup fun c : Fin 512 => s (lo c))) :
    Ideal.div
        (Ideal.exp (m₀ - m₁) * a₀ + ∑ c : Fin 512, Ideal.exp (s (lo c) - m₁) * v (lo c))
        (Ideal.exp (m₀ - m₁) * l₀ + ∑ c : Fin 512, Ideal.exp (s (lo c) - m₁))
      = ∑ c : Fin 1024, Ideal.div (Ideal.exp (s c - Finset.univ.sup s))
            (0 + ∑ c' : Fin 1024, Ideal.exp (s c' - Finset.univ.sup s)) * v c := by
  subst hm₀ hl₀ ha₀
  have hm₁' : m₁ = Finset.univ.sup fun c : Fin 512 => s (lo c) := by
    rw [hm₁]
    exact max_eq_right bot_le
  exact row_one_block s v hs h₁ hv hmask m₁ hm₁'

/-! ### Finiteness -/

/-- A finite sum of products of finite extended reals is finite. -/
theorem sum_mul_ne {ι : Type*} [Fintype ι] (x y : ι → EReal)
    (hx : ∀ d, x d ≠ ⊤ ∧ x d ≠ ⊥) (hy : ∀ d, y d ≠ ⊤ ∧ y d ≠ ⊥) :
    (∑ d, x d * y d) ≠ ⊤ ∧ (∑ d, x d * y d) ≠ ⊥ := by
  obtain ⟨X, rfl⟩ : ∃ X : ι → ℝ, x = fun d => (X d : EReal) :=
    ⟨fun d => (x d).toReal, funext fun d => (EReal.coe_toReal (hx d).1 (hx d).2).symm⟩
  obtain ⟨Y, rfl⟩ : ∃ Y : ι → ℝ, y = fun d => (Y d : EReal) :=
    ⟨fun d => (y d).toReal, funext fun d => (EReal.coe_toReal (hy d).1 (hy d).2).symm⟩
  simp only [coe_sum_mul]
  exact ⟨EReal.coe_ne_top _, EReal.coe_ne_bot _⟩

/-- A finite extended real times a real is finite. -/
theorem mul_coe_ne {x : EReal} (hx : x ≠ ⊤ ∧ x ≠ ⊥) (r : ℝ) :
    x * (r : EReal) ≠ ⊤ ∧ x * (r : EReal) ≠ ⊥ := by
  lift x to ℝ using hx
  rw [← EReal.coe_mul]
  exact ⟨EReal.coe_ne_top _, EReal.coe_ne_bot _⟩

/-- Adding `0` changes nothing. -/
theorem add_zero_eq (x : EReal) : x + 0 = x := add_zero x

/-- Adding `⊥` gives `⊥`. -/
theorem add_bot_eq (x : EReal) : x + ⊥ = ⊥ := EReal.add_bot x

/-- A score below `⊤` plus a mask term (`0` where kept, `⊥` where masked) is below `⊤`. -/
theorem add_ite_ne_top {x : EReal} (hx : x ≠ ⊤) (p : Prop) [Decidable p] :
    x + (if p then (0 : EReal) else ⊥) ≠ ⊤ := by
  split_ifs
  · rw [add_zero]
    exact hx
  · rw [EReal.add_bot]
    exact bot_ne_top

/-- Where the column is kept, a score plus the mask term is the score. -/
theorem add_ite_of_pos (x : EReal) {p : Prop} [Decidable p] (hp : p) :
    x + (if p then (0 : EReal) else ⊥) = x := by
  rw [if_pos hp, add_zero]

/-- Where the column is masked, a score plus the mask term is `⊥`. -/
theorem add_ite_of_neg (x : EReal) {p : Prop} [Decidable p] (hp : ¬p) :
    x + (if p then (0 : EReal) else ⊥) = ⊥ := by
  rw [if_neg hp, EReal.add_bot]

end Cert.Lib.RowSplit
-- ==== Proof.Region1Blocks.lean ====
/-
  The attention region's window blocks read at an entry. Point (b, qi, ki) of the 8 × 2 × 2 grid is number
  4 b + 2 qi + ki. There the query window holds rows 512 qi … 512 qi + 511 of batch b of the query array, the weight
  window the whole weight matrix, and, when ki ≤ qi, the key and value windows rows 512 ki … 512 ki + 511 of batch b
  of the projected keys and values.
-/
import proofs.«141642_j28802050687501_2_alg».proof.Proof.Region1Dat
import proofs.«141642_j28802050687501_2_alg».proof.Proof.LibRowSplit
import Idealize.ShloMosaic.Lib.Pipeline.Value
import Idealize.ShloMosaic.Lib.ValueIdx

set_option maxRecDepth 16384

noncomputable section

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Lib.RowSplit (lo hi)

/-! ## The grid's points -/

/-- The point of batch b, row tile qi and key block ki. -/
def pt (b : Fin 8) (qi ki : Fin 2) : Fin cfg1.N :=
  ⟨4 * b.val + 2 * qi.val + ki.val, by show _ < grid1.N; rw [N_1]; omega⟩

theorem pt_val (b : Fin 8) (qi ki : Fin 2) : (pt b qi ki).val = 4 * b.val + 2 * qi.val + ki.val := rfl

/-- Point t has batch t / 4, row tile t / 2 mod 2 and key block t mod 2. -/
theorem coords_facts : ∀ t : Fin cfg1.N,
    (grid1.coords t (0 : Fin 3)).val = t.val / 4 ∧ (grid1.coords t (1 : Fin 3)).val = t.val / 2 % 2
    ∧ (grid1.coords t (2 : Fin 3)).val = t.val % 2 :=
  (by decide +kernel : ∀ t : Fin grid1.N, _)

theorem coords_pt_0 (b : Fin 8) (qi ki : Fin 2) : (grid1.coords (pt b qi ki) (0 : Fin 3)).val = b.val := by
  have h := (coords_facts (pt b qi ki)).1
  rw [pt_val] at h
  omega
theorem coords_pt_1 (b : Fin 8) (qi ki : Fin 2) : (grid1.coords (pt b qi ki) (1 : Fin 3)).val = qi.val := by
  have h := (coords_facts (pt b qi ki)).2.1
  rw [pt_val] at h
  omega
theorem coords_pt_2 (b : Fin 8) (qi ki : Fin 2) : (grid1.coords (pt b qi ki) (2 : Fin 3)).val = ki.val := by
  have h := (coords_facts (pt b qi ki)).2.2
  rw [pt_val] at h
  omega

/-- The windows' block indices at each of the 32 points: the query and result windows sit at (batch, row tile), the
    weight window at its one block, the key and value windows at (batch, key block) except at the points with
    key block 1 and row tile 0 (the points ≡ 1 mod 4), where they stay at key block 0. -/
theorem idx_facts : ∀ t : Fin cfg1.N,
    (win1_0.index t (0 : Fin 3) = t.val / 4 ∧ win1_0.index t (1 : Fin 3) = t.val / 2 % 2 ∧ win1_0.index t (2 : Fin 3) = 0)
    ∧ (win1_1.index t (0 : Fin 2) = 0 ∧ win1_1.index t (1 : Fin 2) = 0)
    ∧ (win1_2.index t (0 : Fin 3) = t.val / 4 ∧ (t.val % 4 ≠ 1 → win1_2.index t (1 : Fin 3) = t.val % 2)
        ∧ (t.val % 4 = 1 → win1_2.index t (1 : Fin 3) = 0) ∧ win1_2.index t (2 : Fin 3) = 0)
    ∧ (win1_3.index t (0 : Fin 3) = t.val / 4 ∧ (t.val % 4 ≠ 1 → win1_3.index t (1 : Fin 3) = t.val % 2)
        ∧ (t.val % 4 = 1 → win1_3.index t (1 : Fin 3) = 0) ∧ win1_3.index t (2 : Fin 3) = 0)
    ∧ (win1_4.index t (0 : Fin 3) = t.val / 4 ∧ win1_4.index t (1 : Fin 3) = t.val / 2 % 2 ∧ win1_4.index t (2 : Fin 3) = 0) :=
  (by decide +kernel : ∀ t : Fin grid1.N, _)

/-- The five windows' arrays. -/
theorem arrRef_query : Pipeline.arrRef spec1 0 = main_arg0 := rfl
theorem arrRef_wq : Pipeline.arrRef spec1 1 = main_v0 := rfl
theorem arrRef_keys : Pipeline.arrRef spec1 2 = main_v14 := rfl
theorem arrRef_values : Pipeline.arrRef spec1 3 = main_v17 := rfl
theorem arrRef_out : Pipeline.arrRef spec1 4 = main_v18 := rfl

-- the region-entry contents at the ideal values
variable (V : (c : Dev nD) → (b : Ref sig .tc) → Buf (Elt Ideal) ((c : Thread nD τ).loc b))

/-- The query array, the rounded query weight, the projected keys and the projected values as the region finds them. -/
def Xq (c : Dev nD) : S8x1024x1024.Idx → EReal := V c main_arg0
def Wq (c : Dev nD) : S1024x1024.Idx → EReal := V c main_v0
def Kp (c : Dev nD) : S8x1024x1024.Idx → EReal := V c main_v14
def Vp (c : Dev nD) : S8x1024x1024.Idx → EReal := V c main_v17

theorem Xq_def (c : Dev nD) : Xq V c = V c main_arg0 := rfl
theorem Wq_def (c : Dev nD) : Wq V c = V c main_v0 := rfl
theorem Kp_def (c : Dev nD) : Kp V c = V c main_v14 := rfl
theorem Vp_def (c : Dev nD) : Vp V c = V c main_v17 := rfl

/-! ## The blocks at an entry -/

/-- The query window at point (b, qi, ki): row r of the block is row 512 qi + r of batch b. -/
theorem query_block (c : Dev nD) (b : Fin 8) (qi ki : Fin 2) (r : Fin 512) (d : Fin 1024) :
    iblk V c 0 (pt b qi ki) (ix3 (0 : Fin 1) r d) = Xq V c (ix3 b (⟨qi.val * 512 + r.val, by omega⟩ : Fin 1024) d) := by
  obtain ⟨⟨a0, a1, a2⟩, -⟩ := idx_facts (pt b qi ki)
  rw [pt_val] at a0 a1
  show V c main_arg0 (((cfg1.win 0).blk (pt b qi ki)).view.emb (ix3 (0 : Fin 1) r d)) = V c main_arg0 (ix3 b (⟨qi.val * 512 + r.val, by omega⟩ : Fin 1024) d)
  refine congrArg (V c main_arg0) (funext fun a => Fin.ext ?_)
  match a with
  | ⟨0, _⟩ => show win1_0.index (pt b qi ki) (0 : Fin 3) * 1 + 1 * 0 = b.val; omega
  | ⟨1, _⟩ => show win1_0.index (pt b qi ki) (1 : Fin 3) * 512 + 1 * r.val = qi.val * 512 + r.val; omega
  | ⟨2, _⟩ => show win1_0.index (pt b qi ki) (2 : Fin 3) * 1024 + 1 * d.val = d.val; omega

/-- The weight window holds the whole weight matrix at every point. -/
theorem wq_block_at (c : Dev nD) (t : Fin cfg1.N) (d e : Fin 1024) :
    iblk V c 1 t (ix2 d e) = Wq V c (ix2 d e) := by
  obtain ⟨-, ⟨w0, w1⟩, -⟩ := idx_facts t
  show V c main_v0 (((cfg1.win 1).blk t).view.emb (ix2 d e)) = V c main_v0 (ix2 d e)
  refine congrArg (V c main_v0) (funext fun a => Fin.ext ?_)
  match a with
  | ⟨0, _⟩ => show win1_1.index t (0 : Fin 2) * 1024 + 1 * d.val = d.val; omega
  | ⟨1, _⟩ => show win1_1.index t (1 : Fin 2) * 1024 + 1 * e.val = e.val; omega

theorem wq_block (c : Dev nD) (b : Fin 8) (qi ki : Fin 2) (d e : Fin 1024) :
    iblk V c 1 (pt b qi ki) (ix2 d e) = Wq V c (ix2 d e) := wq_block_at V c (pt b qi ki) d e

/-- The key window at a point with ki ≤ qi: row r of the block is row 512 ki + r of batch b of the projected keys. -/
theorem key_block (c : Dev nD) (b : Fin 8) (qi ki : Fin 2) (hle : ki.val ≤ qi.val) (r : Fin 512) (e : Fin 1024) :
    iblk V c 2 (pt b qi ki) (ix3 (0 : Fin 1) r e) = Kp V c (ix3 b (⟨ki.val * 512 + r.val, by omega⟩ : Fin 1024) e) := by
  obtain ⟨-, -, ⟨k0, k1, -, k2⟩, -⟩ := idx_facts (pt b qi ki)
  have hne : (pt b qi ki).val % 4 ≠ 1 := by rw [pt_val]; omega
  have k1' := k1 hne
  rw [pt_val] at k0 k1'
  show V c main_v14 (((cfg1.win 2).blk (pt b qi ki)).view.emb (ix3 (0 : Fin 1) r e)) = V c main_v14 (ix3 b (⟨ki.val * 512 + r.val, by omega⟩ : Fin 1024) e)
  refine congrArg (V c main_v14) (funext fun a => Fin.ext ?_)
  match a with
  | ⟨0, _⟩ => show win1_2.index (pt b qi ki) (0 : Fin 3) * 1 + 1 * 0 = b.val; omega
  | ⟨1, _⟩ => show win1_2.index (pt b qi ki) (1 : Fin 3) * 512 + 1 * r.val = ki.val * 512 + r.val; omega
  | ⟨2, _⟩ => show win1_2.index (pt b qi ki) (2 : Fin 3) * 1024 + 1 * e.val = e.val; omega

/-- The value window at a point with ki ≤ qi: row r of the block is row 512 ki + r of batch b of the projected values. -/
theorem value_block (c : Dev nD) (b : Fin 8) (qi ki : Fin 2) (hle : ki.val ≤ qi.val) (r : Fin 512) (e : Fin 1024) :
    iblk V c 3 (pt b qi ki) (ix3 (0 : Fin 1) r e) = Vp V c (ix3 b (⟨ki.val * 512 + r.val, by omega⟩ : Fin 1024) e) := by
  obtain ⟨-, -, -, ⟨k0, k1, -, k2⟩, -⟩ := idx_facts (pt b qi ki)
  have hne : (pt b qi ki).val % 4 ≠ 1 := by rw [pt_val]; omega
  have k1' := k1 hne
  rw [pt_val] at k0 k1'
  show V c main_v17 (((cfg1.win 3).blk (pt b qi ki)).view.emb (ix3 (0 : Fin 1) r e)) = V c main_v17 (ix3 b (⟨ki.val * 512 + r.val, by omega⟩ : Fin 1024) e)
  refine congrArg (V c main_v17) (funext fun a => Fin.ext ?_)
  match a with
  | ⟨0, _⟩ => show win1_3.index (pt b qi ki) (0 : Fin 3) * 1 + 1 * 0 = b.val; omega
  | ⟨1, _⟩ => show win1_3.index (pt b qi ki) (1 : Fin 3) * 512 + 1 * r.val = ki.val * 512 + r.val; omega
  | ⟨2, _⟩ => show win1_3.index (pt b qi ki) (2 : Fin 3) * 1024 + 1 * e.val = e.val; omega

/-! ## The same with the row written as a low or a high half row -/

/-- Row tile 0: the query window holds the low half rows. -/
theorem query_block_lo (c : Dev nD) (b : Fin 8) (ki : Fin 2) (r : Fin 512) (e : Fin 1024) :
    iblk V c 0 (pt b (0 : Fin 2) ki) (ix3 (0 : Fin 1) r e) = Xq V c (ix3 b (lo r) e) :=
  (query_block V c b (0 : Fin 2) ki r e).trans (congrArg (fun x => Xq V c (ix3 b x e)) (Fin.ext (by
    show 0 * 512 + r.val = r.val; omega)))

/-- Row tile 1: the query window holds the high half rows. -/
theorem query_block_hi (c : Dev nD) (b : Fin 8) (ki : Fin 2) (r : Fin 512) (e : Fin 1024) :
    iblk V c 0 (pt b (1 : Fin 2) ki) (ix3 (0 : Fin 1) r e) = Xq V c (ix3 b (hi r) e) :=
  (query_block V c b (1 : Fin 2) ki r e).trans (congrArg (fun x => Xq V c (ix3 b x e)) (Fin.ext (by
    show 1 * 512 + r.val = 512 + r.val; omega)))

/-- Row tile 0, key block 0: the low half rows of the keys. -/
theorem key_block_00 (c : Dev nD) (b : Fin 8) (r : Fin 512) (e : Fin 1024) :
    iblk V c 2 (pt b (0 : Fin 2) (0 : Fin 2)) (ix3 (0 : Fin 1) r e) = Kp V c (ix3 b (lo r) e) :=
  (key_block V c b (0 : Fin 2) (0 : Fin 2) (Nat.le_refl _) r e).trans (congrArg (fun x => Kp V c (ix3 b x e)) (Fin.ext (by
    show 0 * 512 + r.val = r.val; omega)))

/-- Row tile 1, key block 0: the low half rows of the keys. -/
theorem key_block_10 (c : Dev nD) (b : Fin 8) (r : Fin 512) (e : Fin 1024) :
    iblk V c 2 (pt b (1 : Fin 2) (0 : Fin 2)) (ix3 (0 : Fin 1) r e) = Kp V c (ix3 b (lo r) e) :=
  (key_block V c b (1 : Fin 2) (0 : Fin 2) (by decide) r e).trans (congrArg (fun x => Kp V c (ix3 b x e)) (Fin.ext (by
    show 0 * 512 + r.val = r.val; omega)))

/-- Row tile 1, key block 1: the high half rows of the keys. -/
theorem key_block_11 (c : Dev nD) (b : Fin 8) (r : Fin 512) (e : Fin 1024) :
    iblk V c 2 (pt b (1 : Fin 2) (1 : Fin 2)) (ix3 (0 : Fin 1) r e) = Kp V c (ix3 b (hi r) e) :=
  (key_block V c b (1 : Fin 2) (1 : Fin 2) (Nat.le_refl _) r e).trans (congrArg (fun x => Kp V c (ix3 b x e)) (Fin.ext (by
    show 1 * 512 + r.val = 512 + r.val; omega)))

/-- Row tile 0, key block 0: the low half rows of the values. -/
theorem value_block_00 (c : Dev nD) (b : Fin 8) (r : Fin 512) (e : Fin 1024) :
    iblk V c 3 (pt b (0 : Fin 2) (0 : Fin 2)) (ix3 (0 : Fin 1) r e) = Vp V c (ix3 b (lo r) e) :=
  (value_block V c b (0 : Fin 2) (0 : Fin 2) (Nat.le_refl _) r e).trans (congrArg (fun x => Vp V c (ix3 b x e)) (Fin.ext (by
    show 0 * 512 + r.val = r.val; omega)))

/-- Row tile 1, key block 0: the low half rows of the values. -/
theorem value_block_10 (c : Dev nD) (b : Fin 8) (r : Fin 512) (e : Fin 1024) :
    iblk V c 3 (pt b (1 : Fin 2) (0 : Fin 2)) (ix3 (0 : Fin 1) r e) = Vp V c (ix3 b (lo r) e) :=
  (value_block V c b (1 : Fin 2) (0 : Fin 2) (by decide) r e).trans (congrArg (fun x => Vp V c (ix3 b x e)) (Fin.ext (by
    show 0 * 512 + r.val = r.val; omega)))

/-- Row tile 1, key block 1: the high half rows of the values. -/
theorem value_block_11 (c : Dev nD) (b : Fin 8) (r : Fin 512) (e : Fin 1024) :
    iblk V c 3 (pt b (1 : Fin 2) (1 : Fin 2)) (ix3 (0 : Fin 1) r e) = Vp V c (ix3 b (hi r) e) :=
  (value_block V c b (1 : Fin 2) (1 : Fin 2) (Nat.le_refl _) r e).trans (congrArg (fun x => Vp V c (ix3 b x e)) (Fin.ext (by
    show 1 * 512 + r.val = 512 + r.val; omega)))

end Cert.KernelIdeal.R1

end
-- ==== Proof.Region1Array.lean ====
import proofs.«141642_j28802050687501_2_alg».proof.Proof.Region1Dat
import Idealize.ShloMosaic.Lib.Pipeline.Value
import Idealize.ShloMosaic.Lib.ValueIdx
import proofs.«141642_j28802050687501_2_alg».proof.Proof.LibRowSplit

/-!
The attention region's result array, read at an index.  The result window's block at the
grid point `t = 4·b + 2·qi + ki` is rows `512·qi … 512·qi + 511` of batch `b`; it is written
back at the odd points only, and two odd points have different blocks.  So after the region
the array holds, at row `r` of row tile `qi` of batch `b`, what the odd point `4·b + 2·qi + 1`
stored at row `r` of its block.
-/

set_option maxRecDepth 16384

noncomputable section

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Lib.RowSplit (lo hi lo_val hi_val)

variable {F : FTy → Type} [FloatOps F] [Named F]

/-! ## The result window's blocks -/

/-- The result window's block index at the point `t`: batch `t / 4`, row tile `t / 2 % 2`. -/
theorem idx4 : ∀ t : Fin cfg1.N,
    win1_4.index t (0 : Fin 3) = t.val / 4 ∧ win1_4.index t (1 : Fin 3) = t.val / 2 % 2
      ∧ win1_4.index t (2 : Fin 3) = 0 :=
  (by decide +kernel : ∀ t : Fin grid1.N, _)

/-- Two odd points with one block index are one point. -/
theorem idx_inj4 (t t' : Fin cfg1.N) (ht : t.val % 2 = 1) (ht' : t'.val % 2 = 1)
    (h : win1_4.index t = win1_4.index t') : t = t' := by
  obtain ⟨a0, a1, -⟩ := idx4 t
  obtain ⟨b0, b1, -⟩ := idx4 t'
  have h0 := congrFun h (0 : Fin 3)
  have h1 := congrFun h (1 : Fin 3)
  apply Fin.ext
  omega

/-- The blocks of two different points that write back share no index. -/
theorem disjoint4 : ∀ t t' : Fin cfg1.N, (cfg1.win 4).flush t = true → (cfg1.win 4).flush t' = true → t ≠ t' →
    Disjoint ((cfg1.win 4).blk t).view.set ((cfg1.win 4).blk t').view.set :=
  fun t t' hf hf' hne => (cfg1.win 4).disjoint_blk fun h =>
    hne (idx_inj4 t t' ((flush1_4 t).1 hf) ((flush1_4 t').1 hf') h)

/-- The odd point of batch `b` and row tile `qi`. -/
def op (b : Fin 8) (qi : Fin 2) : Fin cfg1.N :=
  ⟨4 * b.val + 2 * qi.val + 1, by
    have hN : cfg1.N = 32 := N_1
    have hb := b.isLt
    have hq := qi.isLt
    omega⟩

theorem op_val (b : Fin 8) (qi : Fin 2) : (op b qi).val = 4 * b.val + 2 * qi.val + 1 := rfl

section
variable (V : (c : Dev nD) → (b : Ref sig .tc) → Buf (Elt F) ((c : Thread nD τ).loc b))

/-- Under an odd point's block the array after the region holds what that point stored. -/
theorem out_array_emb (c : Dev nD) (t : Fin cfg1.N) (ht : t.val % 2 = 1)
    (y : ((cfg1.win 4).xblock (grid1.coords t)).Idx) :
    (dat V c).arrAt 4 cfg1.N (((cfg1.win 4).blk t).view.emb y)
      = outAt V c t ((cfg1.win 4).xinj (grid1.coords t) y) := by
  rw [Dat.arrAt_emb_eq_flushed _ 4 disjoint4 t ((flush1_4 t).2 ht) y]
  refine (cast_eq _ _).trans ?_
  show (dat V c).after 4 t ((cfg1.win 4).xinj (grid1.coords t) y) = _
  rw [after_4]

end

/-- Row `r` of row tile `qi`, as a row of the array: `512·qi + r`. -/
def rowOf (qi : Fin 2) (r : Fin 512) : Fin 1024 :=
  ⟨512 * qi.val + r.val, by
    have hq := qi.isLt
    have hr := r.isLt
    omega⟩

theorem rowOf_val (qi : Fin 2) (r : Fin 512) : (rowOf qi r).val = 512 * qi.val + r.val := rfl

theorem rowOf_zero (r : Fin 512) : rowOf 0 r = lo r := Fin.ext (by
  rw [rowOf_val, lo_val]
  show 512 * 0 + r.val = r.val
  omega)

theorem rowOf_one (r : Fin 512) : rowOf 1 r = hi r := Fin.ext (by
  rw [rowOf_val, hi_val]
  show 512 * 1 + r.val = 512 + r.val
  omega)

/-- Where an index of the odd point's block sits in the array. -/
theorem emb_op (b : Fin 8) (qi : Fin 2) (r : Fin 512) (f : Fin 1024) :
    ((cfg1.win 4).blk (op b qi)).view.emb (ix3 (0 : Fin 1) r f) = ix3 b (rowOf qi r) f := by
  obtain ⟨a0, a1, a2⟩ := idx4 (op b qi)
  have hb := b.isLt
  have hq := qi.isLt
  funext a
  apply Fin.ext
  match a with
  | ⟨0, _⟩ =>
    show win1_4.index (op b qi) (0 : Fin 3) * 1 + 1 * 0 = b.val
    rw [a0, op_val]
    omega
  | ⟨1, _⟩ =>
    show win1_4.index (op b qi) (1 : Fin 3) * 512 + 1 * r.val = 512 * qi.val + r.val
    rw [a1, op_val]
    omega
  | ⟨2, _⟩ =>
    show win1_4.index (op b qi) (2 : Fin 3) * 1024 + 1 * f.val = f.val
    rw [a2]
    omega

section
variable (V : (c : Dev nD) → (b : Ref sig .tc) → Buf (Elt F) ((c : Thread nD τ).loc b))

/-- The result array after the region, at row `r` of row tile `qi` of batch `b`, is what the odd point of
    that batch and row tile stored at row `r` of its block. -/
theorem out_array_at (c : Dev nD) (b : Fin 8) (qi : Fin 2) (r : Fin 512) (f : Fin 1024) :
    (dat V c).arrAt 4 cfg1.N (ix3 b (rowOf qi r) f) = outAt V c (op b qi) (ix3 (0 : Fin 1) r f) := by
  have ht : (op b qi).val % 2 = 1 := by
    rw [op_val]
    omega
  have h := out_array_emb V c (op b qi) ht (ix3 (0 : Fin 1) r f)
  rw [emb_op] at h
  exact h

/-- A row of the first row tile. -/
theorem out_array_lo (c : Dev nD) (b : Fin 8) (r : Fin 512) (f : Fin 1024) :
    (dat V c).arrAt 4 cfg1.N (ix3 b (lo r) f) = outAt V c (op b 0) (ix3 (0 : Fin 1) r f) := by
  rw [← rowOf_zero]
  exact out_array_at V c b 0 r f

/-- A row of the second row tile. -/
theorem out_array_hi (c : Dev nD) (b : Fin 8) (r : Fin 512) (f : Fin 1024) :
    (dat V c).arrAt 4 cfg1.N (ix3 b (hi r) f) = outAt V c (op b 1) (ix3 (0 : Fin 1) r f) := by
  rw [← rowOf_one]
  exact out_array_at V c b 1 r f

end

end Cert.KernelIdeal.R1
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.FlashPayloads.lean ====
/-
  The flash-attention kernel's values, each read at one entry, over the extended reals. Tiles have 512 query rows and
  512 key columns, the feature width is 1024. The projected query tile is the input tile times the weight; the masked
  scores of a tile are the inner products of projected query rows with key rows times 1/32 where the global key position
  does not exceed the global query position, minus infinity elsewhere; the running maximum, the rescale factor, the
  unnormalised weights, the running denominator and numerator follow the usual online-softmax recurrences; the result is
  numerator over denominator.
-/
import proofs.«141642_j28802050687501_2_alg».proof.Proof.Gen.KernelIdeal.Skeleton
import proofs.«141642_j28802050687501_2_alg».proof.Proof.LibColumn
import Idealize.ShloMosaic.Lib.ValueIdx
import Idealize.ShloMosaic.Lib.Pipeline.Value
import Idealize.ShloMosaic.Lib.ValueLayout
import Idealize.ShloMosaic.Lib.WordArith
import Idealize.ShloMosaic.PureOps.Ideal.Laws
import Idealize.ShloMosaic.PureOps.IdealRules

noncomputable section

namespace Cert.KernelIdeal.R1V

open Cert.KernelIdeal Cert.KernelIdeal.Gen Idealize.ShloMosaic Idealize.SL.Sem Idealize.ShloMosaic.ValueIdx Idealize.ShloMosaic.ColumnForms
open scoped BigOperators

theorem dproj_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dproj_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem dproj_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem dproj_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- A 512 × 1024 tile times a 1024 × 1024 matrix, into zero, at an entry. -/
theorem matmul_proj_apply {φ₁ φ₂ : FTy} (A : FVec Ideal S512x1024 φ₁) (B : FVec Ideal S1024x1024 φ₂) (a : Fin 512) (b : Fin 1024) :
    matmul dot_S512x1024_S1024x1024_S512x1024_1_0_0_1_n_n none A B (constant (F := Ideal) S512x1024 .f32 0x00000000#32) (ix2 a b)
      = ∑ k : Fin 1024, A (ix2 a k) * B (ix2 k b) := by
  refine (Ideal.matmul_constant_zero_apply dot_S512x1024_S1024x1024_S512x1024_1_0_0_1_n_n none A B (ix2 a b)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 a b) ((contrEquiv1 dot_S512x1024_S1024x1024_S512x1024_1_0_0_1_n_n 1024 rfl rfl).symm k) = ix2 a k := funext fun x => Fin.ext (by
    match x with
    | ⟨0, _⟩ => exact dproj_lhs_0 _ _
    | ⟨1, _⟩ => exact (dproj_lhs_1 _ _).trans hk)
  have er : dot_S512x1024_S1024x1024_S512x1024_1_0_0_1_n_n.rhsIdx (ix2 a b) ((contrEquiv1 dot_S512x1024_S1024x1024_S512x1024_1_0_0_1_n_n 1024 rfl rfl).symm k) = ix2 k b := funext fun x => Fin.ext (by
    match x with
    | ⟨0, _⟩ => exact (dproj_rhs_0 _ _).trans hk
    | ⟨1, _⟩ => exact dproj_rhs_1 _ _)
  rw [el, er]

theorem dscore_lhs_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem dscore_lhs_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem dscore_rhs_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem dscore_rhs_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q
/-- A 512 × 1024 tile against the rows of another 512 × 1024 tile (both contracted on their last axis), into zero, at an entry. -/
theorem matmul_scores_apply {φ₁ φ₂ : FTy} (A : FVec Ideal S512x1024 φ₁) (B : FVec Ideal S512x1024 φ₂) (a : Fin 512) (b : Fin 512) :
    matmul dot_S512x1024_S512x1024_S512x512_1_1_0_0_n_n none A B (constant (F := Ideal) S512x512 .f32 0x00000000#32) (ix2 a b)
      = ∑ k : Fin 1024, A (ix2 a k) * B (ix2 b k) := by
  refine (Ideal.matmul_constant_zero_apply dot_S512x1024_S512x1024_S512x512_1_1_0_0_n_n none A B (ix2 a b)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 a b) ((contrEquiv1 dot_S512x1024_S512x1024_S512x512_1_1_0_0_n_n 1024 rfl rfl).symm k) = ix2 a k := funext fun x => Fin.ext (by
    match x with
    | ⟨0, _⟩ => exact dscore_lhs_0 _ _
    | ⟨1, _⟩ => exact (dscore_lhs_1 _ _).trans hk)
  have er : dot_S512x1024_S512x1024_S512x512_1_1_0_0_n_n.rhsIdx (ix2 a b) ((contrEquiv1 dot_S512x1024_S512x1024_S512x512_1_1_0_0_n_n 1024 rfl rfl).symm k) = ix2 b k := funext fun x => Fin.ext (by
    match x with
    | ⟨0, _⟩ => exact dscore_rhs_0 _ _
    | ⟨1, _⟩ => exact (dscore_rhs_1 _ _).trans hk)
  rw [el, er]

theorem dval_lhs_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem dval_lhs_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem dval_rhs_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
theorem dval_rhs_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
/-- A 512 × 512 tile times a 512 × 1024 tile, into zero, at an entry. -/
theorem matmul_values_apply {φ₁ φ₂ : FTy} (A : FVec Ideal S512x512 φ₁) (B : FVec Ideal S512x1024 φ₂) (a : Fin 512) (b : Fin 1024) :
    matmul dot_S512x512_S512x1024_S512x1024_1_0_0_1_n_n none A B (constant (F := Ideal) S512x1024 .f32 0x00000000#32) (ix2 a b)
      = ∑ k : Fin 512, A (ix2 a k) * B (ix2 k b) := by
  refine (Ideal.matmul_constant_zero_apply dot_S512x512_S512x1024_S512x1024_1_0_0_1_n_n none A B (ix2 a b)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 a b) ((contrEquiv1 dot_S512x512_S512x1024_S512x1024_1_0_0_1_n_n 512 rfl rfl).symm k) = ix2 a k := funext fun x => Fin.ext (by
    match x with
    | ⟨0, _⟩ => exact dval_lhs_0 _ _
    | ⟨1, _⟩ => exact (dval_lhs_1 _ _).trans hk)
  have er : dot_S512x512_S512x1024_S512x1024_1_0_0_1_n_n.rhsIdx (ix2 a b) ((contrEquiv1 dot_S512x512_S512x1024_S512x1024_1_0_0_1_n_n 512 rfl rfl).symm k) = ix2 k b := funext fun x => Fin.ext (by
    match x with
    | ⟨0, _⟩ => exact (dval_rhs_0 _ _).trans hk
    | ⟨1, _⟩ => exact dval_rhs_1 _ _)
  rw [el, er]

/-- Integer comparison and addition of vectors read at an index. -/
theorem cmpi_at {s : Shape} {w : Nat} (p : CmpIPredicate) (x y : IVec s w) (i : s.Idx) : cmpi p x y i = IntOp.cmpi p (x i) (y i) := rfl
theorem addi_at {s : Shape} {w : Nat} (x y : IVec s w) (i : s.Idx) : addi x y i = IntOp.addi (x i) (y i) := rfl

/-- The word of minus infinity. -/
theorem ninf_word : Ideal.ofBits .f32 0xFF800000#32 = (⊥ : EReal) := by
  simp [Ideal.ofBits, Ideal.ieee]

/-- The word of the float 1/32. -/
theorem inv32_word : Ideal.ofBits .f32 0x3D000000#32 = (((1 / 32 : ℝ)) : EReal) := by
  simp [Ideal.ofBits, Ideal.ieee]
  rw [← EReal.coe_mul]; norm_num

/-- The named large negative constant denotes minus infinity. -/
theorem neg_big : Named.named (F := Ideal) Cert.KernelIdeal.κ "neg_big" (φ := .f32) 0xF149F2CA#32 = (⊥ : EReal) :=
  IdealRules.named_const.ideal_named_scalar _ _ _ _ rfl

/-- The query projection: row r of the input tile against column e of the weight. -/
theorem pay4_apply (v25 : Vec Ideal S1x512x1024 .f32) (v28 : Vec Ideal S1024x1024 .bf16) (r : Fin 512) (e : Fin 1024) :
    k1_pay4 (F := Ideal) v25 v28 (ix2 r e) = ∑ d : Fin 1024, v25 (ix3 (0 : Fin 1) r d) * v28 (ix2 d e) := by
  unfold k1_pay4
  simp only [shapeCast_self, truncf_apply]
  refine (matmul_proj_apply (φ₁ := .bf16) (φ₂ := .bf16) _ _ r e).trans ?_
  refine Finset.sum_congr rfl fun d _ => ?_
  rw [truncf_apply, shapeCast_1ab_ab_apply]

/-- On tile coordinates below 512 and tile numbers below 2 the signed word comparison of the global column and row
    numbers is the comparison of the natural numbers. -/
theorem le_word (qi ki r c : Nat) (hq : qi < 2) (hk : ki < 2) (hr : r < 512) (hc : c < 512) :
    IntOp.cmpi .sle (IntOp.addi (BitVec.ofNat 32 c) (Scalar.muli (BitVec.ofNat 32 ki) 512#32))
        (IntOp.addi (BitVec.ofNat 32 r) (Scalar.muli (BitVec.ofNat 32 qi) 512#32))
      = if ki * 512 + c ≤ qi * 512 + r then 1#1 else 0#1 := by
  have e1 : IntOp.addi (BitVec.ofNat 32 c) (Scalar.muli (BitVec.ofNat 32 ki) 512#32) = BitVec.ofNat 32 (ki * 512 + c) := by
    show BitVec.ofNat 32 c + BitVec.ofNat 32 ki * BitVec.ofNat 32 512 = _
    rw [← BitVec.ofNat_mul, ← BitVec.ofNat_add, Nat.add_comm]
  have e2 : IntOp.addi (BitVec.ofNat 32 r) (Scalar.muli (BitVec.ofNat 32 qi) 512#32) = BitVec.ofNat 32 (qi * 512 + r) := by
    show BitVec.ofNat 32 r + BitVec.ofNat 32 qi * BitVec.ofNat 32 512 = _
    rw [← BitVec.ofNat_mul, ← BitVec.ofNat_add, Nat.add_comm]
  rw [e1, e2]
  unfold IntOp.cmpi
  simp only
  by_cases h : ki * 512 + c ≤ qi * 512 + r
  · rw [if_pos h]
    have hs : (BitVec.ofNat 32 (ki * 512 + c)).sle (BitVec.ofNat 32 (qi * 512 + r)) = true := by
      rw [BitVec.sle_iff_toInt_le, WordArith.toInt_ofNat_small _ (by omega), WordArith.toInt_ofNat_small _ (by omega)]
      exact_mod_cast h
    rw [hs]; rfl
  · rw [if_neg h]
    have hs : (BitVec.ofNat 32 (ki * 512 + c)).sle (BitVec.ofNat 32 (qi * 512 + r)) = false := by
      rw [Bool.eq_false_iff, Ne, BitVec.sle_iff_toInt_le, WordArith.toInt_ofNat_small _ (by omega), WordArith.toInt_ofNat_small _ (by omega)]
      exact_mod_cast h
    rw [hs]; rfl

/-- The masked scores of a tile: the scaled inner products where the global key position does not exceed the global
    query position, minus infinity elsewhere. -/
theorem pay9_apply (qi ki : Fin 2) (v13 : Vec Ideal S512x1024 .bf16) (v14 : Vec Ideal S1x512x1024 .bf16) (r c : Fin 512) :
    k1_pay9 (F := Ideal) (BitVec.ofNat 32 qi.val) (BitVec.ofNat 32 ki.val) v13 v14 (ix2 r c)
      = if ki.val * 512 + c.val ≤ qi.val * 512 + r.val
        then (∑ e : Fin 1024, v13 (ix2 r e) * v14 (ix3 (0 : Fin 1) c e)) * (((1 / 32 : ℝ)) : EReal) else ⊥ := by
  unfold k1_pay9
  simp only [select_apply, cmpi_at, addi_at, broadcast_apply, mulf_apply, iota_single_apply]
  have hi1 : iota Kind.tc S512x512 32 [1] iota_S512x512_d1_w32 (ix2 r c) = BitVec.ofNat 32 c.val :=
    iota_single_apply .tc S512x512 32 1 _ (ix2 r c)
  have hi0 : iota Kind.tc S512x512 32 [0] iota_S512x512_d0_w32 (ix2 r c) = BitVec.ofNat 32 r.val :=
    iota_single_apply .tc S512x512 32 0 _ (ix2 r c)
  have hm := matmul_scores_apply (φ₁ := .bf16) (φ₂ := .bf16) v13 (shapeCast S512x1024 v14 shapeCasts_S1x512x1024_S512x1024) r c
  rw [hi1, hi0, le_word qi.val ki.val r.val c.val qi.isLt ki.isLt r.isLt c.isLt, hm]
  simp only [Ideal.ofBits_def, inv32_word, neg_big]
  by_cases h : ki.val * 512 + c.val ≤ qi.val * 512 + r.val
  · rw [if_pos h, if_pos h, select_one]
    refine congrArg (· * _) (Finset.sum_congr rfl fun e _ => ?_)
    rw [shapeCast_1ab_ab_apply]
  · rw [if_neg h, if_neg h, select_zero]

/-- The running numerator: the rescaled old numerator plus the new weights against the value block. -/
theorem pay5_apply (v17 : FVec Ideal S512x1024 .bf16) (v37 : FVec Ideal S512x1 .f32) (v40 : FVec Ideal S512x512 .f32)
    (v49 : Vec Ideal S512x1024 .f32) (r : Fin 512) (f : Fin 1024) :
    k1_pay5 (F := Ideal) v17 v37 v40 v49 (ix2 r f)
      = v37 (ix2 r (0 : Fin 1)) * v49 (ix2 r f) + ∑ c : Fin 512, v40 (ix2 r c) * v17 (ix2 c f) := by
  unfold k1_pay5
  simp only [shapeCast_self, addf_apply, mulf_apply]
  have hb := broadcastTo_a1_ab_apply v37 broadcasts_S512x1_S512x1024 r f
  have hm := matmul_values_apply (φ₁ := .bf16) (φ₂ := .bf16) (truncf .bf16 v40 bitsLt_bf16_f32) v17 r f
  rw [hb, hm]
  refine congrArg (_ + ·) (Finset.sum_congr rfl fun c _ => ?_)
  rw [truncf_apply]

/-- The final quotient: numerator over the row's denominator. -/
theorem pay7_apply (v13 : Vec Ideal S512x1024 .f32) (v14 : Vec Ideal S512x1 .f32) (r : Fin 512) (f : Fin 1024) :
    k1_pay7 (F := Ideal) v13 v14 (ix3 (0 : Fin 1) r f) = Ideal.div (v13 (ix2 r f)) (v14 (ix2 r (0 : Fin 1))) := by
  unfold k1_pay7
  refine (shapeCast_ab_1ab_apply _ shapeCasts_S512x1024_S1x512x1024 (0 : Fin 1) r f).trans ?_
  have hb := broadcastTo_a1_ab_apply v14 broadcasts_S512x1_S512x1024 r f
  rw [divf_apply, hb]

/-- A lane maximum from minus infinity along the columns is the supremum over the columns. -/
theorem rowmax_reduce (src : FVec Ideal S512x512 .f32) (hφ : FKind.Formats .f32)
    (hacc : (0xFF800000#32 : BitVec 32) = FKind.maximumf.neutral .f32 hφ) (r : Fin 512) :
    multiReduction .maximumf [1] S512 src 0xFF800000#32 reduces_S512x512_S512 hφ hacc (ix1 r)
      = Finset.univ.sup (fun c : Fin 512 => src (ix2 r c)) := by
  refine (Ideal.multiReduction_maximumf_single src 0xFF800000#32 reduces_S512x512_S512 hφ hacc (ix1 r)).trans ?_
  have hf : (src ∘ reduces_S512x512_S512.lift (ix1 r)) = fun c : Fin 512 => src (ix2 r c) :=
    funext fun k => congrArg src (funext fun a => Fin.ext (by match a with | ⟨0, _⟩ => rfl | ⟨1, _⟩ => rfl))
  rw [hf]
  show (Finset.univ : Finset (Fin 512)).fold max (Ideal.ofBits .f32 0xFF800000#32) (fun c : Fin 512 => src (ix2 r c)) = _
  rw [ninf_word]
  rfl

/-- A lane sum along the columns is the sum over the columns. -/
theorem rowsum_reduce (src : FVec Ideal S512x512 .f32) (hφ : FKind.Formats .f32)
    (hacc : (0x00000000#32 : BitVec 32) = FKind.add.neutral .f32 hφ) (r : Fin 512) :
    multiReduction .add [1] S512 src 0x00000000#32 reduces_S512x512_S512 hφ hacc (ix1 r)
      = ∑ c : Fin 512, src (ix2 r c) := by
  refine (Ideal.multiReduction_add_single src 0x00000000#32 reduces_S512x512_S512 hφ hacc (ix1 r)).trans ?_
  refine Finset.sum_congr rfl fun k _ => ?_
  exact congrArg src (funext fun a => Fin.ext (by match a with | ⟨0, _⟩ => rfl | ⟨1, _⟩ => rfl))

/-- The running maximum: the old maximum against the tile's row maximum. -/
theorem pay10_apply (a1 a2 : BitVec 32) (v13 : Vec Ideal S512x1024 .bf16) (v14 : Vec Ideal S1x512x1024 .bf16) (v32 : Vec Ideal S512x1 .f32) (r : Fin 512) :
    k1_pay10 (F := Ideal) a1 a2 v13 v14 v32 (ix2 r (0 : Fin 1))
      = max (v32 (ix2 r (0 : Fin 1))) (Finset.univ.sup fun c : Fin 512 => k1_pay9 (F := Ideal) a1 a2 v13 v14 (ix2 r c)) := by
  unfold k1_pay10
  simp only [maximumf_apply]
  have hs := shapeCast_a_a1_apply (multiReduction .maximumf [1] S512 (k1_pay9 (F := Ideal) a1 a2 v13 v14) 0xFF800000#32 reduces_S512x512_S512 (.inl rfl) rfl) shapeCasts_S512_S512x1 r (0 : Fin 1)
  rw [hs]
  exact congrArg (max _) (rowmax_reduce _ _ _ r)

/-- The rescale factor of the old running sums. -/
theorem pay11_apply (a1 a2 : BitVec 32) (v13 : Vec Ideal S512x1024 .bf16) (v14 : Vec Ideal S1x512x1024 .bf16) (v32 : Vec Ideal S512x1 .f32) (r : Fin 512) :
    k1_pay11 (F := Ideal) a1 a2 v13 v14 v32 (ix2 r (0 : Fin 1))
      = Ideal.exp (v32 (ix2 r (0 : Fin 1)) - k1_pay10 (F := Ideal) a1 a2 v13 v14 v32 (ix2 r (0 : Fin 1))) := by
  unfold k1_pay11
  rfl

/-- The unnormalised weights of the tile. -/
theorem pay12_apply (a1 a2 : BitVec 32) (v13 : Vec Ideal S512x1024 .bf16) (v14 : Vec Ideal S1x512x1024 .bf16) (v32 : Vec Ideal S512x1 .f32) (r c : Fin 512) :
    k1_pay12 (F := Ideal) a1 a2 v13 v14 v32 (ix2 r c)
      = Ideal.exp (k1_pay9 (F := Ideal) a1 a2 v13 v14 (ix2 r c) - k1_pay10 (F := Ideal) a1 a2 v13 v14 v32 (ix2 r (0 : Fin 1))) := by
  unfold k1_pay12
  have hb := broadcastTo_a1_ab_apply (k1_pay10 (F := Ideal) a1 a2 v13 v14 v32) broadcasts_S512x1_S512x512 r c
  show Ideal.exp (k1_pay9 (F := Ideal) a1 a2 v13 v14 (ix2 r c) - broadcastTo S512x512 (k1_pay10 (F := Ideal) a1 a2 v13 v14 v32) broadcasts_S512x1_S512x512 (ix2 r c)) = _
  rw [hb]

/-- The running denominator: the rescaled old denominator plus the tile's weights summed along the row. -/
theorem pay13_apply (a1 a2 : BitVec 32) (v13 : Vec Ideal S512x1024 .bf16) (v14 : Vec Ideal S1x512x1024 .bf16) (v32 v41 : Vec Ideal S512x1 .f32) (r : Fin 512) :
    k1_pay13 (F := Ideal) a1 a2 v13 v14 v32 v41 (ix2 r (0 : Fin 1))
      = k1_pay11 (F := Ideal) a1 a2 v13 v14 v32 (ix2 r (0 : Fin 1)) * v41 (ix2 r (0 : Fin 1))
        + ∑ c : Fin 512, k1_pay12 (F := Ideal) a1 a2 v13 v14 v32 (ix2 r c) := by
  unfold k1_pay13
  simp only [shapeCast_self, addf_apply, mulf_apply]
  have hs := shapeCast_a_a1_apply (multiReduction .add [1] S512 (k1_pay12 (F := Ideal) a1 a2 v13 v14 v32) 0x00000000#32 reduces_S512x512_S512 (.inl rfl) rfl) shapeCasts_S512_S512x1 r (0 : Fin 1)
  rw [hs]
  exact congrArg (_ + ·) (rowsum_reduce _ _ _ r)

/-- The initial running maximum is minus infinity. -/
theorem pay1_apply (r : Fin 512) : k1_pay1 (F := Ideal) (ix2 r (0 : Fin 1)) = (⊥ : EReal) := by
  unfold k1_pay1
  simp only [shapeCast_self, broadcast_apply]
  exact ninf_word

/-- The initial running denominator is zero. -/
theorem pay2_apply (r : Fin 512) : k1_pay2 (F := Ideal) (ix2 r (0 : Fin 1)) = (0 : EReal) := by
  unfold k1_pay2
  simp only [shapeCast_self, broadcast_apply]
  exact Ideal.ofBits_zero_f32

/-- The initial running numerator is zero. -/
theorem pay3_apply (r : Fin 512) (f : Fin 1024) : k1_pay3 (F := Ideal) (ix2 r f) = (0 : EReal) := by
  unfold k1_pay3
  simp only [shapeCast_self, broadcast_apply]
  exact Ideal.ofBits_zero_f32

/-- Storing the running maximum back changes nothing. -/
theorem pay6_eq (v35 : FVec Ideal S512x1 .f32) : k1_pay6 (F := Ideal) v35 = v35 := by
  unfold k1_pay6
  exact shapeCast_self _ _

/-- The value block with its unit axis dropped. -/
theorem pay8_apply (v16 : Vec Ideal S1x512x1024 .bf16) (c : Fin 512) (f : Fin 1024) :
    k1_pay8 (F := Ideal) v16 (ix2 c f) = v16 (ix3 (0 : Fin 1) c f) := by
  unfold k1_pay8
  exact shapeCast_1ab_ab_apply _ _ c f

end Cert.KernelIdeal.R1V

end
-- ==== Proof.Bridge.lean ====
import proofs.«141642_j28802050687501_2_alg».proof.Proof.RefAttention
import proofs.«141642_j28802050687501_2_alg».proof.Proof.LibRowSplit
import Idealize.ShloMosaic.PureOps.Ideal

/-!
# One row of the streaming softmax over projected tiles is causal attention at that row

Mathematics on the extended reals.  Causal softmax attention at batch `b`, query row `R`,
feature `f` weighs the projected value rows `c ≤ R` by the softmax of the scaled scores of
row `R`; the columns `c > R` carry the score `⊥`.  The rows are cut into two tiles of 512
and so are the columns.  For a row of the first tile every column of the second block is
masked, and the streaming evaluation of the first block alone already is the attention;
for a row of the second tile the first block is entirely visible, the second up to the
diagonal, and the streaming evaluation over both blocks is the attention.  All inputs are
finite, hence so are the projections and the scores.
-/

noncomputable section

namespace Cert.Bridge

open Idealize.ShloMosaic Idealize.ShloMosaic.ValueIdx
open Cert.ReferenceIdeal (S8x1024x1024 S1024x1024)
open Cert.RefValue Cert.Lib.RowSplit
open scoped BigOperators

/-! ### Finiteness of the projections and the scores -/

/-- A projection of finite inputs by finite weights is finite. -/
theorem proj_ne (x : S8x1024x1024.Idx → EReal) (w : S1024x1024.Idx → EReal)
    (hx : ∀ i, x i ≠ ⊤ ∧ x i ≠ ⊥) (hw : ∀ i, w i ≠ ⊤ ∧ w i ≠ ⊥) (b : Fin 8) (r e : Fin 1024) :
    proj x w b r e ≠ ⊤ ∧ proj x w b r e ≠ ⊥ :=
  sum_mul_ne (fun d : Fin 1024 => x (ix3 b r d)) (fun d : Fin 1024 => w (ix2 d e))
    (fun _ => hx _) (fun _ => hw _)

/-- A scaled score of finite inputs is finite. -/
theorem score_ne (x0 x1 : S8x1024x1024.Idx → EReal) (x3 x4 : S1024x1024.Idx → EReal)
    (h0 : ∀ i, x0 i ≠ ⊤ ∧ x0 i ≠ ⊥) (h1 : ∀ i, x1 i ≠ ⊤ ∧ x1 i ≠ ⊥)
    (h3 : ∀ i, x3 i ≠ ⊤ ∧ x3 i ≠ ⊥) (h4 : ∀ i, x4 i ≠ ⊤ ∧ x4 i ≠ ⊥) (b : Fin 8) (r c : Fin 1024) :
    score x0 x1 x3 x4 b r c ≠ ⊤ ∧ score x0 x1 x3 x4 b r c ≠ ⊥ :=
  mul_coe_ne
    (sum_mul_ne (fun e : Fin 1024 => proj x0 x3 b r e) (fun e : Fin 1024 => proj x1 x4 b c e)
      (fun e => proj_ne x0 x3 h0 h3 b r e) (fun e => proj_ne x1 x4 h1 h4 b c e))
    (1 / 32)

/-- A masked score is never `⊤`. -/
theorem masked_ne_top (x0 x1 : S8x1024x1024.Idx → EReal) (x3 x4 : S1024x1024.Idx → EReal)
    (h0 : ∀ i, x0 i ≠ ⊤ ∧ x0 i ≠ ⊥) (h1 : ∀ i, x1 i ≠ ⊤ ∧ x1 i ≠ ⊥)
    (h3 : ∀ i, x3 i ≠ ⊤ ∧ x3 i ≠ ⊥) (h4 : ∀ i, x4 i ≠ ⊤ ∧ x4 i ≠ ⊥) (b : Fin 8) (r c : Fin 1024) :
    masked x0 x1 x3 x4 b r c ≠ ⊤ :=
  add_ite_ne_top (score_ne x0 x1 x3 x4 h0 h1 h3 h4 b r c).1 _

/-- On or below the diagonal the masked score is the score. -/
theorem masked_of_le (x0 x1 : S8x1024x1024.Idx → EReal) (x3 x4 : S1024x1024.Idx → EReal)
    (b : Fin 8) (r c : Fin 1024) (h : c.val ≤ r.val) :
    masked x0 x1 x3 x4 b r c = score x0 x1 x3 x4 b r c :=
  add_ite_of_pos _ h

/-- Above the diagonal the masked score is `⊥`. -/
theorem masked_of_not_le (x0 x1 : S8x1024x1024.Idx → EReal) (x3 x4 : S1024x1024.Idx → EReal)
    (b : Fin 8) (r c : Fin 1024) (h : ¬ c.val ≤ r.val) :
    masked x0 x1 x3 x4 b r c = ⊥ :=
  add_ite_of_neg _ h

/-- The diagonal entry of a row is unmasked and finite. -/
theorem masked_ne_bot_of_le (x0 x1 : S8x1024x1024.Idx → EReal) (x3 x4 : S1024x1024.Idx → EReal)
    (h0 : ∀ i, x0 i ≠ ⊤ ∧ x0 i ≠ ⊥) (h1 : ∀ i, x1 i ≠ ⊤ ∧ x1 i ≠ ⊥)
    (h3 : ∀ i, x3 i ≠ ⊤ ∧ x3 i ≠ ⊥) (h4 : ∀ i, x4 i ≠ ⊤ ∧ x4 i ≠ ⊥) (b : Fin 8) (r c : Fin 1024)
    (h : c.val ≤ r.val) : masked x0 x1 x3 x4 b r c ≠ ⊥ := by
  rw [masked_of_le x0 x1 x3 x4 b r c h]
  exact (score_ne x0 x1 x3 x4 h0 h1 h3 h4 b r c).2

/-- A score selected by a test equivalent to `c ≤ r`, with `⊥` otherwise, is the masked score. -/
theorem select_eq_masked (x0 x1 : S8x1024x1024.Idx → EReal) (x3 x4 : S1024x1024.Idx → EReal)
    (b : Fin 8) (r c : Fin 1024) (p : Prop) [Decidable p] (hp : p ↔ c.val ≤ r.val) :
    (if p then (∑ e : Fin 1024, proj x0 x3 b r e * proj x1 x4 b c e) * ((1 / 32 : ℝ) : EReal) else ⊥)
      = masked x0 x1 x3 x4 b r c := by
  by_cases h : c.val ≤ r.val
  · rw [if_pos (hp.2 h), masked_of_le x0 x1 x3 x4 b r c h]
    rfl
  · rw [if_neg (fun hp' => h (hp.1 hp')), masked_of_not_le x0 x1 x3 x4 b r c h]

/-! ### The two row theorems -/

/-- **A row of the first tile.**  The streaming evaluation of the first column block alone,
    started from `m₀ = ⊥`, `l₀ = 0`, `a₀ = 0`, divided out, is the attention at row `lo r`. -/
theorem first_tile_row (x0 x1 x2 : S8x1024x1024.Idx → EReal) (x3 x4 x5 : S1024x1024.Idx → EReal)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (h4 : ∀ i, x4 i ≠ ⊤ ∧ x4 i ≠ ⊥) (h5 : ∀ i, x5 i ≠ ⊤ ∧ x5 i ≠ ⊥)
    (b : Fin 8) (r : Fin 512) (f : Fin 1024)
    (S : Fin 512 → EReal)
    (hS : ∀ c : Fin 512, S c = if 0 * 512 + c.val ≤ 0 * 512 + r.val
        then (∑ e : Fin 1024, proj x0 x3 b (lo r) e * proj x1 x4 b (lo c) e) * ((1 / 32 : ℝ) : EReal)
        else ⊥)
    (Vf : Fin 512 → EReal) (hV : ∀ c, Vf c = proj x2 x5 b (lo c) f)
    (m₀ l₀ a₀ m₁ l₁ a₁ : EReal) (hm₀ : m₀ = ⊥) (hl₀ : l₀ = 0) (ha₀ : a₀ = 0)
    (hm₁ : m₁ = max m₀ (Finset.univ.sup S))
    (hl₁ : l₁ = Ideal.exp (m₀ - m₁) * l₀ + ∑ c, Ideal.exp (S c - m₁))
    (ha₁ : a₁ = Ideal.exp (m₀ - m₁) * a₀ + ∑ c, Ideal.exp (S c - m₁) * Vf c) :
    Ideal.div a₁ l₁ = attnAt x0 x1 x2 x3 x4 x5 b (lo r) f := by
  have hSeq : S = fun c : Fin 512 => masked x0 x1 x3 x4 b (lo r) (lo c) := funext fun c =>
    (hS c).trans (select_eq_masked x0 x1 x3 x4 b (lo r) (lo c) _ (by simp only [lo_val] <;> omega))
  have hVeq : Vf = fun c : Fin 512 => proj x2 x5 b (lo c) f := funext hV
  subst hSeq hVeq
  rw [ha₁, hl₁]
  exact row_one_block' (fun c : Fin 1024 => masked x0 x1 x3 x4 b (lo r) c)
    (fun c : Fin 1024 => proj x2 x5 b c f)
    (fun c => masked_ne_top x0 x1 x3 x4 h0 h1 h3 h4 b (lo r) c)
    ⟨r, masked_ne_bot_of_le x0 x1 x3 x4 h0 h1 h3 h4 b (lo r) (lo r) le_rfl⟩
    (fun c => proj_ne x2 x5 h2 h5 b c f)
    (fun c => masked_of_not_le x0 x1 x3 x4 b (lo r) (hi c) (by
      have := r.isLt
      simp only [lo_val, hi_val] <;> omega))
    m₀ l₀ a₀ hm₀ hl₀ ha₀ m₁ hm₁

/-- **A row of the second tile.**  The streaming evaluation over the first then the second
    column block, started from `m₀ = ⊥`, `l₀ = 0`, `a₀ = 0`, divided out, is the attention at
    row `hi r`. -/
theorem second_tile_row (x0 x1 x2 : S8x1024x1024.Idx → EReal) (x3 x4 x5 : S1024x1024.Idx → EReal)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (h4 : ∀ i, x4 i ≠ ⊤ ∧ x4 i ≠ ⊥) (h5 : ∀ i, x5 i ≠ ⊤ ∧ x5 i ≠ ⊥)
    (b : Fin 8) (r : Fin 512) (f : Fin 1024)
    (S0 S1 : Fin 512 → EReal)
    (hS0 : ∀ c : Fin 512, S0 c = if 0 * 512 + c.val ≤ 1 * 512 + r.val
        then (∑ e : Fin 1024, proj x0 x3 b (hi r) e * proj x1 x4 b (lo c) e) * ((1 / 32 : ℝ) : EReal)
        else ⊥)
    (hS1 : ∀ c : Fin 512, S1 c = if 1 * 512 + c.val ≤ 1 * 512 + r.val
        then (∑ e : Fin 1024, proj x0 x3 b (hi r) e * proj x1 x4 b (hi c) e) * ((1 / 32 : ℝ) : EReal)
        else ⊥)
    (V0 V1 : Fin 512 → EReal) (hV0 : ∀ c, V0 c = proj x2 x5 b (lo c) f)
    (hV1 : ∀ c, V1 c = proj x2 x5 b (hi c) f)
    (m₀ l₀ a₀ m₁ l₁ a₁ m₂ l₂ a₂ : EReal) (hm₀ : m₀ = ⊥) (hl₀ : l₀ = 0) (ha₀ : a₀ = 0)
    (hm₁ : m₁ = max m₀ (Finset.univ.sup S0))
    (hl₁ : l₁ = Ideal.exp (m₀ - m₁) * l₀ + ∑ c, Ideal.exp (S0 c - m₁))
    (ha₁ : a₁ = Ideal.exp (m₀ - m₁) * a₀ + ∑ c, Ideal.exp (S0 c - m₁) * V0 c)
    (hm₂ : m₂ = max m₁ (Finset.univ.sup S1))
    (hl₂ : l₂ = Ideal.exp (m₁ - m₂) * l₁ + ∑ c, Ideal.exp (S1 c - m₂))
    (ha₂ : a₂ = Ideal.exp (m₁ - m₂) * a₁ + ∑ c, Ideal.exp (S1 c - m₂) * V1 c) :
    Ideal.div a₂ l₂ = attnAt x0 x1 x2 x3 x4 x5 b (hi r) f := by
  have hS0eq : S0 = fun c : Fin 512 => masked x0 x1 x3 x4 b (hi r) (lo c) := funext fun c =>
    (hS0 c).trans (select_eq_masked x0 x1 x3 x4 b (hi r) (lo c) _ (by
      have := c.isLt
      simp only [lo_val, hi_val] <;> omega))
  have hS1eq : S1 = fun c : Fin 512 => masked x0 x1 x3 x4 b (hi r) (hi c) := funext fun c =>
    (hS1 c).trans (select_eq_masked x0 x1 x3 x4 b (hi r) (hi c) _ (by
      simp only [hi_val] <;> omega))
  have hV0eq : V0 = fun c : Fin 512 => proj x2 x5 b (lo c) f := funext hV0
  have hV1eq : V1 = fun c : Fin 512 => proj x2 x5 b (hi c) f := funext hV1
  subst hS0eq hS1eq hV0eq hV1eq
  rw [ha₂, hl₂, ha₁, hl₁]
  exact row_two_blocks' (fun c : Fin 1024 => masked x0 x1 x3 x4 b (hi r) c)
    (fun c : Fin 1024 => proj x2 x5 b c f)
    (fun c => masked_ne_top x0 x1 x3 x4 h0 h1 h3 h4 b (hi r) c)
    ⟨r, masked_ne_bot_of_le x0 x1 x3 x4 h0 h1 h3 h4 b (hi r) (lo r) (by
      simp only [lo_val, hi_val] <;> omega)⟩
    (fun c => proj_ne x2 x5 h2 h5 b c f)
    m₀ l₀ a₀ hm₀ hl₀ ha₀ m₁ m₂ hm₁ hm₂

/-! ### The same with the normaliser's block sums carrying an initial `0` -/

/-- `first_tile_row` with the block sum of the normaliser written `0 + ∑`. -/
theorem first_tile_row_zero_add (x0 x1 x2 : S8x1024x1024.Idx → EReal) (x3 x4 x5 : S1024x1024.Idx → EReal)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (h4 : ∀ i, x4 i ≠ ⊤ ∧ x4 i ≠ ⊥) (h5 : ∀ i, x5 i ≠ ⊤ ∧ x5 i ≠ ⊥)
    (b : Fin 8) (r : Fin 512) (f : Fin 1024)
    (S : Fin 512 → EReal)
    (hS : ∀ c : Fin 512, S c = if 0 * 512 + c.val ≤ 0 * 512 + r.val
        then (∑ e : Fin 1024, proj x0 x3 b (lo r) e * proj x1 x4 b (lo c) e) * ((1 / 32 : ℝ) : EReal)
        else ⊥)
    (Vf : Fin 512 → EReal) (hV : ∀ c, Vf c = proj x2 x5 b (lo c) f)
    (m₀ l₀ a₀ m₁ l₁ a₁ : EReal) (hm₀ : m₀ = ⊥) (hl₀ : l₀ = 0) (ha₀ : a₀ = 0)
    (hm₁ : m₁ = max m₀ (Finset.univ.sup S))
    (hl₁ : l₁ = Ideal.exp (m₀ - m₁) * l₀ + (0 + ∑ c, Ideal.exp (S c - m₁)))
    (ha₁ : a₁ = Ideal.exp (m₀ - m₁) * a₀ + ∑ c, Ideal.exp (S c - m₁) * Vf c) :
    Ideal.div a₁ l₁ = attnAt x0 x1 x2 x3 x4 x5 b (lo r) f :=
  first_tile_row x0 x1 x2 x3 x4 x5 h0 h1 h2 h3 h4 h5 b r f S hS Vf hV m₀ l₀ a₀ m₁ l₁ a₁ hm₀ hl₀ ha₀
    hm₁ (by rw [hl₁, zero_add]) ha₁

/-- `first_tile_row` with the block sum of the normaliser written `∑ + 0`. -/
theorem first_tile_row_add_zero (x0 x1 x2 : S8x1024x1024.Idx → EReal) (x3 x4 x5 : S1024x1024.Idx → EReal)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (h4 : ∀ i, x4 i ≠ ⊤ ∧ x4 i ≠ ⊥) (h5 : ∀ i, x5 i ≠ ⊤ ∧ x5 i ≠ ⊥)
    (b : Fin 8) (r : Fin 512) (f : Fin 1024)
    (S : Fin 512 → EReal)
    (hS : ∀ c : Fin 512, S c = if 0 * 512 + c.val ≤ 0 * 512 + r.val
        then (∑ e : Fin 1024, proj x0 x3 b (lo r) e * proj x1 x4 b (lo c) e) * ((1 / 32 : ℝ) : EReal)
        else ⊥)
    (Vf : Fin 512 → EReal) (hV : ∀ c, Vf c = proj x2 x5 b (lo c) f)
    (m₀ l₀ a₀ m₁ l₁ a₁ : EReal) (hm₀ : m₀ = ⊥) (hl₀ : l₀ = 0) (ha₀ : a₀ = 0)
    (hm₁ : m₁ = max m₀ (Finset.univ.sup S))
    (hl₁ : l₁ = Ideal.exp (m₀ - m₁) * l₀ + ((∑ c, Ideal.exp (S c - m₁)) + 0))
    (ha₁ : a₁ = Ideal.exp (m₀ - m₁) * a₀ + ∑ c, Ideal.exp (S c - m₁) * Vf c) :
    Ideal.div a₁ l₁ = attnAt x0 x1 x2 x3 x4 x5 b (lo r) f :=
  first_tile_row x0 x1 x2 x3 x4 x5 h0 h1 h2 h3 h4 h5 b r f S hS Vf hV m₀ l₀ a₀ m₁ l₁ a₁ hm₀ hl₀ ha₀
    hm₁ (by rw [hl₁, add_zero]) ha₁

/-- `second_tile_row` with the block sums of the normaliser written `0 + ∑`. -/
theorem second_tile_row_zero_add (x0 x1 x2 : S8x1024x1024.Idx → EReal) (x3 x4 x5 : S1024x1024.Idx → EReal)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (h4 : ∀ i, x4 i ≠ ⊤ ∧ x4 i ≠ ⊥) (h5 : ∀ i, x5 i ≠ ⊤ ∧ x5 i ≠ ⊥)
    (b : Fin 8) (r : Fin 512) (f : Fin 1024)
    (S0 S1 : Fin 512 → EReal)
    (hS0 : ∀ c : Fin 512, S0 c = if 0 * 512 + c.val ≤ 1 * 512 + r.val
        then (∑ e : Fin 1024, proj x0 x3 b (hi r) e * proj x1 x4 b (lo c) e) * ((1 / 32 : ℝ) : EReal)
        else ⊥)
    (hS1 : ∀ c : Fin 512, S1 c = if 1 * 512 + c.val ≤ 1 * 512 + r.val
        then (∑ e : Fin 1024, proj x0 x3 b (hi r) e * proj x1 x4 b (hi c) e) * ((1 / 32 : ℝ) : EReal)
        else ⊥)
    (V0 V1 : Fin 512 → EReal) (hV0 : ∀ c, V0 c = proj x2 x5 b (lo c) f)
    (hV1 : ∀ c, V1 c = proj x2 x5 b (hi c) f)
    (m₀ l₀ a₀ m₁ l₁ a₁ m₂ l₂ a₂ : EReal) (hm₀ : m₀ = ⊥) (hl₀ : l₀ = 0) (ha₀ : a₀ = 0)
    (hm₁ : m₁ = max m₀ (Finset.univ.sup S0))
    (hl₁ : l₁ = Ideal.exp (m₀ - m₁) * l₀ + (0 + ∑ c, Ideal.exp (S0 c - m₁)))
    (ha₁ : a₁ = Ideal.exp (m₀ - m₁) * a₀ + ∑ c, Ideal.exp (S0 c - m₁) * V0 c)
    (hm₂ : m₂ = max m₁ (Finset.univ.sup S1))
    (hl₂ : l₂ = Ideal.exp (m₁ - m₂) * l₁ + (0 + ∑ c, Ideal.exp (S1 c - m₂)))
    (ha₂ : a₂ = Ideal.exp (m₁ - m₂) * a₁ + ∑ c, Ideal.exp (S1 c - m₂) * V1 c) :
    Ideal.div a₂ l₂ = attnAt x0 x1 x2 x3 x4 x5 b (hi r) f :=
  second_tile_row x0 x1 x2 x3 x4 x5 h0 h1 h2 h3 h4 h5 b r f S0 S1 hS0 hS1 V0 V1 hV0 hV1
    m₀ l₀ a₀ m₁ l₁ a₁ m₂ l₂ a₂ hm₀ hl₀ ha₀ hm₁ (by rw [hl₁, zero_add]) ha₁ hm₂
    (by rw [hl₂, zero_add]) ha₂

/-- `second_tile_row` with the block sums of the normaliser written `∑ + 0`. -/
theorem second_tile_row_add_zero (x0 x1 x2 : S8x1024x1024.Idx → EReal) (x3 x4 x5 : S1024x1024.Idx → EReal)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, x3 i ≠ ⊤ ∧ x3 i ≠ ⊥) (h4 : ∀ i, x4 i ≠ ⊤ ∧ x4 i ≠ ⊥) (h5 : ∀ i, x5 i ≠ ⊤ ∧ x5 i ≠ ⊥)
    (b : Fin 8) (r : Fin 512) (f : Fin 1024)
    (S0 S1 : Fin 512 → EReal)
    (hS0 : ∀ c : Fin 512, S0 c = if 0 * 512 + c.val ≤ 1 * 512 + r.val
        then (∑ e : Fin 1024, proj x0 x3 b (hi r) e * proj x1 x4 b (lo c) e) * ((1 / 32 : ℝ) : EReal)
        else ⊥)
    (hS1 : ∀ c : Fin 512, S1 c = if 1 * 512 + c.val ≤ 1 * 512 + r.val
        then (∑ e : Fin 1024, proj x0 x3 b (hi r) e * proj x1 x4 b (hi c) e) * ((1 / 32 : ℝ) : EReal)
        else ⊥)
    (V0 V1 : Fin 512 → EReal) (hV0 : ∀ c, V0 c = proj x2 x5 b (lo c) f)
    (hV1 : ∀ c, V1 c = proj x2 x5 b (hi c) f)
    (m₀ l₀ a₀ m₁ l₁ a₁ m₂ l₂ a₂ : EReal) (hm₀ : m₀ = ⊥) (hl₀ : l₀ = 0) (ha₀ : a₀ = 0)
    (hm₁ : m₁ = max m₀ (Finset.univ.sup S0))
    (hl₁ : l₁ = Ideal.exp (m₀ - m₁) * l₀ + ((∑ c, Ideal.exp (S0 c - m₁)) + 0))
    (ha₁ : a₁ = Ideal.exp (m₀ - m₁) * a₀ + ∑ c, Ideal.exp (S0 c - m₁) * V0 c)
    (hm₂ : m₂ = max m₁ (Finset.univ.sup S1))
    (hl₂ : l₂ = Ideal.exp (m₁ - m₂) * l₁ + ((∑ c, Ideal.exp (S1 c - m₂)) + 0))
    (ha₂ : a₂ = Ideal.exp (m₁ - m₂) * a₁ + ∑ c, Ideal.exp (S1 c - m₂) * V1 c) :
    Ideal.div a₂ l₂ = attnAt x0 x1 x2 x3 x4 x5 b (hi r) f :=
  second_tile_row x0 x1 x2 x3 x4 x5 h0 h1 h2 h3 h4 h5 b r f S0 S1 hS0 hS1 V0 V1 hV0 hV1
    m₀ l₀ a₀ m₁ l₁ a₁ m₂ l₂ a₂ hm₀ hl₀ ha₀ hm₁ (by rw [hl₁, add_zero]) ha₁ hm₂
    (by rw [hl₂, add_zero]) ha₂

end Cert.Bridge
-- ==== Proof.AttentionValue.lean ====
/-
  The attention region's result array is the reference's attention function of the six arguments.
  Row tile by row tile: an entry of the result is the quotient the tile's odd grid point stored; numerator and
  denominator are what the online softmax accumulated over the key blocks below the causal diagonal — one block for
  the upper row tile, two for the lower —, from the projected query rows, the projected keys and the projected values;
  and the online softmax over those blocks is the plain softmax over the whole row, because every score and value is a
  finite real and the masked scores are minus infinity.
-/
import proofs.«141642_j28802050687501_2_alg».proof.Proof.LaunchValues
import proofs.«141642_j28802050687501_2_alg».proof.Proof.Region1Pieces
import proofs.«141642_j28802050687501_2_alg».proof.Proof.Region1Blocks
import proofs.«141642_j28802050687501_2_alg».proof.Proof.Region1Array
import proofs.«141642_j28802050687501_2_alg».proof.Proof.FlashPayloads
import proofs.«141642_j28802050687501_2_alg».proof.Proof.Bridge

set_option maxRecDepth 16384

noncomputable section

namespace Cert.KernelIdeal.AttnValue

open Cert.KernelIdeal Cert.KernelIdeal.Gen Cert.KernelIdeal.R1 Cert.KernelIdeal.R1V Cert.KernelIdeal.Run
open Cert.RefValue Cert.Lib.RowSplit Cert.Bridge
open Idealize.ShloMosaic Idealize.ShloMosaic.TcCoe Idealize.ShloMosaic.ValueIdx Idealize.SL Idealize.SL.Sem

variable (m : (ℓ : Loc nD τ sig) → Buf (Elt Ideal) ℓ) (ρ : Dev nD → PrngReg) (c : Dev nD)

/-! ## The attention region's input arrays at its entry -/

/-- The query operand is the query argument; the query weights are the weight argument. -/
theorem Xq_eq : Xq (V3 m ρ) c = arg0 m c := V3_arg0_eq m ρ c
theorem Wq_eq : Wq (V3 m ρ) c = arg3 m c := V3_v0_eq m ρ c
/-- The key and value operands are the key and value arguments times their weights. -/
theorem Kp_eq (b : Fin 8) (R e : Fin 1024) : Kp (V3 m ρ) c (ix3 b R e) = proj (arg1 m c) (arg4 m c) b R e := kproj_eq m ρ c b R e
theorem Vp_eq (b : Fin 8) (R e : Fin 1024) : Vp (V3 m ρ) c (ix3 b R e) = proj (arg2 m c) (arg5 m c) b R e := vproj_eq m ρ c b R e

/-! ## The projected query tile -/

/-- The query tile the body projects at a point of the upper row tile: rows 0 … 511 of the projected queries. -/
theorem Q_lo (b : Fin 8) (ki : Fin 2) (r : Fin 512) (e : Fin 1024) :
    k1_pay4 (F := Ideal) (iblk (V3 m ρ) c 0 (pt b 0 ki)) (iblk (V3 m ρ) c 1 (pt b 0 ki)) (ix2 r e)
      = proj (arg0 m c) (arg3 m c) b (lo r) e := by
  refine (pay4_apply _ _ r e).trans ?_
  unfold proj
  refine Finset.sum_congr rfl fun d _ => ?_
  rw [query_block_lo (V3 m ρ) c b ki r d, wq_block (V3 m ρ) c b 0 ki d e, Xq_eq, Wq_eq]

/-- At a point of the lower row tile: rows 512 … 1023. -/
theorem Q_hi (b : Fin 8) (ki : Fin 2) (r : Fin 512) (e : Fin 1024) :
    k1_pay4 (F := Ideal) (iblk (V3 m ρ) c 0 (pt b 1 ki)) (iblk (V3 m ρ) c 1 (pt b 1 ki)) (ix2 r e)
      = proj (arg0 m c) (arg3 m c) b (hi r) e := by
  refine (pay4_apply _ _ r e).trans ?_
  unfold proj
  refine Finset.sum_congr rfl fun d _ => ?_
  rw [query_block_hi (V3 m ρ) c b ki r d, wq_block (V3 m ρ) c b 1 ki d e, Xq_eq, Wq_eq]

/-! ## The masked scores of one key block -/

/-- The body's masked scores of a key block against a projected query tile, once the tile's rows and the block's rows
    are known as rows of the projected queries and keys. -/
theorem scores_at (b : Fin 8) (qi ki : Fin 2) (rowQ rowK : Fin 512 → Fin 1024)
    (Qt : Vec Ideal S512x1024 .bf16) (Kb : Vec Ideal S1x512x1024 .bf16)
    (hQ : ∀ r e, Qt (ix2 r e) = proj (arg0 m c) (arg3 m c) b (rowQ r) e)
    (hK : ∀ c' e, Kb (ix3 (0 : Fin 1) c' e) = proj (arg1 m c) (arg4 m c) b (rowK c') e) (r c' : Fin 512) :
    k1_pay9 (F := Ideal) (BitVec.ofNat 32 qi.val) (BitVec.ofNat 32 ki.val) Qt Kb (ix2 r c')
      = if ki.val * 512 + c'.val ≤ qi.val * 512 + r.val
          then (∑ e : Fin 1024, proj (arg0 m c) (arg3 m c) b (rowQ r) e * proj (arg1 m c) (arg4 m c) b (rowK c') e) * ((1 / 32 : ℝ) : EReal)
          else ⊥ := by
  rw [pay9_apply qi ki Qt Kb r c']
  simp only [hQ, hK]

/-! ## The upper row tile: one key block -/

/-- An entry of the result in rows 0 … 511 is the reference's attention there: the tile's quotient was computed from
    the first key block alone, and every column of the second block is masked for these rows. -/
theorem value_lo (h0 : ∀ i, arg0 m c i ≠ ⊤ ∧ arg0 m c i ≠ ⊥) (h1 : ∀ i, arg1 m c i ≠ ⊤ ∧ arg1 m c i ≠ ⊥) (h2 : ∀ i, arg2 m c i ≠ ⊤ ∧ arg2 m c i ≠ ⊥)
    (h3 : ∀ i, arg3 m c i ≠ ⊤ ∧ arg3 m c i ≠ ⊥) (h4 : ∀ i, arg4 m c i ≠ ⊤ ∧ arg4 m c i ≠ ⊥) (h5 : ∀ i, arg5 m c i ≠ ⊤ ∧ arg5 m c i ≠ ⊥)
    (b : Fin 8) (r : Fin 512) (f : Fin 1024) :
    (dat (V3 m ρ) c).arrAt 4 cfg1.N (ix3 b (lo r) f) = attnAt (arg0 m c) (arg1 m c) (arg2 m c) (arg3 m c) (arg4 m c) (arg5 m c) b (lo r) f := by
  have hopt : op b 0 = pt b 0 1 := Fin.ext (by rw [op_val, pt_val]; rfl)
  have h41 : (pt b 0 1).val % 4 = 1 := by rw [pt_val]; have := b.isLt; show (4 * b.val + 2 * 0 + 1) % 4 = 1; omega
  have hprev : prev (pt b 0 1) = pt b 0 0 := Fin.ext (by rw [prev_val, pt_val, pt_val]; show 4 * b.val + 2 * 0 + 1 - 1 = 4 * b.val + 2 * 0 + 0; omega)
  rw [out_array_lo, hopt, outAt_skip_eq (V3 m ρ) c (pt b 0 1) h41, pay7_apply, numAfter_eq, denAfter_eq, hprev,
    coords_pt_1, coords_pt_2]
  refine first_tile_row (arg0 m c) (arg1 m c) (arg2 m c) (arg3 m c) (arg4 m c) (arg5 m c) h0 h1 h2 h3 h4 h5 b r f
    (fun c' => k1_pay9 (F := Ideal) (BitVec.ofNat 32 (0 : Fin 2).val) (BitVec.ofNat 32 (0 : Fin 2).val)
      (k1_pay4 (iblk (V3 m ρ) c 0 (pt b 0 0)) (iblk (V3 m ρ) c 1 (pt b 0 0))) (iblk (V3 m ρ) c 2 (pt b 0 0)) (ix2 r c'))
    (fun c' => scores_at m c b 0 0 lo lo _ _ (fun r e => Q_lo m ρ c b 0 r e)
      (fun c' e => (key_block_00 (V3 m ρ) c b c' e).trans (Kp_eq m ρ c b (lo c') e)) r c')
    (fun c' => k1_pay8 (F := Ideal) (iblk (V3 m ρ) c 3 (pt b 0 0)) (ix2 c' f))
    (fun c' => (pay8_apply _ c' f).trans ((value_block_00 (V3 m ρ) c b c' f).trans (Vp_eq m ρ c b (lo c') f)))
    (k1_pay1 (F := Ideal) (ix2 r (0 : Fin 1))) (k1_pay2 (F := Ideal) (ix2 r (0 : Fin 1))) (k1_pay3 (F := Ideal) (ix2 r f))
    _ _ _ (pay1_apply r) (pay2_apply r) (pay3_apply r f) (pay10_apply _ _ _ _ _ r) ?hl ?ha
  case hl =>
    rw [pay13_apply, pay11_apply]
    simp only [pay12_apply]
  case ha =>
    rw [pay5_apply, pay11_apply]
    simp only [pay12_apply]

/-! ## The lower row tile: two key blocks -/

/-- An entry of the result in rows 512 … 1023 is the reference's attention there: the first key block is wholly below
    the diagonal, the second is masked above it, and the two-block online softmax is the softmax over the row. -/
theorem value_hi (h0 : ∀ i, arg0 m c i ≠ ⊤ ∧ arg0 m c i ≠ ⊥) (h1 : ∀ i, arg1 m c i ≠ ⊤ ∧ arg1 m c i ≠ ⊥) (h2 : ∀ i, arg2 m c i ≠ ⊤ ∧ arg2 m c i ≠ ⊥)
    (h3 : ∀ i, arg3 m c i ≠ ⊤ ∧ arg3 m c i ≠ ⊥) (h4 : ∀ i, arg4 m c i ≠ ⊤ ∧ arg4 m c i ≠ ⊥) (h5 : ∀ i, arg5 m c i ≠ ⊤ ∧ arg5 m c i ≠ ⊥)
    (b : Fin 8) (r : Fin 512) (f : Fin 1024) :
    (dat (V3 m ρ) c).arrAt 4 cfg1.N (ix3 b (hi r) f) = attnAt (arg0 m c) (arg1 m c) (arg2 m c) (arg3 m c) (arg4 m c) (arg5 m c) b (hi r) f := by
  have hopt : op b 1 = pt b 1 1 := Fin.ext (by rw [op_val, pt_val]; rfl)
  have h43 : (pt b 1 1).val % 4 = 3 := by rw [pt_val]; have := b.isLt; show (4 * b.val + 2 * 1 + 1) % 4 = 3; omega
  have hprev : prev (pt b 1 1) = pt b 1 0 := Fin.ext (by rw [prev_val, pt_val, pt_val]; show 4 * b.val + 2 * 1 + 1 - 1 = 4 * b.val + 2 * 1 + 0; omega)
  rw [out_array_hi, hopt, outAt_last_eq (V3 m ρ) c (pt b 1 1) h43, pay7_apply]
  rw [qAfter_eq, maxAfter_eq, denAfter_eq, numAfter_eq, hprev]
  simp only [coords_pt_1, coords_pt_2, pay6_eq]
  refine second_tile_row (arg0 m c) (arg1 m c) (arg2 m c) (arg3 m c) (arg4 m c) (arg5 m c) h0 h1 h2 h3 h4 h5 b r f
    (fun c' => k1_pay9 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (ix2 r c'))
    (fun c' => k1_pay9 (F := Ideal) (BitVec.ofNat 32 (1 : Fin 2).val) (BitVec.ofNat 32 (1 : Fin 2).val) (k1_pay4 (iblk (V3 m ρ) c 0 (pt b 1 0)) (iblk (V3 m ρ) c 1 (pt b 1 0))) (iblk (V3 m ρ) c 2 (pt b 1 1)) (ix2 r c'))
    (fun c' => scores_at m c b 1 0 hi lo _ _ (fun r e => Q_hi m ρ c b 0 r e)
      (fun c' e => (key_block_10 (V3 m ρ) c b c' e).trans (Kp_eq m ρ c b (lo c') e)) r c')
    (fun c' => scores_at m c b 1 1 hi hi _ _ (fun r e => Q_hi m ρ c b 0 r e)
      (fun c' e => (key_block_11 (V3 m ρ) c b c' e).trans (Kp_eq m ρ c b (hi c') e)) r c')
    (fun c' => k1_pay8 (F := Ideal) (iblk (V3 m ρ) c 3 (pt b 1 0)) (ix2 c' f)) (fun c' => k1_pay8 (F := Ideal) (iblk (V3 m ρ) c 3 (pt b 1 1)) (ix2 c' f))
    (fun c' => (pay8_apply _ c' f).trans ((value_block_10 (V3 m ρ) c b c' f).trans (Vp_eq m ρ c b (lo c') f)))
    (fun c' => (pay8_apply _ c' f).trans ((value_block_11 (V3 m ρ) c b c' f).trans (Vp_eq m ρ c b (hi c') f)))
    ((k1_pay1 (F := Ideal)) (ix2 r (0 : Fin 1))) ((k1_pay2 (F := Ideal)) (ix2 r (0 : Fin 1))) ((k1_pay3 (F := Ideal)) (ix2 r f))
    ((k1_pay10 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal))) (ix2 r (0 : Fin 1))) ((k1_pay13 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal)) (k1_pay2 (F := Ideal))) (ix2 r (0 : Fin 1))) ((k1_pay5 (F := Ideal) (k1_pay8 (iblk (V3 m ρ) c 3 (pt b 1 0))) (k1_pay11 (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal))) (k1_pay12 (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal))) (k1_pay3 (F := Ideal))) (ix2 r f))
    ((k1_pay10 (F := Ideal) (BitVec.ofNat 32 (1 : Fin 2).val) (BitVec.ofNat 32 (1 : Fin 2).val) (k1_pay4 (iblk (V3 m ρ) c 0 (pt b 1 0)) (iblk (V3 m ρ) c 1 (pt b 1 0))) (iblk (V3 m ρ) c 2 (pt b 1 1)) (k1_pay10 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal)))) (ix2 r (0 : Fin 1))) ((k1_pay13 (F := Ideal) (BitVec.ofNat 32 (1 : Fin 2).val) (BitVec.ofNat 32 (1 : Fin 2).val) (k1_pay4 (iblk (V3 m ρ) c 0 (pt b 1 0)) (iblk (V3 m ρ) c 1 (pt b 1 0))) (iblk (V3 m ρ) c 2 (pt b 1 1)) (k1_pay10 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal))) (k1_pay13 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal)) (k1_pay2 (F := Ideal)))) (ix2 r (0 : Fin 1))) ((k1_pay5 (F := Ideal) (k1_pay8 (iblk (V3 m ρ) c 3 (pt b 1 1))) (k1_pay11 (BitVec.ofNat 32 (1 : Fin 2).val) (BitVec.ofNat 32 (1 : Fin 2).val) (k1_pay4 (iblk (V3 m ρ) c 0 (pt b 1 0)) (iblk (V3 m ρ) c 1 (pt b 1 0))) (iblk (V3 m ρ) c 2 (pt b 1 1)) (k1_pay10 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal)))) (k1_pay12 (BitVec.ofNat 32 (1 : Fin 2).val) (BitVec.ofNat 32 (1 : Fin 2).val) (k1_pay4 (iblk (V3 m ρ) c 0 (pt b 1 0)) (iblk (V3 m ρ) c 1 (pt b 1 0))) (iblk (V3 m ρ) c 2 (pt b 1 1)) (k1_pay10 (F := Ideal) (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal)))) (k1_pay5 (F := Ideal) (k1_pay8 (iblk (V3 m ρ) c 3 (pt b 1 0))) (k1_pay11 (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal))) (k1_pay12 (BitVec.ofNat 32 (1 : Fin 2).val) (BitVec.ofNat 32 (0 : Fin 2).val) (k1_pay4 (iblk (V3 m ρ) c 0 (pt b 1 0)) (iblk (V3 m ρ) c 1 (pt b 1 0))) (iblk (V3 m ρ) c 2 (pt b 1 0)) (k1_pay1 (F := Ideal))) (k1_pay3 (F := Ideal)))) (ix2 r f))
    (pay1_apply r) (pay2_apply r) (pay3_apply r f) (pay10_apply _ _ _ _ _ r) ?hl1 ?ha1 (pay10_apply _ _ _ _ _ r) ?hl2 ?ha2
  case hl1 =>
    rw [pay13_apply, pay11_apply]
    simp only [pay12_apply]
  case ha1 =>
    rw [pay5_apply, pay11_apply]
    simp only [pay12_apply]
  case hl2 =>
    rw [pay13_apply, pay11_apply]
    simp only [pay12_apply]
  case ha2 =>
    rw [pay5_apply, pay11_apply]
    simp only [pay12_apply]

/-! ## The whole array -/

/-- The attention region's result array is the reference's attention function of the six arguments, given that every
    entry of the arguments is a finite real. -/
theorem kernel_value (h0 : ∀ i, arg0 m c i ≠ ⊤ ∧ arg0 m c i ≠ ⊥) (h1 : ∀ i, arg1 m c i ≠ ⊤ ∧ arg1 m c i ≠ ⊥) (h2 : ∀ i, arg2 m c i ≠ ⊤ ∧ arg2 m c i ≠ ⊥)
    (h3 : ∀ i, arg3 m c i ≠ ⊤ ∧ arg3 m c i ≠ ⊥) (h4 : ∀ i, arg4 m c i ≠ ⊤ ∧ arg4 m c i ≠ ⊥) (h5 : ∀ i, arg5 m c i ≠ ⊤ ∧ arg5 m c i ≠ ⊥) :
    (dat (V3 m ρ) c).arrAt 4 cfg1.N = attn (arg0 m c) (arg1 m c) (arg2 m c) (arg3 m c) (arg4 m c) (arg5 m c) := by
  funext i
  obtain ⟨b, R, f, rfl⟩ : ∃ (b : Fin 8) (R f : Fin 1024), i = ix3 b R f := ⟨i 0, i 1, i 2, eq_ix3 i⟩
  show _ = attnAt (arg0 m c) (arg1 m c) (arg2 m c) (arg3 m c) (arg4 m c) (arg5 m c) b R f
  rcases lo_or_hi R with ⟨r, rfl⟩ | ⟨r, rfl⟩
  · exact value_lo m ρ c h0 h1 h2 h3 h4 h5 b r f
  · exact value_hi m ρ c h0 h1 h2 h3 h4 h5 b r f

end Cert.KernelIdeal.AttnValue

end
-- ==== Proof.Algebraic.lean ====
/-
  The algebraic conjunct. From memories that agree on the six arguments the idealized kernel program and the idealized
  reference both run and keep their arguments; the kernel's result array is the attention function of the arguments
  (finiteness of the inputs is what lets the online softmax over key blocks equal the softmax over the row), and the
  reference's run, read back stage by stage, is the same function.
-/
import proofs.«141642_j28802050687501_2_alg».proof.Defs
import proofs.«141642_j28802050687501_2_alg».proof.Proof.Launch
import proofs.«141642_j28802050687501_2_alg».proof.Proof.LaunchValues
import proofs.«141642_j28802050687501_2_alg».proof.Proof.Region1Body
import proofs.«141642_j28802050687501_2_alg».proof.Proof.RefAttention
import proofs.«141642_j28802050687501_2_alg».proof.Proof.FiniteInputs
import proofs.«141642_j28802050687501_2_alg».proof.Proof.Gen.KernelIdeal
import proofs.«141642_j28802050687501_2_alg».proof.Proof.Gen.ReferenceIdeal
import proofs.«141642_j28802050687501_2_alg».proof.Proof.Gen.ReferenceIdeal.Read
import proofs.«141642_j28802050687501_2_alg».proof.Proof.Gen.Pre_finite_inputs
import proofs.«141642_j28802050687501_2_alg».proof.Proof.AttentionValue

set_option maxRecDepth 16384

noncomputable section

namespace Cert.Proof.Alg

open Idealize.ShloMosaic Idealize.ShloMosaic.TcCoe Idealize.SL.Sem

/-- From memories that agree on the six arguments both idealized programs run, keep their arguments, and end with the
    same result array: the kernel's is the attention function of the arguments (the launch's value run and the
    attention region's output array), and so is the reference's (its run read back stage by stage). -/
theorem algebraic : Cert.algebraic_KernelIdeal_ReferenceIdeal := by
  intro m ρ m' ρ' hpre hagree
  refine ⟨fun c => (Cert.KernelIdeal.R1.dat (Cert.KernelIdeal.Run.V3 m ρ) c).arrAt 4 Cert.KernelIdeal.cfg1.N,
    Cert.KernelIdeal.Run.run_value m ρ (fun V c => Cert.KernelIdeal.R1.dat V c)
    (fun V c w => Cert.KernelIdeal.R1.A_eq V c w) (fun V c w => Cert.KernelIdeal.R1.q_eq V c w)
    (fun V c t => Cert.KernelIdeal.R1.owed_eq V c t) (fun V c => Cert.KernelIdeal.R1.recorded_eq V c)
    (fun V c => Cert.KernelIdeal.R1.body_obligation V c) (fun V c => Cert.KernelIdeal.R1.hin V c) (fun V c => Cert.KernelIdeal.R1.hout V c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2.1, (hagree c).2.2.2.2.2, Cert.RefValue.ref_eq]
  obtain ⟨h0, h1, h2, h3, h4, h5⟩ := Cert.FiniteInputs.finite_of_pre _ _ _ _ _ _ (hpre c)
  exact (Cert.KernelIdeal.AttnValue.kernel_value m ρ c h0 h1 h2 h3 h4 h5).symm

end Cert.Proof.Alg

end
-- ==== Proof.lean ====
/- The certificate: a causal attention kernel with fused projections against plain softmax attention.
   The kernel projects keys and values in one tiled matrix product, then, per batch and per tile of 512 query rows,
   projects the query tile once and runs the online softmax over the key blocks on or below the causal diagonal (a
   running maximum, denominator and numerator kept in scratch buffers), dividing at the last block; the reference
   forms all scores, adds minus infinity above the diagonal, and takes the softmax row by row.
   Frames (Proof/Frames.lean): each program terminates without a fault and leaves its six arguments unchanged.
   Preserves (Proof/Frames.lean): the kernel's mask fill, a very negative finite number, is read as minus infinity.
   Algebraic (Proof/Algebraic.lean): on finite inputs, over the extended reals, the two result arrays are equal entry
   by entry — the online softmax over key blocks is the softmax over the row, and the scale 1/32 is 1/sqrt(1024). -/
import proofs.«141642_j28802050687501_2_alg».proof.Defs
import proofs.«141642_j28802050687501_2_alg».proof.Proof.Frames
import proofs.«141642_j28802050687501_2_alg».proof.Proof.Algebraic
import proofs.«141642_j28802050687501_2_alg».proof.Proof.Gen.Kernel
import proofs.«141642_j28802050687501_2_alg».proof.Proof.Gen.Kernel.Skeleton
import proofs.«141642_j28802050687501_2_alg».proof.Proof.Gen.Kernel.Launch
import proofs.«141642_j28802050687501_2_alg».proof.Proof.Gen.Kernel.Regions
import proofs.«141642_j28802050687501_2_alg».proof.Proof.Gen.Kernel.Points
import proofs.«141642_j28802050687501_2_alg».proof.Proof.Gen.KernelIdeal
import proofs.«141642_j28802050687501_2_alg».proof.Proof.Gen.KernelIdeal.Skeleton
import proofs.«141642_j28802050687501_2_alg».proof.Proof.Gen.KernelIdeal.Launch
import proofs.«141642_j28802050687501_2_alg».proof.Proof.Gen.KernelIdeal.Regions
import proofs.«141642_j28802050687501_2_alg».proof.Proof.Gen.KernelIdeal.Points
import proofs.«141642_j28802050687501_2_alg».proof.Proof.Gen.ReferenceIdeal
import proofs.«141642_j28802050687501_2_alg».proof.Proof.Gen.ReferenceIdeal.Read
import proofs.«141642_j28802050687501_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_reference, Frames.preserves, Alg.algebraic⟩

end Cert.Proof

end
